-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) (main_arg1 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Kernel.lean ====
abbrev S4096x512 : Shape := ⟨2, ![4096, 512]⟩
abbrev S8192x512 : Shape := ⟨2, ![8192, 512]⟩
abbrev S1024x512 : Shape := ⟨2, ![1024, 512]⟩
abbrev S1024 : Shape := ⟨1, ![1024]⟩
abbrev S1024x1 : Shape := ⟨2, ![1024, 1]⟩
abbrev S8192x1 : Shape := ⟨2, ![8192, 1]⟩
abbrev S2048x512 : Shape := ⟨2, ![2048, 512]⟩
abbrev S512x2048 : Shape := ⟨2, ![512, 2048]⟩
abbrev S1024x2048 : Shape := ⟨2, ![1024, 2048]⟩
abbrev S8192 : Shape := ⟨1, ![8192]⟩
abbrev S_ : Shape := ⟨0, ![]⟩
abbrev S4096 : Shape := ⟨1, ![4096]⟩

abbrev nBuf : Space → Nat
  | .hbm => 37
  | .vmem => 11
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S8192x512, .f32⟩
  | .hbm, ⟨3, _⟩ => ⟨S8192x512, .bf16⟩
  | .hbm, ⟨4, _⟩ => ⟨S8192x1, .f32⟩
  | .hbm, ⟨5, _⟩ => ⟨S8192, .f32⟩
  | .hbm, ⟨6, _⟩ => ⟨S4096x512, .f32⟩
  | .hbm, ⟨7, _⟩ => ⟨S_, .f32⟩
  | .hbm, ⟨8, _⟩ => ⟨S4096, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S4096x512, .f32⟩
  | .hbm, ⟨14, _⟩ => ⟨S_, .f32⟩
  | .hbm, ⟨15, _⟩ => ⟨S4096, .f32⟩
  | .hbm, ⟨16, _⟩ => ⟨S4096, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S4096x512, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096, .f32⟩
  | .hbm, ⟨25, _⟩ => ⟨S_, .f32⟩
  | .hbm, ⟨26, _⟩ => ⟨S4096, .f32⟩
  | .hbm, ⟨27, _⟩ => ⟨S4096, .f32⟩
  | .hbm, ⟨28, _⟩ => ⟨S4096, .f32⟩
  | .hbm, ⟨29, _⟩ => ⟨S8192, .f32⟩
  | .hbm, ⟨30, _⟩ => ⟨S8192, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S2048x512, .bf16⟩
  | .local _ .vmem, ⟨7, _⟩ => ⟨S2048x512, .bf16⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v30 : BitVec 1 := Scalar.cmpi .eq arg1 c3_i32
  let v31 : BitVec 32 := Scalar.extui v30
  let c0_i32_11 : BitVec 32 := 0#32
  let v32 : BitVec 1 := Scalar.cmpi .ne v31 c0_i32_11
  v32

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  concatenates_S4096x512_S4096x512_S8192x512_d0 : Shape.Concatenates [S4096x512, S4096x512] S8192x512 0
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S1024 : S1024x512.Reduces [1] S1024
  shapeCasts_S1024_S1024x1 : S1024.ShapeCasts S1024x1
  broadcasts_S1024x1_S1024x512 : S1024x1.Broadcasts S1024x512
  bitsLt_bf16_f32 : FTy.bits .bf16 < FTy.bits .f32
  packedbf16_S1024x512_S1024x512_0_0 : (Rect.unit (s := S1024x512) ![0, 0] S1024x512.size inb_S1024x512_S1024x512_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  transposes_S2048x512_p1_0_S512x2048 : S2048x512.Transposes [1, 0] S512x2048
  iota_S1024x2048_d0_w32 : S1024x2048.Iotas .tc 32 [0]
  iota_S1024x2048_d1_w32 : S1024x2048.Iotas .tc 32 [1]
  reduces_S1024x2048_S1024 : S1024x2048.Reduces [1] S1024
  shapeCasts_S8192x1_S8192 : S8192x1.ShapeCasts S8192
  reducesTo_S4096x512_S4096_d1 : S4096x512.ReducesTo [1] S4096
  h_S_ : 0 < S_.numel
  bcast_S_S4096 : S_.BroadcastsInDim S4096 (![] : Fin 0 → Fin S4096.rank)
  concatenates_S4096_S4096_S8192_d0 : Shape.Concatenates [S4096, S4096] S8192 0
  reducesTo_S8192_S_d0 : S8192.ReducesTo [0] S_
  dot_S1024x512_S512x2048_S1024x2048_1_0_0_1_n_n_wf : DotDims.WF S1024x512 S512x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .bf16 = 32 ∨ (Rect.block (s := S8192x512) S1024x512.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x512.size a
  hwx1_0 : ∀ i : grid1.Coords, EltTy.bits .bf16 = 32 ∨ (Rect.block (s := S8192x512) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S8192x512.size a
  hwx1_1 : ∀ i : grid1.Coords, EltTy.bits .bf16 = 32 ∨ (Rect.block (s := S8192x512) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)

variable [Facts₀]

def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4096x512 : Shape := ⟨2, ![4096, 512]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S512x8192 : Shape := ⟨2, ![512, 8192]⟩
abbrev S8192x8192 : Shape := ⟨2, ![8192, 8192]⟩
abbrev S4096 : Shape := ⟨1, ![4096]⟩

abbrev nBuf : Space → Nat
  | .hbm => 62
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S8192x512, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x512, .f32⟩
  | .hbm, ⟨12, _⟩ => ⟨S8192x512, .f32⟩
  | .hbm, ⟨13, _⟩ => ⟨S512x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S8192x8192, .i32⟩
  | .hbm, ⟨20, _⟩ => ⟨S8192x8192, .i32⟩
  | .hbm, ⟨21, _⟩ => ⟨S_, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S_, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S8192, .f32⟩
  | .hbm, ⟨31, _⟩ => ⟨S4096x512, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S4096x512, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096x512, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S4096, .f32⟩
  | .hbm, ⟨50, _⟩ => ⟨S_, .f32⟩
  | .hbm, ⟨51, _⟩ => ⟨S4096, .f32⟩
  | .hbm, ⟨52, _⟩ => ⟨S4096, .f32⟩
  | .hbm, ⟨53, _⟩ => ⟨S4096, .f32⟩
  | .hbm, ⟨54, _⟩ => ⟨S8192, .f32⟩
  | .hbm, ⟨55, _⟩ => ⟨S8192, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_call1_v0 : Ref sig .tc := ⟨.hbm, 26, rfl⟩
abbrev main_call1_v1 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_call2_v0 : Ref sig .tc := ⟨.hbm, 31, rfl⟩
abbrev main_call2_cst : Ref sig .tc := ⟨.hbm, 32, rfl⟩
abbrev main_call2_v1 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_call3_v0 : Ref sig .tc := ⟨.hbm, 38, rfl⟩
abbrev main_call3_cst : Ref sig .tc := ⟨.hbm, 39, rfl⟩
abbrev main_call3_v1 : Ref sig .tc := ⟨.hbm, 40, rfl⟩
abbrev main_v21 : Ref sig .tc := ⟨.hbm, 41, rfl⟩
abbrev main_cst_4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_6 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_7 : Ref sig .tc := ⟨.hbm, 56, rfl⟩
abbrev main_v33 : Ref sig .tc := ⟨.hbm, 57, rfl⟩
abbrev main_cst_8 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩

abbrev nD : Nat := 1
abbrev τ : Topo := Topo.v7x

variable {F : FTy → Type} [FloatOps F]

class Facts₀ : Prop where
  concatenates_S4096x512_S4096x512_S8192x512_d0 : Shape.Concatenates [S4096x512, S4096x512] S8192x512 0
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  transposes_S8192x512_S512x8192_1_0 : S8192x512.Transposes [1, 0] S512x8192
  bcast_S_S8192x8192 : S_.BroadcastsInDim S8192x8192 (![] : Fin 0 → Fin S8192x8192.rank)
  reducesTo_S8192x8192_S8192_d1 : S8192x8192.ReducesTo [1] S8192
  reducesTo_S4096x512_S4096_d1 : S4096x512.ReducesTo [1] S4096
  bcast_S_S4096 : S_.BroadcastsInDim S4096 (![] : Fin 0 → Fin S4096.rank)
  concatenates_S4096_S4096_S8192_d0 : Shape.Concatenates [S4096, S4096] S8192 0
  reducesTo_S8192_S_d0 : S8192.ReducesTo [0] S_
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.RegZeroK.lean ====
import proofs.«160810_j50749333569628_1_alg».proof.Proof.Gen.Kernel.Launch
import proofs.«160810_j50749333569628_1_alg».proof.Proof.Gen.Kernel.Skeleton
import proofs.«160810_j50749333569628_1_alg».proof.Proof.Gen.Kernel.Points
import proofs.«160810_j50749333569628_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The row-normalising launch as a region of the program

The first of the program's two kernel launches walks the 8192×512 array of stacked embeddings in eight blocks of
1024 rows. At block `t` it reads rows `1024·t … 1024·t + 1023` of the input, divides every row by the larger of its
Euclidean norm and a small constant, and overwrites the same rows of the output array. No block depends on another,
nothing is carried from block to block, and the body touches no memory beyond its two staging buffers.

This file states that launch once for any float instance `F`:

* what each staging buffer holds after the body at a block (`dat0`): the input's buffer still its block of rows, the
  output's buffer the normalised block;
* that the body, run on buffers holding these, leaves exactly that (`body_obligation0`);
* the launch as a segment of the whole program between two states of the device's memory (`reg0`): it is entered with
  every long-lived array at the contents the preceding host operations left, and is left with the same contents
  except that the output array holds what the eight write-backs put there.
-/

set_option maxRecDepth 16384

noncomputable section

namespace Cert.Kernel.RegZero

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body
-- the contents of the device's long-lived arrays when the launch begins; everything below is stated for any such
variable (V : (c : Dev nD) → (b : Ref sig .tc) → Buf (Elt F) ((c : Thread nD τ).loc b))

/-! ## Blocks of rows -/

/-- The rows of window `w`'s array that block `t` covers, as the launch finds them. -/
def rowsAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds block `t`'s rows whenever the body runs at `t`: every block has its own rows
    (the row offset is `1024·t`), the window is never idle and never cut, and the body leaves the buffer as it found it.
    Stated for any proof data that reads its input array off `V` and records the input block as left in place. -/
theorem input_holds_rows {c : Dev nD} (dat : Dat τ (Elt F) Unit ℕ (UR sig nD τ) ℕ cfg0 c) (hA : dat.A 0 = V c (Pipeline.arrRef spec0 0))
    (hkept : ∀ t, dat.after 0 t = rowsAt V c 0 t) (t : Fin cfg0.N) (d) : dat.before 0 t d = rowsAt V c 0 t :=
  (dat.before_in_eq_fetched 0 rfl (fun _ => rfl) (fun _ _ _ => rfl) (fun t => by rw [hkept]; unfold Dat.blockOf rowsAt; rw [hA]; try rfl) t d).trans
    (by unfold Dat.fetched Dat.blockOf rowsAt; rw [hA]; try rfl)

/-! ## What the body writes -/

/-- The one rectangle the body loads and stores through: all 1024×512 entries of a staging buffer. -/
abbrev allRows : Rect S1024x512 := Rect.unit (s := S1024x512) ![0, 0] S1024x512.size inb_S1024x512_S1024x512_0_0

/-- The output's staging buffer after the body, as a function of the input block `x`: the single store of the
    normalised block, which fills the buffer. -/
def normalised (x : Vec F S1024x512 .f32) : Vec F S1024x512 .bf16 :=
  View.canon [⟨allRows, k0_pay1 (View.ld x allRows)⟩]

/-- That store covers the buffer: one rectangle of the buffer's own extents at offset zero. -/
theorem store_fills (p : Vec F S1024x512 .bf16) (y : S1024x512.Idx) :
    ∃ pc ∈ ([⟨allRows, p⟩] : List (View.Piece (Elt F) S1024x512 .bf16)), y ∈ pc.1.set :=
  View.cover_of_tiled [⟨allRows, p⟩] S1024x512.size (by rfl) y

/-! ## The body on two whole buffers -/

set_option maxHeartbeats 1000000 in
/-- The kernel body, given the input's staging buffer whole at contents reading `x` and the output's whole at anything,
    ends with the input's as it was and the output's reading `normalised x`. It loads the input, loads the output
    (the value is not used), and stores the normalised block over the whole output buffer. -/
theorem body_on_buffers (c : Dev nD) (E : Set ℕ) (i : grid0.Coords) (src : Memref sig .tc .vmem S1024x512 .f32) (hsrc : src.IsWhole)
    (dst : Memref sig .tc .vmem S1024x512 .bf16) (hdst : dst.IsWhole)
    (x : Vec F S1024x512 .f32) (K : PUnit → sProp 𝕄) :
    iprop(owns (c : Thread nD τ) src fullShare x ∗ (∃ d, owns (c : Thread nD τ) dst fullShare d)
        ∗ (iprop(owns (c : Thread nD τ) src fullShare x ∗ owns (c : Thread nD τ) dst fullShare (normalised x)) -∗ K ⟨⟩))
      ⊢ wp frame (wpE (defs₀ (F := F)) Variants.none c none) E (cc0__normalize_kernel i src hsrc dst hdst) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (store_fills _)

/-! ## The launch's proof data -/

/-- The proof data of the launch on core `c`: its two arrays as `V` has them; after the body at block `t` the input's
    buffer still block `t`'s rows and the output's buffer those rows normalised; between blocks only the scoped buffers the
    launch does not stage and the generator register, at whatever they hold; the input array wholly owned; nothing owed. -/
def dat0 (c : Dev nD) : Dat τ (Elt F) Unit ℕ (UR sig nD τ) ℕ cfg0 c where
  A w := V c (Pipeline.arrRef spec0 w)
  after w t := match w with
    | ⟨0, _⟩ => rowsAt V c 0 t
    | ⟨1, _⟩ => normalised (rowsAt V c 0 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after_in (c : Dev nD) (t : Fin cfg0.N) : (dat0 V c).after 0 t = rowsAt V c 0 t := by dsimp only [dat0]
theorem dat0_after_out (c : Dev nD) (t : Fin cfg0.N) : (dat0 V c).after 1 t = normalised (rowsAt V c 0 t) := by dsimp only [dat0]

/-- When the body runs at block `t` the input's buffer holds block `t`'s rows. -/
theorem dat0_before_in (c : Dev nD) (t : Fin cfg0.N) (d) : (dat0 V c).before 0 t d = rowsAt V c 0 t :=
  input_holds_rows V (dat0 V c) (dat0_A V c 0) (dat0_after_in V c) t d

/-! ## The body at a block -/

/-- What the body is given at block `t`: the invariant, what the core owes, and the two current staging buffers. -/
def given (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- What it gives back. -/
def left (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at block `t`: the input's buffer holds the block's rows, so `body_on_buffers` applies at those rows; the
    invariant and what the core owes are the same before and after and are not touched. -/
theorem body_at_block (c : Dev nD) (t : Fin cfg0.N) :
    given V c t ⊢ wp frame (wpE (defs₀ (F := F)) Variants.none c none) Set.univ (bodyAt0 t) (fun _ => left V c t) := by
  unfold given left bodyAt0
  simp only [dat0_before_in]
  rw [show (dat0 V c).Φ t.succ = (dat0 V c).Φ t.castSucc from rfl,
    show (dat0 V c).owesAt () t.succ = (dat0 V c).owesAt () t.castSucc from rfl,
    dat0_after_in, dat0_after_out]
  iintro ⟨HΦ, Ho, ⟨%d0, H0⟩, ⟨%d1, H1⟩⟩
  iapply (body_on_buffers c Set.univ (grid0.coords t) _ _ _ _ (rowsAt V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the launch, at every block. -/
theorem body_obligation0 (c : Dev nD) : BodyObligation (dat0 (F := F) V c) (defs₀ (F := F)) Variants.none () Set.univ := fun t => by
  rw [bigSep_W0, bigSep_W0]
  exact body_at_block V c t

end Body

/-! ## The launch as a segment of the program -/

variable (m : (ℓ : Loc nD τ sig) → Buf (Elt F) ℓ) (outs : Outs (F := F))

/-- The proof data of both launches: this one's at the contents the first host operation leaves, the other's as given. -/
def pdats (d1 : (c : Dev nD) → Dat τ (Elt F) Unit ℕ (UR sig nD τ) ℕ cfg1 c) :
    (p : Fin 2) → (c : Dev nD) → Dat τ (Elt F) Unit ℕ (UR sig nD τ) ℕ (cfgs p) c
  | ⟨0, _⟩ => fun c => dat0 (fun c b => V1 m c b) c
  | ⟨1, _⟩ => fun c => d1 c

/-- No core waits on another: no level is assigned. -/
abbrev L : GSem nD τ sig → Finset Unit := fun _ => ∅
abbrev lv : GSem nD τ sig → Unit → ℕ := fun _ _ => 0

/-- What a core holds beside its long-lived arrays through the whole program: its generator register at some state and
    nothing owed. -/
abbrev R (c : Dev nD) : sProp 𝕄 := iprop((∃ r, prngReg c r) ∗ ∃ W, owes (c : Thread nD τ) (0 : CellTallies nD τ sig Unit) W)

/-- At the end of the launch each of its two arrays holds what the exit contents say: the input array was only read, and
    the output array's final contents are by hypothesis what the eight write-backs leave. -/
theorem arrays_at_exit (c : Dev nD) (ho : outs 2 main_v1 c = (dat0 (fun c b => V1 m c b) c).arrAt 1 cfg0.N) :
    ∀ w : Fin cfg0.W, (dat0 (fun c b => V1 m c b) c).arrAt w cfg0.N = V2 m outs c (Pipeline.arrRef spec0 w)
  | ⟨0, _⟩ => by
    show (dat0 (fun c b => V1 m c b) c).arrAt 0 cfg0.N = V2 m outs c main_v0
    rw [V2_of m outs c main_v0 (by decide), (dat0 (fun c b => V1 m c b) c).arrAt_in 0 rfl _, dat0_A]
  | ⟨1, _⟩ => by
    show (dat0 (fun c b => V1 m c b) c).arrAt 1 cfg0.N = V2 m outs c main_v1
    rw [← ho]; exact (Function.update_self (Proc.devRef .tc main_v1 : DevRef τ sig) (outs 2 main_v1 c) (V1 m c)).symm

/-- Every other long-lived array is as the launch found it. -/
theorem others_at_exit (c : Dev nD) (b : Ref sig .tc) (hb : b ∉ Finset.univ.image (Pipeline.arrRef spec0)) :
    V2 m outs c b = V1 m c b :=
  V2_of m outs c b fun h => hb (Finset.mem_image.mpr ⟨1, Finset.mem_univ _, (List.mem_singleton.mp h).symm⟩)

set_option backward.isDefEq.respectTransparency.types false in
/-- THE LAUNCH AS A SEGMENT. Entered with every long-lived array at `V1` beside `R`; left with every long-lived array at
    `V2` — `V1` with the output array replaced — beside `R`. On entry the two arrays are taken out of the long-lived
    arrays; the generator register goes into the launch's invariant and comes back; at exit the arrays are put back. -/
def reg0 (d1 : (c : Dev nD) → Dat τ (Elt F) Unit ℕ (UR sig nD τ) ℕ cfg1 c)
    (ho : ∀ c, outs 2 main_v1 c = (dat0 (fun c b => V1 m c b) c).arrAt 1 cfg0.N) :
    Pipeline.RegionSeg (pcfgs (F := F)) adm (pdats m d1) () defs₀ Variants.none L lv 0 where
  win := launch0.win.to₀
  block_pos := launch0.block_pos
  stage_whole := launch0.stage_whole
  K := PEmpty
  osem k := k.elim
  ho := Pipeline.OwnSemFacts.none _
  hbody c := (body_obligation0 (fun c b => V1 m c b) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m outs c) ∗ R c)
  X c := iprop(∃ r, prngReg c r)
  Y c := iprop(∃ r, prngReg c r)
  Z c := Pipeline.unscopedRest (Ix := Unit) (Name := ℕ) (U := UR sig nD τ) (Lvl := ℕ) spec0 c (fun b => V1 m c b)
  hentry c := by
    rw [Pipeline.ownSems0_none]
    have hsplit := Pipeline.arrays_of_unscopedBufs (p := 0) (pcfgs (F := F)) adm (pdats m d1) launch0.win launch0.arr_whole c
      ((pdats m d1 0 c).share_full fun _ => rfl) (fun b => V1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m d1 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m d1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m d1) ((pdats m d1 0 c).share_full fun _ => rfl)
      (fun b => V1 m c b) (fun b => V2 m outs c b) ((pdats m d1 0 c).arrAt · cfg0.N) (arrays_at_exit m outs c (ho c)) (others_at_exit m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.RegZero

end
-- ==== Proof.SimKRuns.lean ====
/-
  The second kernel region (the similarity row sums), part 1: what its three control cases share.

  The grid is 8 x 4: point t = 4 i + j handles row tile i (1024 rows) against column tile j (2048 columns).  The body
  zeroes a [1024,1] accumulator when j = 0, adds the tile's row sums to it at every j, and copies it to the output
  block when j = 3.  So a point is in one of three cases: j = 0 (accumulator started afresh), j = 1, 2 (accumulator
  carried), j = 3 (carried, then copied out).  This module states the two branch conditions in closed form over the
  grid, where the output window is idle, and names the staging and accumulator buffers.
-/
import proofs.«160810_j50749333569628_1_alg».proof.Proof.Gen.Kernel.Launch
import proofs.«160810_j50749333569628_1_alg».proof.Proof.Gen.Kernel.Skeleton
import proofs.«160810_j50749333569628_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.RegOne

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The windows' blocks, read off the arrays as the region finds them -/

section
variable (V : (c : Dev nD) → (b : Ref sig .tc) → Buf (Elt F) ((c : Thread nD τ).loc b))

/-- Window w's block at point t of the array contents V. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-tile window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The column-tile window's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
end

/-! ## The body's two branch conditions -/

/-- "This is the first column tile" (j = 0), as the body computes it from the grid coordinates. -/
abbrev cond1_0 (i : grid1.Coords) : Prop := (Scalar.cmpi .ne (Scalar.extui (Scalar.cmpi .eq (BitVec.ofNat 32 (i 1).val) 0#32)) 0#32) = 1#1
/-- It holds exactly at the points 4 i. -/
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last column tile" (j = 3). -/
abbrev cond1_1 (i : grid1.Coords) : Prop := k1_cond2 i = 1#1
/-- It holds exactly at the points 4 i + 3. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the output window is idle -/

/-- Off the last column tile the output block is neither stored into nor written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- On the last column tile it is stored into. -/
theorem liveAt1_2 : ∀ t : Fin cfg1.N, cond1_1 (grid1.coords t) → cfg1.idle 2 (grid1.coords t) = false := by decide +kernel
/-- The two input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl

/-! ## The buffers the body is called with -/

/-- One staging buffer of the output window, through which its contents are stated. -/
abbrev VO1_2 : View sig .tc .vmem S1024x1 .f32 := (Memref.whole cc1_stg2_0 : Memref sig .tc .vmem S1024x1 .f32).view
abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1_0 : Memref sig .tc .vmem S1024x1 .f32 := Memref.whole cc1_scratch0
abbrev VS1_0 : View sig .tc .vmem S1024x1 .f32 := scM1_0.view

/-- The region's invariant before the first point: the first region's four staging buffers at anything, the accumulator
    owned at anything, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.Kernel.RegOne

end
-- ==== Proof.SimKRunA.lean ====
/-
  The second kernel region, case j = 0: the accumulator is zeroed, then the tile's row sums are added to it; the
  output block is left untouched.  The body is run symbolically on whole staging buffers; what it leaves in the
  accumulator is recorded as the list of pieces its stores wrote.
-/
import proofs.«160810_j50749333569628_1_alg».proof.Proof.SimKRuns

set_option maxRecDepth 16384

noncomputable section

namespace Cert.Kernel.RegOne

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : cond1_0 i) (hc1 : ¬cond1_1 i)
    (x0 : Vec F S1024x512 .bf16) (x1 : Vec F S2048x512 .bf16) :
    Σ' (L2 : List (View.Piece (Elt F) S1024x1 .f32)), { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__simsum_kernel i arg2 harg2 arg3 harg3 arg4 harg4 arg5 harg5) K } := by
  refine ⟨[], ?_, fun xi2 E K => ?run⟩
  case run =>
    simp only [cc1__simsum_kernel_eq_skeleton]; unfold cc1__simsum_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.RegOne

end
-- ==== Proof.SimKRunB.lean ====
/-
  The second kernel region, cases j = 1 and j = 2: the tile's row sums are added to the accumulator the point before
  left; the output block is left untouched.
-/
import proofs.«160810_j50749333569628_1_alg».proof.Proof.SimKRunA

set_option maxRecDepth 16384

noncomputable section

namespace Cert.Kernel.RegOne

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : ¬cond1_1 i)
    (x0 : Vec F S1024x512 .bf16) (x1 : Vec F S2048x512 .bf16) (xs0 : Vec F S1024x1 .f32) :
    Σ' (L2 : List (View.Piece (Elt F) S1024x1 .f32)), { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__simsum_kernel i arg2 harg2 arg3 harg3 arg4 harg4 arg5 harg5) K } := by
  refine ⟨[], ?_, fun xi2 E K => ?run⟩
  case run =>
    simp only [cc1__simsum_kernel_eq_skeleton]; unfold cc1__simsum_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.RegOne

end
-- ==== Proof.SimKRunC.lean ====
/-
  The second kernel region, case j = 3: the tile's row sums are added to the accumulator the point before left, and
  the accumulator is copied to the output block.
-/
import proofs.«160810_j50749333569628_1_alg».proof.Proof.SimKRunB

set_option maxRecDepth 16384

noncomputable section

namespace Cert.Kernel.RegOne

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : cond1_1 i)
    (x0 : Vec F S1024x512 .bf16) (x1 : Vec F S2048x512 .bf16) (xs0 : Vec F S1024x1 .f32) :
    Σ' (L2 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__simsum_kernel i arg2 harg2 arg3 harg3 arg4 harg4 arg5 harg5) K } := by
  refine ⟨?_, ?_, fun E K => ?run⟩
  case run =>
    simp only [cc1__simsum_kernel_eq_skeleton]; unfold cc1__simsum_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.RegOne

end
-- ==== Proof.SimKFrame.lean ====
/-
  The second kernel region, part 2: what its buffers hold point by point, and the body's obligation.

  After point t = 4 i + j the accumulator holds the row sums of row tile i over the column tiles 0 … j: started afresh
  at j = 0 (case A), carried at j = 1, 2 (case B) and at j = 3 (case C), where it is also copied to the output block.
  The region's invariant carries the accumulator at exactly these contents from each point to the next; the output
  window is idle (handed back as found) except at j = 3.  The array behind the two input windows is one and the same
  (the normalized rows, read once as row tiles and once as column tiles): each input window holds one half share of it.
-/
import proofs.«160810_j50749333569628_1_alg».proof.Proof.SimKRunC

set_option maxRecDepth 16384

noncomputable section

namespace Cert.Kernel.RegOne

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the accumulator and in the output block -/

/-- Case j = 0: the accumulator's pieces cover it. -/
theorem scover1_A_0 (c : Dev nD) (i : grid1.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : cond1_0 i) (hc1 : ¬cond1_1 i)
    (x0 : Vec F S1024x512 .bf16) (x1 : Vec F S2048x512 .bf16) (y : S1024x1.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1024x1.size (by sl_kernel_rfl) y

/-- Case j = 0: what the accumulator holds afterwards. -/
def sout1_A_0 (c : Dev nD) (i : grid1.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : cond1_0 i) (hc1 : ¬cond1_1 i)
    (x0 : Vec F S1024x512 .bf16) (x1 : Vec F S2048x512 .bf16) : Vec F S1024x1 .f32 :=
  VS1_0.read (Elt F) (VS1_0.writes (Elt F) VS1_0.junk (kernelRun1_A c i arg2 harg2 arg3 harg3 arg4 harg4 arg5 harg5 hc0 hc1 x0 x1).2.1)

theorem scover1_B_0 (c : Dev nD) (i : grid1.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : ¬cond1_1 i)
    (x0 : Vec F S1024x512 .bf16) (x1 : Vec F S2048x512 .bf16) (xs0 : Vec F S1024x1 .f32) (y : S1024x1.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S1024x1.size (by sl_kernel_rfl) y

/-- Cases j = 1, 2: what the accumulator holds afterwards, from what it held before. -/
def sout1_B_0 (c : Dev nD) (i : grid1.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : ¬cond1_1 i)
    (x0 : Vec F S1024x512 .bf16) (x1 : Vec F S2048x512 .bf16) (xs0 : Vec F S1024x1 .f32) : Vec F S1024x1 .f32 :=
  VS1_0.read (Elt F) (VS1_0.writes (Elt F) VS1_0.junk (kernelRun1_B c i arg2 harg2 arg3 harg3 arg4 harg4 arg5 harg5 hc0 hc1 x0 x1 xs0).2.1)

theorem scover1_C_0 (c : Dev nD) (i : grid1.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : cond1_1 i)
    (x0 : Vec F S1024x512 .bf16) (x1 : Vec F S2048x512 .bf16) (xs0 : Vec F S1024x1 .f32) (y : S1024x1.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1024x1.size (by sl_kernel_rfl) y

/-- Case j = 3: what the accumulator holds afterwards. -/
def sout1_C_0 (c : Dev nD) (i : grid1.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : cond1_1 i)
    (x0 : Vec F S1024x512 .bf16) (x1 : Vec F S2048x512 .bf16) (xs0 : Vec F S1024x1 .f32) : Vec F S1024x1 .f32 :=
  VS1_0.read (Elt F) (VS1_0.writes (Elt F) VS1_0.junk (kernelRun1_C c i arg2 harg2 arg3 harg3 arg4 harg4 arg5 harg5 hc0 hc1 x0 x1 xs0).2.1)

theorem cover1_C_2 (c : Dev nD) (i : grid1.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : cond1_1 i)
    (x0 : Vec F S1024x512 .bf16) (x1 : Vec F S2048x512 .bf16) (xs0 : Vec F S1024x1 .f32) (y : S1024x1.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1024x1.size (by sl_kernel_rfl) y

/-- Case j = 3: what the output block holds afterwards. -/
def out1_C_2 (c : Dev nD) (i : grid1.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : cond1_1 i)
    (x0 : Vec F S1024x512 .bf16) (x1 : Vec F S2048x512 .bf16) (xs0 : Vec F S1024x1 .f32) : Vec F S1024x1 .f32 :=
  VO1_2.read (Elt F) (VO1_2.writes (Elt F) VO1_2.junk (kernelRun1_C c i arg2 harg2 arg3 harg3 arg4 harg4 arg5 harg5 hc0 hc1 x0 x1 xs0).1)

section
variable (V : (c : Dev nD) → (b : Ref sig .tc) → Buf (Elt F) ((c : Thread nD τ).loc b))

/-! ## Point by point -/

/-- What the output block (first component; meaningful at the points 4 i + 3 only, elsewhere a placeholder nothing
    reads) and the accumulator (second component) hold after the body at position n. -/
def outsAt1 (c : Dev nD) : (n : ℕ) → n < cfg1.N → Vec F S1024x1 .f32 × Vec F S1024x1 .f32
  | 0, hn => (sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then False.elim (by omega)
      else (sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position n: before the first point every scoped buffer that is no staging buffer of this region is at
    anything; afterwards the accumulator is at what the point before left. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The proof data -/

/-- The arrays as the region finds them; after the body each input's buffer at its block and the output's at the
    point's contents; the invariant above; the array read through both input windows held half and half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

end

section
variable (V : (c : Dev nD) → (b : Ref sig .tc) → Buf (Elt F) ((c : Thread nD τ).loc b))

set_option maxHeartbeats 4800000 in
/-- The body at any point: the input windows' buffers hold their blocks; the closed forms say which case the point is
    in; the invariant hands the body the accumulator at what the point before left (at anything at the very first
    point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 4 = 0
  · have h1 : ¬t.val % 4 = 3 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A_0; (try dsimp only)
    by_cases hz : t.val = 0
    · rw [PhiS1_castSucc V c t, PhiS1_zero V c _ _ hz, PhiA1_eq]
      iintro ⟨⟨⟨HR0, HR1, HR2, HR3, HS0⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HR0 HR1 HR2 HR3 HS0 Hg]
      · isplitl [HR0 HR1 HR2 HR3 HS0]
        · isplitl [HR0]; · iexact HR0
          isplitl [HR1]; · iexact HR1
          isplitl [HR2]; · iexact HR2
          isplitl [HR3]; · iexact HR3
          unfold owns; iexists _; isplitr
          swap; · iexact HS0
          ipureintro; exact View.read_writes_of_cover _ _ _ _ _ (scover1_A_0 c _ _ _ _ _ _ _ _ _ _ _ _ _)
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HR0, HR1, HR2, HR3, HS0⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HR0 HR1 HR2 HR3 HS0 Hg]
      · isplitl [HR0 HR1 HR2 HR3 HS0]
        · isplitl [HR0]; · iexact HR0
          isplitl [HR1]; · iexact HR1
          isplitl [HR2]; · iexact HR2
          isplitl [HR3]; · iexact HR3
          unfold owns; iexists _; isplitr
          swap; · iexact HS0
          ipureintro; exact View.read_writes_of_cover _ _ _ _ _ (scover1_A_0 c _ _ _ _ _ _ _ _ _ _ _ _ _)
        iexact Hg
      isplitl [Ho]; · iexact Ho
      isplitl [H0]; · iexact H0
      isplitl [H1]; · iexact H1
      iexists _; iexact H2
  · have hz : t.val ≠ 0 := by omega
    by_cases h1 : t.val % 4 = 3
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_2 sout1_C_0; (try dsimp only)
      rw [PhiS1_castSucc V c t, PhiS1_pos V c _ _ hz]
      iintro ⟨⟨⟨HR0, HR1, HR2, HR3, HS0⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HR0 HR1 HR2 HR3 HS0 Hg]
      · isplitl [HR0 HR1 HR2 HR3 HS0]
        · isplitl [HR0]; · iexact HR0
          isplitl [HR1]; · iexact HR1
          isplitl [HR2]; · iexact HR2
          isplitl [HR3]; · iexact HR3
          unfold owns; iexists _; isplitr
          swap; · iexact HS0
          ipureintro; exact View.read_writes_of_cover _ _ _ _ _ (scover1_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B_0; (try dsimp only)
      rw [PhiS1_castSucc V c t, PhiS1_pos V c _ _ hz]
      iintro ⟨⟨⟨HR0, HR1, HR2, HR3, HS0⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HR0 HR1 HR2 HR3 HS0 Hg]
      · isplitl [HR0 HR1 HR2 HR3 HS0]
        · isplitl [HR0]; · iexact HR0
          isplitl [HR1]; · iexact HR1
          isplitl [HR2]; · iexact HR2
          isplitl [HR3]; · iexact HR3
          unfold owns; iexists _; isplitr
          swap; · iexact HS0
          ipureintro; exact View.read_writes_of_cover _ _ _ _ _ (scover1_B_0 c _ _ _ _ _ _ _ _ _ _ _ _ _ _)
        iexact Hg
      isplitl [Ho]; · iexact Ho
      isplitl [H0]; · iexact H0
      isplitl [H1]; · iexact H1
      iexists _; iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the region is handed before the first point is the invariant there. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq]
  iintro ⟨⟨HR0, HR1, HR2, HR3, HS0⟩, Hg⟩
  isplitl [HR0 HR1 HR2 HR3 HS0]
  · isplitl [HR0]; · iexact HR0
    isplitl [HR1]; · iexact HR1
    isplitl [HR2]; · iexact HR2
    isplitl [HR3]; · iexact HR3
    iexists _; iexact HS0
  iexact Hg

end

end Cert.Kernel.RegOne

end
-- ==== Proof.SimKRegion.lean ====
/-
  The second kernel region, part 3: the region as one segment of the program's run.

  It is entered holding every unscoped buffer whole at the contents W and left holding them at W', which differs from W
  only at the output array (the row sums).  The array of normalized rows is read through two input windows, so at
  entry its buffer, held whole, is split into two half shares, one per window, and at exit — both windows having only
  read it — the halves are joined again.
-/
import proofs.«160810_j50749333569628_1_alg».proof.Proof.SimKFrame
import Idealize.ShloMosaic.Lib.Pipeline.Regions
import Idealize.ShloMosaic.Lib.Pipeline.RegionsLoop
import proofs.«160810_j50749333569628_1_alg».proof.Proof.Gen.Kernel.Regions

set_option maxRecDepth 16384

noncomputable section

namespace Cert.Kernel.RegOne

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

/-- No core owes another anything: no level is assigned. -/
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)

section
variable (W W' : Dev nD → Valuation τ sig (Elt F))

/-- The entry valuation read at the TensorCore's references. -/
abbrev Vof (c : Dev nD) (b : Ref sig .tc) : Buf (Elt F) ((c : Thread nD τ).loc b) := W c b

/-- The region's arrays, window by window: the normalized rows at a half share twice, the output whole. -/
theorem arrays1_eq (c : Dev nD) (G : (w : Fin cfg1.W) → Buf (Elt F) ((cfg1.win w).arr.view.loc (c : Thread nD τ))) :
    ((dat1 (Vof W) c).arrays G : sProp 𝕄)
      = iprop((((c : Thread nD τ).loc main_v1) ↦{fullShare.left} G 0) ∗ (((c : Thread nD τ).loc main_v1) ↦{fullShare.right} G 1) ∗ (((c : Thread nD τ).loc main_v2) ↦{fullShare} G 2)) := by
  unfold Dat.arrays
  rw [bigSep_W1, (arr_whole1 0).set_eq_univ, (arr_whole1 2).set_eq_univ]
  rfl

/-- The two distinct buffers behind the three windows. -/
theorem arrBufs1_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_v1) ↦{fullShare} Vc main_v1) ∗ (((c : Thread nD τ).loc main_v2) ↦{fullShare} Vc main_v2)) := by
  unfold Pipeline.arrBufs
  rw [BI.bigSep_eq_bigSepL_of_eq [main_v1, main_v2] (by decide) (by decide)]; rfl

/-- Every unscoped buffer held whole: the two arrays' buffers and the rest. -/
theorem held_split (c : Dev nD) (X : Dev nD → Valuation τ sig (Elt F)) :
    (StableHlo.held (c : Thread nD τ) (Pipeline.ucRefs τ sig) (X c) : sProp 𝕄)
      = iprop(Pipeline.arrBufs spec1 c (Vof X c) ∗ Pipeline.unscopedRest spec1 c (Vof X c)) := by
  rw [← Pipeline.unscopedBufs_held (Ix := Unit) (Name := ℕ) (U := UR sig nD τ) (Lvl := ℕ) c (X c)]
  have hA : Finset.univ.image (Pipeline.arrRef spec1) ⊆ Finset.univ.filter fun b : Ref sig .tc => ¬ b.isScoped := by decide
  unfold unscopedBufs Pipeline.unscopedRest Pipeline.arrBufs
  rw [BI.bigSep_sdiff_split hA]
  rfl

end

section
variable (W W' : Dev nD → Valuation τ sig (Elt F))

/-- At entry: the buffer of normalized rows, held whole, is split between the two windows that read it. -/
theorem hsplit1 (c : Dev nD) :
    (Pipeline.arrBufs spec1 c (Vof W c) : sProp 𝕄) ⊢ (dat1 (Vof W) c).arrays ((dat1 (Vof W) c).arrAt · 0) := by
  rw [arrBufs1_eq, arrays1_eq]
  show iprop(_ ∗ _) ⊢ iprop((_ ↦{fullShare.left} (Vof W c main_v1)) ∗ (_ ↦{fullShare.right} (Vof W c main_v1)) ∗ (_ ↦{fullShare} (Vof W c main_v2)))
  iintro ⟨H1, H2⟩
  ihave H1' := (pointsTo_share (PosShare.mem_left_op_right fullShare)).1 $$ H1
  icases H1' with ⟨Ha, Hb⟩
  isplitl [Ha]; · iexact Ha
  isplitl [Hb]; · iexact Hb
  iexact H2

variable (pd : (p : Fin 2) → (c : Dev nD) → Dat τ (Elt F) Unit ℕ (UR sig nD τ) ℕ (cfgs p) c)
  (hp : ∀ c, pd 1 c = dat1 (Vof W) c)
  (hW1 : ∀ c, W' c main_v1 = W c main_v1)
  (hW2 : ∀ c, W' c main_v2 = (dat1 (Vof W) c).arrAt 2 cfg1.N)
  (hWr : ∀ c (b : Ref sig .tc), b ∉ Finset.univ.image (Pipeline.arrRef spec1) → W' c b = W c b)

set_option backward.isDefEq.respectTransparency.types false in
/-- The second kernel region as a segment: entered from every unscoped buffer at W, left at W'. -/
def reg1 : RegionSeg (pcfgs (F := F)) adm pd () defs₀ Variants.none L lv 1 where
  win := winFacts₀1
  block_pos := block_pos1
  stage_whole := stage_whole1
  K := PEmpty
  osem k := k.elim
  ho := Pipeline.OwnSemFacts.none _
  hbody c := by rw [hp c]; exact (body_obligation1 (Vof W) c).loose
  hwaits := Pipeline.hwaits_of_owed_zero _ _ _ _ L lv 1 fun c _ => by rw [hp c]; rfl
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) spec1 c (Vof W c)
  hentry c := by
    rw [Pipeline.ownSems0_none, hp c]
    iintro ⟨⟨Hub, Hp, HO⟩, -, -⟩
    ihave H := (Entails.of_eq (held_split c W)) $$ Hub
    icases H with ⟨Ha, Hrest⟩
    ihave Ha' := (hsplit1 W c) $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W₀, HO⟩; iexists W₀; isplitr; · ipureintro; exact fun _ _ => Or.inl trivial
      iexact HO
    isplitl [Hp]; · iexact Hp
    iexact Hrest
  hin c := by
    rw [hp c]
    refine (?_ : _ ⊢ (Pipeline.ΦA spec1 c : sProp 𝕄)).trans (hin1 (Vof W) c)
    unfold Pipeline.ΦA
    iintro ⟨Hp, -, Hr⟩
    isplitl [Hr]; · iexact Hr
    iexact Hp
  hout c := by
    rw [Pipeline.ownSems0_none, hp c]
    refine (hout1 (Vof W) c).trans ?_
    unfold Pipeline.ΦA
    iintro ⟨Hr, Hp⟩
    isplitl [Hp]; · iexact Hp
    isplitr; · iempintro
    iexact Hr
  hexit c := by
    rw [hp c]
    have hrest : (Pipeline.unscopedRest (Ix := Unit) (Name := ℕ) (U := UR sig nD τ) (Lvl := ℕ) spec1 c (Vof W c) : sProp 𝕄)
        = Pipeline.unscopedRest spec1 c (Vof W' c) := by
      unfold Pipeline.unscopedRest
      exact BI.bigSep_congr fun b hb => by rw [show Vof W' c b = Vof W c b from hWr c b (Finset.mem_sdiff.mp hb).2]
    rw [arrays1_eq, held_split c W', arrBufs1_eq, ← hrest,
      (dat1 (Vof W) c).arrAt_in 0 rfl _, (dat1 (Vof W) c).arrAt_in 1 rfl _, A_eq1, A_eq1,
      show Vof W' c main_v1 = Vof W c main_v1 from hW1 c, show Vof W' c main_v2 = (dat1 (Vof W) c).arrAt 2 cfg1.N from hW2 c]
    iintro ⟨⟨Ha, Hb, Hc⟩, HO, HY, Hrest⟩
    imodintro
    isplitl [Ha Hb Hc Hrest]
    · isplitl [Ha Hb Hc]
      · isplitl [Ha Hb]
        · ihave Hj := (pointsTo_share (PosShare.mem_left_op_right fullShare)).2 $$ [Ha Hb]
          · isplitl [Ha]; · iexact Ha
            iexact Hb
          iexact Hj
        iexact Hc
      iexact Hrest
    isplitl [HY]; · iexact HY
    unfold Pipeline.Dat.owesAt Pipeline.owesWithin
    icases HO with ⟨%W₀, -, HO⟩; iexists W₀; iexact HO

end

end Cert.Kernel.RegOne

end
-- ==== Proof.AssembleK.lean ====
import proofs.«160810_j50749333569628_1_alg».proof.Proof.Gen.Kernel.Regions
import proofs.«160810_j50749333569628_1_alg».proof.Proof.RegZeroK
import proofs.«160810_j50749333569628_1_alg».proof.Proof.SimKRegion
import Idealize.ShloMosaic.Lib.Pipeline.Regions
import Idealize.ShloMosaic.Lib.Pipeline.Kit

/-!
# The two kernel regions put into the program's run

The program is a chain of host operations around two kernel regions.  Its run is composed from one record per region,
each entered from the contents of the long-lived arrays before it and left at the contents after it.  The contents
the regions leave are fixed here without circularity:

* the first region leaves, in the array of normalised rows, what its eight write-backs put there — a function of the
  stacked input alone;
* the second region is entered with the long-lived arrays as the first host operation left them but for that array,
  and leaves, in the array of row sums, what its write-backs put there — a function of those entry contents.

With these the valuations between the program's items are determined, the two regions' records fit between them, and
the launch's resources (each core's generator register, and nothing owed) ride along unchanged.
-/

set_option maxRecDepth 16384

noncomputable section

namespace Cert.Kernel.Assemble

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## What the regions leave -/

/-- What the first region leaves in the array of normalised rows. -/
def o2 (c : Dev nD) : Buf (Elt F) ((c : Thread nD τ).loc main_v1) :=
  (RegZero.dat0 (fun c b => V1 m c b) c).arrAt 1 cfg0.N

/-- The long-lived arrays when the second region is entered: as the first host operation left them, but for the
    array of normalised rows. -/
def W2 (c : Dev nD) : Valuation τ sig (Elt F) := Function.update (V1 m c) main_v1 (o2 m c)

/-- What the second region leaves in the array of row sums. -/
def o3 (c : Dev nD) : Buf (Elt F) ((c : Thread nD τ).loc main_v2) :=
  (RegOne.dat1 (RegOne.Vof (W2 m)) c).arrAt 2 cfg1.N

/-- The contents the regions leave, as one family: the two arrays above, anything else as launched (never read). -/
def outs : Outs (F := F) := fun _ r c =>
  if h : r = main_v1 then h ▸ o2 m c else if h' : r = main_v2 then h' ▸ o3 m c else m ((c : Thread nD τ).loc r)

theorem outs2 (c : Dev nD) : outs m 2 main_v1 c = o2 m c := by
  unfold outs; rw [dif_pos rfl]

theorem outs3 (c : Dev nD) : outs m 3 main_v2 c = o3 m c := by
  unfold outs; rw [dif_neg (by decide), dif_pos rfl]

/-- The valuation after the first region is the second region's entry valuation. -/
theorem V2_eq (c : Dev nD) : V2 m (outs m) c = W2 m c := by
  show Function.update (V1 m c) main_v1 (outs m 2 main_v1 c) = Function.update (V1 m c) main_v1 (o2 m c)
  rw [outs2]

/-! ## The two regions' records -/

/-- The proof data of both regions. -/
abbrev pd : (p : Fin 2) → (c : Dev nD) → Dat τ (Elt F) Unit ℕ (UR sig nD τ) ℕ (cfgs p) c :=
  RegZero.pdats m (fun c => RegOne.dat1 (RegOne.Vof (W2 m)) c)

/-- The first region, from the valuation after the first host operation to the one after the region. -/
def R0 : RegionSeg (pcfgs (F := F)) adm (pd m) () defs₀ Variants.none RegZero.L RegZero.lv 0 :=
  RegZero.reg0 m (outs m) (fun c => RegOne.dat1 (RegOne.Vof (W2 m)) c) (fun c => outs2 m c)

theorem V3_main_v1 (c : Dev nD) : V3 m (outs m) c main_v1 = W2 m c main_v1 :=
  (V3_of m (outs m) c main_v1 (by decide)).trans (congrFun (V2_eq m c) _)

theorem V3_main_v2 (c : Dev nD) : V3 m (outs m) c main_v2 = (RegOne.dat1 (RegOne.Vof (W2 m)) c).arrAt 2 cfg1.N := by
  show Function.update (V2 m (outs m) c) main_v2 (outs m 3 main_v2 c) main_v2 = _
  rw [Function.update_self]; exact outs3 m c

theorem V3_rest (c : Dev nD) (b : Ref sig .tc) (hb : b ∉ Finset.univ.image (Pipeline.arrRef spec1)) :
    V3 m (outs m) c b = W2 m c b :=
  (V3_of m (outs m) c b fun h => hb (Finset.mem_image.mpr ⟨2, Finset.mem_univ _, (List.mem_singleton.mp h).symm⟩)).trans
    (congrFun (V2_eq m c) _)

/-- The second region, from its entry valuation to the valuation after it. -/
def R1 : RegionSeg (pcfgs (F := F)) adm (pd m) () defs₀ Variants.none RegOne.L RegOne.lv 1 :=
  RegOne.reg1 (W2 m) (fun c => V3 m (outs m) c) (pd m) (fun _ => rfl) (V3_main_v1 m) (V3_main_v2 m) (V3_rest m)

/-! ## The launch's resources -/

/-- The launch element yields the staging cells' resources and nothing else. -/
theorem launch_elem :
    (ownU (Rounds.initOf (Pipeline.cells cfgs cellOf_inj) (Pipeline.launchToks cfgs cellOf_inj)) : sProp 𝕄)
      ⊢ |={Set.univ}=> iprop(BI.own ((emb₁ : Emb (UR sig nD τ) 𝕄) (Rounds.initOf (Pipeline.cells cfgs cellOf_inj) (Pipeline.launchToks cfgs cellOf_inj)))
          ∗ bigSep Finset.univ fun _ : Dev nD => (iprop(emp) : sProp 𝕄)) := by
  iintro Hu; imodintro
  isplitl [Hu]
  · iapply (show (ownU _ : sProp 𝕄) ⊢ BI.own ((emb₁ : Emb (UR sig nD τ) 𝕄) (Rounds.initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- From what the launch deals each core, beside its long-lived arrays: the generator register at some state and
    nothing owed. -/
theorem launch_rest (ρ : Dev nD → PrngReg) :
    iprop((bigSep Finset.univ fun c : Dev nD => iprop(unscopedSems0 c ∗ owes (c : Thread nD τ) ((fun _ => 0 : Dev nD → CellTallies nD τ sig Unit) c) ∅
        ∗ Pipeline.launchCred (fun _ => 0 : Dev nD → CellTallies nD τ sig Unit) c ∗ prngReg c (ρ c) ∗ (iprop(emp) : sProp 𝕄))) ∗ levAts RegZero.L RegZero.lv)
      ⊢ (|={Set.univ}=> bigSep Finset.univ (fun c : Dev nD => RegZero.R (F := F) c) : sProp 𝕄) := by
  refine Pipeline.initEach RegZero.L RegZero.lv fun c => ?_
  iintro ⟨⟨-, HO, -, Hp, -⟩, -⟩
  imodintro
  isplitl [Hp]; · iexists _; iexact Hp
  iexists ∅; iexact HO

/-- What rides along ends owing nothing. -/
theorem rest_owes (c : Dev nD) :
    (RegZero.R (F := F) c) ⊢ (iprop(∃ W, owes (c : Thread nD τ) (0 : CellTallies nD τ sig Unit) W) : sProp 𝕄) := by
  iintro ⟨-, HO⟩; iexact HO

/-- The second region is entered from the valuation the first leaves. -/
theorem enter1 (c : Dev nD) :
    (iprop(StableHlo.held (c : Thread nD τ) (Pipeline.ucRefs τ sig) (V2 m (outs m) c) ∗ RegZero.R c) : sProp 𝕄) ⊢ (R1 m).pre c := by
  rw [V2_eq m c]; exact .rfl

/-! ## The run -/

set_option backward.isDefEq.respectTransparency.types false in
/-- The frame: every weakly fair execution of the program from memory `m` with zero counters terminates, and the final
    memory holds each argument as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  Gen.frame_cond m (emb₁ : Emb (UR sig nD τ) 𝕄) () Variants.none RegZero.L RegZero.lv (fun _ _ => rfl) ρ (outs m) (pd m)
    (fun _ => 0) (fun _ => iprop(emp)) (Rounds.initOf (Pipeline.cells cfgs cellOf_inj) (Pipeline.launchToks cfgs cellOf_inj)) launch_elem
    (fun _ c => RegZero.R c) (launch_rest ρ) rest_owes
    (R0 m) (fun c => .rfl) (fun c => .rfl) (R1 m) (enter1 m) (fun c => .rfl)

end Cert.Kernel.Assemble

end
-- ==== Proof.RunCond.lean ====
import proofs.«160810_j50749333569628_1_alg».proof.Proof.Gen.KernelIdeal.Regions

/-!
# The kernel's run, with the value of its result

The conditional frame of the kernel program says that every fair execution from a memory `m` ends with the two argument
arrays as launched.  The same composition of the program's items proves more: the final memory holds every unscoped buffer
at the last valuation `V8 m outs c`, so in particular the result array `main_v22` is read off that valuation.  The
hypotheses are those of the frame: one record per kernel region, entered from the thread state before it and left at the
one after it.
-/

noncomputable section

namespace Cert.KernelIdeal.RunCond

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- Given the two regions' records, every weakly fair execution of the program from memory `m` with zero counters
    terminates, and every final memory holds the result array `main_v22` at the last valuation `V8 m outs c` and each
    argument array as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c)) :
    θ_run defs (onTc (τ := τ) (main (F := F))) ⟨m, fun _ => 0, ρ⟩ (fun r => ∀ c : Dev nD,
      r.2.mem ((c.tc : Thread nD τ).loc main_v22) = V8 m outs c main_v22
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          Prog.lift (.customCall (Pipeline.entry 1) ()),
          StableHlo.seq hostOps2,
          StableHlo.seq hostOps2_1,
          StableHlo.seq hostOps2_2,
          StableHlo.seq hostOps2_3,
          StableHlo.seq hostOps2_4 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V8 m outs c))
    (hch := fun c => ⟨.rfl, hpre0 c, (hpost0 c).trans (hpre1 c), hpost1 c, .rfl, .rfl, .rfl, .rfl, sep_mono .rfl (hE2 c)⟩)
    (hinit := ?_) (QY := fun c s => s.mem ((c.tc : Thread nD τ).loc main_v22) = V8 m outs c main_v22
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => ?_) (hQ := fun _ h => h)
  · -- the launch: the unscoped buffers are held at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result's buffer and each argument's read off the last valuation
    unfold StableHlo.held
    iintro ⟨Hh, HSI⟩
    ihave Hr := (pointsTo_read_all (Pipeline.ucRefs τ sig) (fun b => ((c : Thread nD τ).1, b)) (V8 m outs c) s') $$ [Hh HSI]
    · isplitl [Hh] <;> iassumption
    icases Hr with ⟨%h, HSI⟩
    imodintro
    isplitr
    · ipureintro
      exact ⟨h (Proc.devRef .tc main_v22) (Finset.mem_filter.mpr ⟨StableHlo.devRef_mem_tcRefs main_v22, by decide⟩),
        (h (Proc.devRef .tc main_arg0) (Finset.mem_filter.mpr ⟨StableHlo.devRef_mem_tcRefs main_arg0, by decide⟩)).trans (V8_main_arg0 m outs c),
        (h (Proc.devRef .tc main_arg1) (Finset.mem_filter.mpr ⟨StableHlo.devRef_mem_tcRefs main_arg1, by decide⟩)).trans (V8_main_arg1 m outs c)⟩
    · iexact HSI

end Cert.KernelIdeal.RunCond

end
-- ==== Proof.RegZeroKI.lean ====
import proofs.«160810_j50749333569628_1_alg».proof.Proof.Gen.KernelIdeal.Launch
import proofs.«160810_j50749333569628_1_alg».proof.Proof.Gen.KernelIdeal.Skeleton
import proofs.«160810_j50749333569628_1_alg».proof.Proof.Gen.KernelIdeal.Points
import proofs.«160810_j50749333569628_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The row-normalising launch as a region of the program

The first of the program's two kernel launches walks the 8192×512 array of stacked embeddings in eight blocks of
1024 rows. At block `t` it reads rows `1024·t … 1024·t + 1023` of the input, divides every row by the larger of its
Euclidean norm and a small constant, and overwrites the same rows of the output array. No block depends on another,
nothing is carried from block to block, and the body touches no memory beyond its two staging buffers.

This file states that launch once for any float instance `F`:

* what each staging buffer holds after the body at a block (`dat0`): the input's buffer still its block of rows, the
  output's buffer the normalised block;
* that the body, run on buffers holding these, leaves exactly that (`body_obligation0`);
* the launch as a segment of the whole program between two states of the device's memory (`reg0`): it is entered with
  every long-lived array at the contents the preceding host operations left, and is left with the same contents
  except that the output array holds what the eight write-backs put there.
-/

set_option maxRecDepth 16384

noncomputable section

namespace Cert.KernelIdeal.RegZero

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body
-- the contents of the device's long-lived arrays when the launch begins; everything below is stated for any such
variable (V : (c : Dev nD) → (b : Ref sig .tc) → Buf (Elt F) ((c : Thread nD τ).loc b))

/-! ## Blocks of rows -/

/-- The rows of window `w`'s array that block `t` covers, as the launch finds them. -/
def rowsAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds block `t`'s rows whenever the body runs at `t`: every block has its own rows
    (the row offset is `1024·t`), the window is never idle and never cut, and the body leaves the buffer as it found it.
    Stated for any proof data that reads its input array off `V` and records the input block as left in place. -/
theorem input_holds_rows {c : Dev nD} (dat : Dat τ (Elt F) Unit ℕ (UR sig nD τ) ℕ cfg0 c) (hA : dat.A 0 = V c (Pipeline.arrRef spec0 0))
    (hkept : ∀ t, dat.after 0 t = rowsAt V c 0 t) (t : Fin cfg0.N) (d) : dat.before 0 t d = rowsAt V c 0 t :=
  (dat.before_in_eq_fetched 0 rfl (fun _ => rfl) (fun _ _ _ => rfl) (fun t => by rw [hkept]; unfold Dat.blockOf rowsAt; rw [hA]; try rfl) t d).trans
    (by unfold Dat.fetched Dat.blockOf rowsAt; rw [hA]; try rfl)

/-! ## What the body writes -/

/-- The one rectangle the body loads and stores through: all 1024×512 entries of a staging buffer. -/
abbrev allRows : Rect S1024x512 := Rect.unit (s := S1024x512) ![0, 0] S1024x512.size inb_S1024x512_S1024x512_0_0

/-- The output's staging buffer after the body, as a function of the input block `x`: the single store of the
    normalised block, which fills the buffer. -/
def normalised (x : Vec F S1024x512 .f32) : Vec F S1024x512 .bf16 :=
  View.canon [⟨allRows, k0_pay1 (View.ld x allRows)⟩]

/-- That store covers the buffer: one rectangle of the buffer's own extents at offset zero. -/
theorem store_fills (p : Vec F S1024x512 .bf16) (y : S1024x512.Idx) :
    ∃ pc ∈ ([⟨allRows, p⟩] : List (View.Piece (Elt F) S1024x512 .bf16)), y ∈ pc.1.set :=
  View.cover_of_tiled [⟨allRows, p⟩] S1024x512.size (by rfl) y

/-! ## The body on two whole buffers -/

set_option maxHeartbeats 1000000 in
/-- The kernel body, given the input's staging buffer whole at contents reading `x` and the output's whole at anything,
    ends with the input's as it was and the output's reading `normalised x`. It loads the input, loads the output
    (the value is not used), and stores the normalised block over the whole output buffer. -/
theorem body_on_buffers (c : Dev nD) (E : Set ℕ) (i : grid0.Coords) (src : Memref sig .tc .vmem S1024x512 .f32) (hsrc : src.IsWhole)
    (dst : Memref sig .tc .vmem S1024x512 .bf16) (hdst : dst.IsWhole)
    (x : Vec F S1024x512 .f32) (K : PUnit → sProp 𝕄) :
    iprop(owns (c : Thread nD τ) src fullShare x ∗ (∃ d, owns (c : Thread nD τ) dst fullShare d)
        ∗ (iprop(owns (c : Thread nD τ) src fullShare x ∗ owns (c : Thread nD τ) dst fullShare (normalised x)) -∗ K ⟨⟩))
      ⊢ wp frame (wpE (defs₀ (F := F)) Variants.none c none) E (cc0__normalize_kernel i src hsrc dst hdst) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (store_fills _)

/-! ## The launch's proof data -/

/-- The proof data of the launch on core `c`: its two arrays as `V` has them; after the body at block `t` the input's
    buffer still block `t`'s rows and the output's buffer those rows normalised; between blocks only the scoped buffers the
    launch does not stage and the generator register, at whatever they hold; the input array wholly owned; nothing owed. -/
def dat0 (c : Dev nD) : Dat τ (Elt F) Unit ℕ (UR sig nD τ) ℕ cfg0 c where
  A w := V c (Pipeline.arrRef spec0 w)
  after w t := match w with
    | ⟨0, _⟩ => rowsAt V c 0 t
    | ⟨1, _⟩ => normalised (rowsAt V c 0 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after_in (c : Dev nD) (t : Fin cfg0.N) : (dat0 V c).after 0 t = rowsAt V c 0 t := by dsimp only [dat0]
theorem dat0_after_out (c : Dev nD) (t : Fin cfg0.N) : (dat0 V c).after 1 t = normalised (rowsAt V c 0 t) := by dsimp only [dat0]

/-- When the body runs at block `t` the input's buffer holds block `t`'s rows. -/
theorem dat0_before_in (c : Dev nD) (t : Fin cfg0.N) (d) : (dat0 V c).before 0 t d = rowsAt V c 0 t :=
  input_holds_rows V (dat0 V c) (dat0_A V c 0) (dat0_after_in V c) t d

/-! ## The body at a block -/

/-- What the body is given at block `t`: the invariant, what the core owes, and the two current staging buffers. -/
def given (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- What it gives back. -/
def left (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at block `t`: the input's buffer holds the block's rows, so `body_on_buffers` applies at those rows; the
    invariant and what the core owes are the same before and after and are not touched. -/
theorem body_at_block (c : Dev nD) (t : Fin cfg0.N) :
    given V c t ⊢ wp frame (wpE (defs₀ (F := F)) Variants.none c none) Set.univ (bodyAt0 t) (fun _ => left V c t) := by
  unfold given left bodyAt0
  simp only [dat0_before_in]
  rw [show (dat0 V c).Φ t.succ = (dat0 V c).Φ t.castSucc from rfl,
    show (dat0 V c).owesAt () t.succ = (dat0 V c).owesAt () t.castSucc from rfl,
    dat0_after_in, dat0_after_out]
  iintro ⟨HΦ, Ho, ⟨%d0, H0⟩, ⟨%d1, H1⟩⟩
  iapply (body_on_buffers c Set.univ (grid0.coords t) _ _ _ _ (rowsAt V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the launch, at every block. -/
theorem body_obligation0 (c : Dev nD) : BodyObligation (dat0 (F := F) V c) (defs₀ (F := F)) Variants.none () Set.univ := fun t => by
  rw [bigSep_W0, bigSep_W0]
  exact body_at_block V c t

end Body

/-! ## The launch as a segment of the program -/

variable (m : (ℓ : Loc nD τ sig) → Buf (Elt F) ℓ) (outs : Outs (F := F))

/-- The proof data of both launches: this one's at the contents the first host operation leaves, the other's as given. -/
def pdats (d1 : (c : Dev nD) → Dat τ (Elt F) Unit ℕ (UR sig nD τ) ℕ cfg1 c) :
    (p : Fin 2) → (c : Dev nD) → Dat τ (Elt F) Unit ℕ (UR sig nD τ) ℕ (cfgs p) c
  | ⟨0, _⟩ => fun c => dat0 (fun c b => V1 m c b) c
  | ⟨1, _⟩ => fun c => d1 c

/-- No core waits on another: no level is assigned. -/
abbrev L : GSem nD τ sig → Finset Unit := fun _ => ∅
abbrev lv : GSem nD τ sig → Unit → ℕ := fun _ _ => 0

/-- What a core holds beside its long-lived arrays through the whole program: its generator register at some state and
    nothing owed. -/
abbrev R (c : Dev nD) : sProp 𝕄 := iprop((∃ r, prngReg c r) ∗ ∃ W, owes (c : Thread nD τ) (0 : CellTallies nD τ sig Unit) W)

/-- At the end of the launch each of its two arrays holds what the exit contents say: the input array was only read, and
    the output array's final contents are by hypothesis what the eight write-backs leave. -/
theorem arrays_at_exit (c : Dev nD) (ho : outs 2 main_v1 c = (dat0 (fun c b => V1 m c b) c).arrAt 1 cfg0.N) :
    ∀ w : Fin cfg0.W, (dat0 (fun c b => V1 m c b) c).arrAt w cfg0.N = V2 m outs c (Pipeline.arrRef spec0 w)
  | ⟨0, _⟩ => by
    show (dat0 (fun c b => V1 m c b) c).arrAt 0 cfg0.N = V2 m outs c main_v0
    rw [V2_of m outs c main_v0 (by decide), (dat0 (fun c b => V1 m c b) c).arrAt_in 0 rfl _, dat0_A]
  | ⟨1, _⟩ => by
    show (dat0 (fun c b => V1 m c b) c).arrAt 1 cfg0.N = V2 m outs c main_v1
    rw [← ho]; exact (Function.update_self (Proc.devRef .tc main_v1 : DevRef τ sig) (outs 2 main_v1 c) (V1 m c)).symm

/-- Every other long-lived array is as the launch found it. -/
theorem others_at_exit (c : Dev nD) (b : Ref sig .tc) (hb : b ∉ Finset.univ.image (Pipeline.arrRef spec0)) :
    V2 m outs c b = V1 m c b :=
  V2_of m outs c b fun h => hb (Finset.mem_image.mpr ⟨1, Finset.mem_univ _, (List.mem_singleton.mp h).symm⟩)

set_option backward.isDefEq.respectTransparency.types false in
/-- THE LAUNCH AS A SEGMENT. Entered with every long-lived array at `V1` beside `R`; left with every long-lived array at
    `V2` — `V1` with the output array replaced — beside `R`. On entry the two arrays are taken out of the long-lived
    arrays; the generator register goes into the launch's invariant and comes back; at exit the arrays are put back. -/
def reg0 (d1 : (c : Dev nD) → Dat τ (Elt F) Unit ℕ (UR sig nD τ) ℕ cfg1 c)
    (ho : ∀ c, outs 2 main_v1 c = (dat0 (fun c b => V1 m c b) c).arrAt 1 cfg0.N) :
    Pipeline.RegionSeg (pcfgs (F := F)) adm (pdats m d1) () defs₀ Variants.none L lv 0 where
  win := launch0.win.to₀
  block_pos := launch0.block_pos
  stage_whole := launch0.stage_whole
  K := PEmpty
  osem k := k.elim
  ho := Pipeline.OwnSemFacts.none _
  hbody c := (body_obligation0 (fun c b => V1 m c b) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m outs c) ∗ R c)
  X c := iprop(∃ r, prngReg c r)
  Y c := iprop(∃ r, prngReg c r)
  Z c := Pipeline.unscopedRest (Ix := Unit) (Name := ℕ) (U := UR sig nD τ) (Lvl := ℕ) spec0 c (fun b => V1 m c b)
  hentry c := by
    rw [Pipeline.ownSems0_none]
    have hsplit := Pipeline.arrays_of_unscopedBufs (p := 0) (pcfgs (F := F)) adm (pdats m d1) launch0.win launch0.arr_whole c
      ((pdats m d1 0 c).share_full fun _ => rfl) (fun b => V1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m d1 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m d1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m d1) ((pdats m d1 0 c).share_full fun _ => rfl)
      (fun b => V1 m c b) (fun b => V2 m outs c b) ((pdats m d1 0 c).arrAt · cfg0.N) (arrays_at_exit m outs c (ho c)) (others_at_exit m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.RegZero

end
-- ==== Proof.SimRuns.lean ====
/-
  The second kernel region (the similarity row sums), part 1: what its three control cases share.

  The grid is 8 x 4: point t = 4 i + j handles row tile i (1024 rows) against column tile j (2048 columns).  The body
  zeroes a [1024,1] accumulator when j = 0, adds the tile's row sums to it at every j, and copies it to the output
  block when j = 3.  So a point is in one of three cases: j = 0 (accumulator started afresh), j = 1, 2 (accumulator
  carried), j = 3 (carried, then copied out).  This module states the two branch conditions in closed form over the
  grid, where the output window is idle, and names the staging and accumulator buffers.
-/
import proofs.«160810_j50749333569628_1_alg».proof.Proof.Gen.KernelIdeal.Launch
import proofs.«160810_j50749333569628_1_alg».proof.Proof.Gen.KernelIdeal.Skeleton
import proofs.«160810_j50749333569628_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.RegOne

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The windows' blocks, read off the arrays as the region finds them -/

section
variable (V : (c : Dev nD) → (b : Ref sig .tc) → Buf (Elt F) ((c : Thread nD τ).loc b))

/-- Window w's block at point t of the array contents V. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-tile window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The column-tile window's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
end

/-! ## The body's two branch conditions -/

/-- "This is the first column tile" (j = 0), as the body computes it from the grid coordinates. -/
abbrev cond1_0 (i : grid1.Coords) : Prop := (Scalar.cmpi .ne (Scalar.extui (Scalar.cmpi .eq (BitVec.ofNat 32 (i 1).val) 0#32)) 0#32) = 1#1
/-- It holds exactly at the points 4 i. -/
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last column tile" (j = 3). -/
abbrev cond1_1 (i : grid1.Coords) : Prop := k1_cond2 i = 1#1
/-- It holds exactly at the points 4 i + 3. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the output window is idle -/

/-- Off the last column tile the output block is neither stored into nor written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- On the last column tile it is stored into. -/
theorem liveAt1_2 : ∀ t : Fin cfg1.N, cond1_1 (grid1.coords t) → cfg1.idle 2 (grid1.coords t) = false := by decide +kernel
/-- The two input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl

/-! ## The buffers the body is called with -/

/-- One staging buffer of the output window, through which its contents are stated. -/
abbrev VO1_2 : View sig .tc .vmem S1024x1 .f32 := (Memref.whole cc1_stg2_0 : Memref sig .tc .vmem S1024x1 .f32).view
abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1_0 : Memref sig .tc .vmem S1024x1 .f32 := Memref.whole cc1_scratch0
abbrev VS1_0 : View sig .tc .vmem S1024x1 .f32 := scM1_0.view

/-- The region's invariant before the first point: the first region's four staging buffers at anything, the accumulator
    owned at anything, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.KernelIdeal.RegOne

end
-- ==== Proof.SimRunA.lean ====
/-
  The second kernel region, case j = 0: the accumulator is zeroed, then the tile's row sums are added to it; the
  output block is left untouched.  The body is run symbolically on whole staging buffers; what it leaves in the
  accumulator is recorded as the list of pieces its stores wrote.
-/
import proofs.«160810_j50749333569628_1_alg».proof.Proof.SimRuns

set_option maxRecDepth 16384

noncomputable section

namespace Cert.KernelIdeal.RegOne

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : cond1_0 i) (hc1 : ¬cond1_1 i)
    (x0 : Vec F S1024x512 .bf16) (x1 : Vec F S2048x512 .bf16) :
    Σ' (L2 : List (View.Piece (Elt F) S1024x1 .f32)), { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__simsum_kernel i arg2 harg2 arg3 harg3 arg4 harg4 arg5 harg5) K } := by
  refine ⟨[], ?_, fun xi2 E K => ?run⟩
  case run =>
    simp only [cc1__simsum_kernel_eq_skeleton]; unfold cc1__simsum_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.RegOne

end
-- ==== Proof.SimRunB.lean ====
/-
  The second kernel region, cases j = 1 and j = 2: the tile's row sums are added to the accumulator the point before
  left; the output block is left untouched.
-/
import proofs.«160810_j50749333569628_1_alg».proof.Proof.SimRunA

set_option maxRecDepth 16384

noncomputable section

namespace Cert.KernelIdeal.RegOne

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : ¬cond1_1 i)
    (x0 : Vec F S1024x512 .bf16) (x1 : Vec F S2048x512 .bf16) (xs0 : Vec F S1024x1 .f32) :
    Σ' (L2 : List (View.Piece (Elt F) S1024x1 .f32)), { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__simsum_kernel i arg2 harg2 arg3 harg3 arg4 harg4 arg5 harg5) K } := by
  refine ⟨[], ?_, fun xi2 E K => ?run⟩
  case run =>
    simp only [cc1__simsum_kernel_eq_skeleton]; unfold cc1__simsum_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.RegOne

end
-- ==== Proof.SimRunC.lean ====
/-
  The second kernel region, case j = 3: the tile's row sums are added to the accumulator the point before left, and
  the accumulator is copied to the output block.
-/
import proofs.«160810_j50749333569628_1_alg».proof.Proof.SimRunB

set_option maxRecDepth 16384

noncomputable section

namespace Cert.KernelIdeal.RegOne

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : cond1_1 i)
    (x0 : Vec F S1024x512 .bf16) (x1 : Vec F S2048x512 .bf16) (xs0 : Vec F S1024x1 .f32) :
    Σ' (L2 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__simsum_kernel i arg2 harg2 arg3 harg3 arg4 harg4 arg5 harg5) K } := by
  refine ⟨?_, ?_, fun E K => ?run⟩
  case run =>
    simp only [cc1__simsum_kernel_eq_skeleton]; unfold cc1__simsum_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.RegOne

end
-- ==== Proof.SimFrame.lean ====
/-
  The second kernel region, part 2: what its buffers hold point by point, and the body's obligation.

  After point t = 4 i + j the accumulator holds the row sums of row tile i over the column tiles 0 … j: started afresh
  at j = 0 (case A), carried at j = 1, 2 (case B) and at j = 3 (case C), where it is also copied to the output block.
  The region's invariant carries the accumulator at exactly these contents from each point to the next; the output
  window is idle (handed back as found) except at j = 3.  The array behind the two input windows is one and the same
  (the normalized rows, read once as row tiles and once as column tiles): each input window holds one half share of it.
-/
import proofs.«160810_j50749333569628_1_alg».proof.Proof.SimRunC

set_option maxRecDepth 16384

noncomputable section

namespace Cert.KernelIdeal.RegOne

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the accumulator and in the output block -/

/-- Case j = 0: the accumulator's pieces cover it. -/
theorem scover1_A_0 (c : Dev nD) (i : grid1.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : cond1_0 i) (hc1 : ¬cond1_1 i)
    (x0 : Vec F S1024x512 .bf16) (x1 : Vec F S2048x512 .bf16) (y : S1024x1.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1024x1.size (by sl_kernel_rfl) y

/-- Case j = 0: what the accumulator holds afterwards. -/
def sout1_A_0 (c : Dev nD) (i : grid1.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : cond1_0 i) (hc1 : ¬cond1_1 i)
    (x0 : Vec F S1024x512 .bf16) (x1 : Vec F S2048x512 .bf16) : Vec F S1024x1 .f32 :=
  VS1_0.read (Elt F) (VS1_0.writes (Elt F) VS1_0.junk (kernelRun1_A c i arg2 harg2 arg3 harg3 arg4 harg4 arg5 harg5 hc0 hc1 x0 x1).2.1)

theorem scover1_B_0 (c : Dev nD) (i : grid1.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : ¬cond1_1 i)
    (x0 : Vec F S1024x512 .bf16) (x1 : Vec F S2048x512 .bf16) (xs0 : Vec F S1024x1 .f32) (y : S1024x1.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S1024x1.size (by sl_kernel_rfl) y

/-- Cases j = 1, 2: what the accumulator holds afterwards, from what it held before. -/
def sout1_B_0 (c : Dev nD) (i : grid1.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : ¬cond1_1 i)
    (x0 : Vec F S1024x512 .bf16) (x1 : Vec F S2048x512 .bf16) (xs0 : Vec F S1024x1 .f32) : Vec F S1024x1 .f32 :=
  VS1_0.read (Elt F) (VS1_0.writes (Elt F) VS1_0.junk (kernelRun1_B c i arg2 harg2 arg3 harg3 arg4 harg4 arg5 harg5 hc0 hc1 x0 x1 xs0).2.1)

theorem scover1_C_0 (c : Dev nD) (i : grid1.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : cond1_1 i)
    (x0 : Vec F S1024x512 .bf16) (x1 : Vec F S2048x512 .bf16) (xs0 : Vec F S1024x1 .f32) (y : S1024x1.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1024x1.size (by sl_kernel_rfl) y

/-- Case j = 3: what the accumulator holds afterwards. -/
def sout1_C_0 (c : Dev nD) (i : grid1.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : cond1_1 i)
    (x0 : Vec F S1024x512 .bf16) (x1 : Vec F S2048x512 .bf16) (xs0 : Vec F S1024x1 .f32) : Vec F S1024x1 .f32 :=
  VS1_0.read (Elt F) (VS1_0.writes (Elt F) VS1_0.junk (kernelRun1_C c i arg2 harg2 arg3 harg3 arg4 harg4 arg5 harg5 hc0 hc1 x0 x1 xs0).2.1)

theorem cover1_C_2 (c : Dev nD) (i : grid1.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : cond1_1 i)
    (x0 : Vec F S1024x512 .bf16) (x1 : Vec F S2048x512 .bf16) (xs0 : Vec F S1024x1 .f32) (y : S1024x1.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1024x1.size (by sl_kernel_rfl) y

/-- Case j = 3: what the output block holds afterwards. -/
def out1_C_2 (c : Dev nD) (i : grid1.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : cond1_1 i)
    (x0 : Vec F S1024x512 .bf16) (x1 : Vec F S2048x512 .bf16) (xs0 : Vec F S1024x1 .f32) : Vec F S1024x1 .f32 :=
  VO1_2.read (Elt F) (VO1_2.writes (Elt F) VO1_2.junk (kernelRun1_C c i arg2 harg2 arg3 harg3 arg4 harg4 arg5 harg5 hc0 hc1 x0 x1 xs0).1)

section
variable (V : (c : Dev nD) → (b : Ref sig .tc) → Buf (Elt F) ((c : Thread nD τ).loc b))

/-! ## Point by point -/

/-- What the output block (first component; meaningful at the points 4 i + 3 only, elsewhere a placeholder nothing
    reads) and the accumulator (second component) hold after the body at position n. -/
def outsAt1 (c : Dev nD) : (n : ℕ) → n < cfg1.N → Vec F S1024x1 .f32 × Vec F S1024x1 .f32
  | 0, hn => (sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then False.elim (by omega)
      else (sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position n: before the first point every scoped buffer that is no staging buffer of this region is at
    anything; afterwards the accumulator is at what the point before left. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The proof data -/

/-- The arrays as the region finds them; after the body each input's buffer at its block and the output's at the
    point's contents; the invariant above; the array read through both input windows held half and half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

end

section
variable (V : (c : Dev nD) → (b : Ref sig .tc) → Buf (Elt F) ((c : Thread nD τ).loc b))

set_option maxHeartbeats 4800000 in
/-- The body at any point: the input windows' buffers hold their blocks; the closed forms say which case the point is
    in; the invariant hands the body the accumulator at what the point before left (at anything at the very first
    point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 4 = 0
  · have h1 : ¬t.val % 4 = 3 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A_0; (try dsimp only)
    by_cases hz : t.val = 0
    · rw [PhiS1_castSucc V c t, PhiS1_zero V c _ _ hz, PhiA1_eq]
      iintro ⟨⟨⟨HR0, HR1, HR2, HR3, HS0⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HR0 HR1 HR2 HR3 HS0 Hg]
      · isplitl [HR0 HR1 HR2 HR3 HS0]
        · isplitl [HR0]; · iexact HR0
          isplitl [HR1]; · iexact HR1
          isplitl [HR2]; · iexact HR2
          isplitl [HR3]; · iexact HR3
          unfold owns; iexists _; isplitr
          swap; · iexact HS0
          ipureintro; exact View.read_writes_of_cover _ _ _ _ _ (scover1_A_0 c _ _ _ _ _ _ _ _ _ _ _ _ _)
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HR0, HR1, HR2, HR3, HS0⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HR0 HR1 HR2 HR3 HS0 Hg]
      · isplitl [HR0 HR1 HR2 HR3 HS0]
        · isplitl [HR0]; · iexact HR0
          isplitl [HR1]; · iexact HR1
          isplitl [HR2]; · iexact HR2
          isplitl [HR3]; · iexact HR3
          unfold owns; iexists _; isplitr
          swap; · iexact HS0
          ipureintro; exact View.read_writes_of_cover _ _ _ _ _ (scover1_A_0 c _ _ _ _ _ _ _ _ _ _ _ _ _)
        iexact Hg
      isplitl [Ho]; · iexact Ho
      isplitl [H0]; · iexact H0
      isplitl [H1]; · iexact H1
      iexists _; iexact H2
  · have hz : t.val ≠ 0 := by omega
    by_cases h1 : t.val % 4 = 3
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_2 sout1_C_0; (try dsimp only)
      rw [PhiS1_castSucc V c t, PhiS1_pos V c _ _ hz]
      iintro ⟨⟨⟨HR0, HR1, HR2, HR3, HS0⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HR0 HR1 HR2 HR3 HS0 Hg]
      · isplitl [HR0 HR1 HR2 HR3 HS0]
        · isplitl [HR0]; · iexact HR0
          isplitl [HR1]; · iexact HR1
          isplitl [HR2]; · iexact HR2
          isplitl [HR3]; · iexact HR3
          unfold owns; iexists _; isplitr
          swap; · iexact HS0
          ipureintro; exact View.read_writes_of_cover _ _ _ _ _ (scover1_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B_0; (try dsimp only)
      rw [PhiS1_castSucc V c t, PhiS1_pos V c _ _ hz]
      iintro ⟨⟨⟨HR0, HR1, HR2, HR3, HS0⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HR0 HR1 HR2 HR3 HS0 Hg]
      · isplitl [HR0 HR1 HR2 HR3 HS0]
        · isplitl [HR0]; · iexact HR0
          isplitl [HR1]; · iexact HR1
          isplitl [HR2]; · iexact HR2
          isplitl [HR3]; · iexact HR3
          unfold owns; iexists _; isplitr
          swap; · iexact HS0
          ipureintro; exact View.read_writes_of_cover _ _ _ _ _ (scover1_B_0 c _ _ _ _ _ _ _ _ _ _ _ _ _ _)
        iexact Hg
      isplitl [Ho]; · iexact Ho
      isplitl [H0]; · iexact H0
      isplitl [H1]; · iexact H1
      iexists _; iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the region is handed before the first point is the invariant there. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq]
  iintro ⟨⟨HR0, HR1, HR2, HR3, HS0⟩, Hg⟩
  isplitl [HR0 HR1 HR2 HR3 HS0]
  · isplitl [HR0]; · iexact HR0
    isplitl [HR1]; · iexact HR1
    isplitl [HR2]; · iexact HR2
    isplitl [HR3]; · iexact HR3
    iexists _; iexact HS0
  iexact Hg

end

end Cert.KernelIdeal.RegOne

end
-- ==== Proof.SimRegion.lean ====
/-
  The second kernel region, part 3: the region as one segment of the program's run.

  It is entered holding every unscoped buffer whole at the contents W and left holding them at W', which differs from W
  only at the output array (the row sums).  The array of normalized rows is read through two input windows, so at
  entry its buffer, held whole, is split into two half shares, one per window, and at exit — both windows having only
  read it — the halves are joined again.
-/
import proofs.«160810_j50749333569628_1_alg».proof.Proof.SimFrame
import Idealize.ShloMosaic.Lib.Pipeline.Regions
import Idealize.ShloMosaic.Lib.Pipeline.RegionsLoop
import proofs.«160810_j50749333569628_1_alg».proof.Proof.Gen.KernelIdeal.Regions

set_option maxRecDepth 16384

noncomputable section

namespace Cert.KernelIdeal.RegOne

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

/-- No core owes another anything: no level is assigned. -/
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)

section
variable (W W' : Dev nD → Valuation τ sig (Elt F))

/-- The entry valuation read at the TensorCore's references. -/
abbrev Vof (c : Dev nD) (b : Ref sig .tc) : Buf (Elt F) ((c : Thread nD τ).loc b) := W c b

/-- The region's arrays, window by window: the normalized rows at a half share twice, the output whole. -/
theorem arrays1_eq (c : Dev nD) (G : (w : Fin cfg1.W) → Buf (Elt F) ((cfg1.win w).arr.view.loc (c : Thread nD τ))) :
    ((dat1 (Vof W) c).arrays G : sProp 𝕄)
      = iprop((((c : Thread nD τ).loc main_v1) ↦{fullShare.left} G 0) ∗ (((c : Thread nD τ).loc main_v1) ↦{fullShare.right} G 1) ∗ (((c : Thread nD τ).loc main_v2) ↦{fullShare} G 2)) := by
  unfold Dat.arrays
  rw [bigSep_W1, (arr_whole1 0).set_eq_univ, (arr_whole1 2).set_eq_univ]
  rfl

/-- The two distinct buffers behind the three windows. -/
theorem arrBufs1_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_v1) ↦{fullShare} Vc main_v1) ∗ (((c : Thread nD τ).loc main_v2) ↦{fullShare} Vc main_v2)) := by
  unfold Pipeline.arrBufs
  rw [BI.bigSep_eq_bigSepL_of_eq [main_v1, main_v2] (by decide) (by decide)]; rfl

/-- Every unscoped buffer held whole: the two arrays' buffers and the rest. -/
theorem held_split (c : Dev nD) (X : Dev nD → Valuation τ sig (Elt F)) :
    (StableHlo.held (c : Thread nD τ) (Pipeline.ucRefs τ sig) (X c) : sProp 𝕄)
      = iprop(Pipeline.arrBufs spec1 c (Vof X c) ∗ Pipeline.unscopedRest spec1 c (Vof X c)) := by
  rw [← Pipeline.unscopedBufs_held (Ix := Unit) (Name := ℕ) (U := UR sig nD τ) (Lvl := ℕ) c (X c)]
  have hA : Finset.univ.image (Pipeline.arrRef spec1) ⊆ Finset.univ.filter fun b : Ref sig .tc => ¬ b.isScoped := by decide
  unfold unscopedBufs Pipeline.unscopedRest Pipeline.arrBufs
  rw [BI.bigSep_sdiff_split hA]
  rfl

end

section
variable (W W' : Dev nD → Valuation τ sig (Elt F))

/-- At entry: the buffer of normalized rows, held whole, is split between the two windows that read it. -/
theorem hsplit1 (c : Dev nD) :
    (Pipeline.arrBufs spec1 c (Vof W c) : sProp 𝕄) ⊢ (dat1 (Vof W) c).arrays ((dat1 (Vof W) c).arrAt · 0) := by
  rw [arrBufs1_eq, arrays1_eq]
  show iprop(_ ∗ _) ⊢ iprop((_ ↦{fullShare.left} (Vof W c main_v1)) ∗ (_ ↦{fullShare.right} (Vof W c main_v1)) ∗ (_ ↦{fullShare} (Vof W c main_v2)))
  iintro ⟨H1, H2⟩
  ihave H1' := (pointsTo_share (PosShare.mem_left_op_right fullShare)).1 $$ H1
  icases H1' with ⟨Ha, Hb⟩
  isplitl [Ha]; · iexact Ha
  isplitl [Hb]; · iexact Hb
  iexact H2

variable (pd : (p : Fin 2) → (c : Dev nD) → Dat τ (Elt F) Unit ℕ (UR sig nD τ) ℕ (cfgs p) c)
  (hp : ∀ c, pd 1 c = dat1 (Vof W) c)
  (hW1 : ∀ c, W' c main_v1 = W c main_v1)
  (hW2 : ∀ c, W' c main_v2 = (dat1 (Vof W) c).arrAt 2 cfg1.N)
  (hWr : ∀ c (b : Ref sig .tc), b ∉ Finset.univ.image (Pipeline.arrRef spec1) → W' c b = W c b)

set_option backward.isDefEq.respectTransparency.types false in
/-- The second kernel region as a segment: entered from every unscoped buffer at W, left at W'. -/
def reg1 : RegionSeg (pcfgs (F := F)) adm pd () defs₀ Variants.none L lv 1 where
  win := winFacts₀1
  block_pos := block_pos1
  stage_whole := stage_whole1
  K := PEmpty
  osem k := k.elim
  ho := Pipeline.OwnSemFacts.none _
  hbody c := by rw [hp c]; exact (body_obligation1 (Vof W) c).loose
  hwaits := Pipeline.hwaits_of_owed_zero _ _ _ _ L lv 1 fun c _ => by rw [hp c]; rfl
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) spec1 c (Vof W c)
  hentry c := by
    rw [Pipeline.ownSems0_none, hp c]
    iintro ⟨⟨Hub, Hp, HO⟩, -, -⟩
    ihave H := (Entails.of_eq (held_split c W)) $$ Hub
    icases H with ⟨Ha, Hrest⟩
    ihave Ha' := (hsplit1 W c) $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W₀, HO⟩; iexists W₀; isplitr; · ipureintro; exact fun _ _ => Or.inl trivial
      iexact HO
    isplitl [Hp]; · iexact Hp
    iexact Hrest
  hin c := by
    rw [hp c]
    refine (?_ : _ ⊢ (Pipeline.ΦA spec1 c : sProp 𝕄)).trans (hin1 (Vof W) c)
    unfold Pipeline.ΦA
    iintro ⟨Hp, -, Hr⟩
    isplitl [Hr]; · iexact Hr
    iexact Hp
  hout c := by
    rw [Pipeline.ownSems0_none, hp c]
    refine (hout1 (Vof W) c).trans ?_
    unfold Pipeline.ΦA
    iintro ⟨Hr, Hp⟩
    isplitl [Hp]; · iexact Hp
    isplitr; · iempintro
    iexact Hr
  hexit c := by
    rw [hp c]
    have hrest : (Pipeline.unscopedRest (Ix := Unit) (Name := ℕ) (U := UR sig nD τ) (Lvl := ℕ) spec1 c (Vof W c) : sProp 𝕄)
        = Pipeline.unscopedRest spec1 c (Vof W' c) := by
      unfold Pipeline.unscopedRest
      exact BI.bigSep_congr fun b hb => by rw [show Vof W' c b = Vof W c b from hWr c b (Finset.mem_sdiff.mp hb).2]
    rw [arrays1_eq, held_split c W', arrBufs1_eq, ← hrest,
      (dat1 (Vof W) c).arrAt_in 0 rfl _, (dat1 (Vof W) c).arrAt_in 1 rfl _, A_eq1, A_eq1,
      show Vof W' c main_v1 = Vof W c main_v1 from hW1 c, show Vof W' c main_v2 = (dat1 (Vof W) c).arrAt 2 cfg1.N from hW2 c]
    iintro ⟨⟨Ha, Hb, Hc⟩, HO, HY, Hrest⟩
    imodintro
    isplitl [Ha Hb Hc Hrest]
    · isplitl [Ha Hb Hc]
      · isplitl [Ha Hb]
        · ihave Hj := (pointsTo_share (PosShare.mem_left_op_right fullShare)).2 $$ [Ha Hb]
          · isplitl [Ha]; · iexact Ha
            iexact Hb
          iexact Hj
        iexact Hc
      iexact Hrest
    isplitl [HY]; · iexact HY
    unfold Pipeline.Dat.owesAt Pipeline.owesWithin
    icases HO with ⟨%W₀, -, HO⟩; iexists W₀; iexact HO

end

end Cert.KernelIdeal.RegOne

end
-- ==== Proof.AssembleKI.lean ====
import proofs.«160810_j50749333569628_1_alg».proof.Proof.Gen.KernelIdeal.Regions
import proofs.«160810_j50749333569628_1_alg».proof.Proof.RunCond
import proofs.«160810_j50749333569628_1_alg».proof.Proof.RegZeroKI
import proofs.«160810_j50749333569628_1_alg».proof.Proof.SimRegion
import Idealize.ShloMosaic.Lib.Pipeline.Regions
import Idealize.ShloMosaic.Lib.Pipeline.Kit

/-!
# The two kernel regions put into the program's run

The program is a chain of host operations around two kernel regions.  Its run is composed from one record per region,
each entered from the contents of the long-lived arrays before it and left at the contents after it.  The contents
the regions leave are fixed here without circularity:

* the first region leaves, in the array of normalised rows, what its eight write-backs put there — a function of the
  stacked input alone;
* the second region is entered with the long-lived arrays as the first host operation left them but for that array,
  and leaves, in the array of row sums, what its write-backs put there — a function of those entry contents.

With these the valuations between the program's items are determined, the two regions' records fit between them, and
the launch's resources (each core's generator register, and nothing owed) ride along unchanged.
-/

set_option maxRecDepth 16384

noncomputable section

namespace Cert.KernelIdeal.Assemble

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## What the regions leave -/

/-- What the first region leaves in the array of normalised rows. -/
def o2 (c : Dev nD) : Buf (Elt F) ((c : Thread nD τ).loc main_v1) :=
  (RegZero.dat0 (fun c b => V1 m c b) c).arrAt 1 cfg0.N

/-- The long-lived arrays when the second region is entered: as the first host operation left them, but for the
    array of normalised rows. -/
def W2 (c : Dev nD) : Valuation τ sig (Elt F) := Function.update (V1 m c) main_v1 (o2 m c)

/-- What the second region leaves in the array of row sums. -/
def o3 (c : Dev nD) : Buf (Elt F) ((c : Thread nD τ).loc main_v2) :=
  (RegOne.dat1 (RegOne.Vof (W2 m)) c).arrAt 2 cfg1.N

/-- The contents the regions leave, as one family: the two arrays above, anything else as launched (never read). -/
def outs : Outs (F := F) := fun _ r c =>
  if h : r = main_v1 then h ▸ o2 m c else if h' : r = main_v2 then h' ▸ o3 m c else m ((c : Thread nD τ).loc r)

theorem outs2 (c : Dev nD) : outs m 2 main_v1 c = o2 m c := by
  unfold outs; rw [dif_pos rfl]

theorem outs3 (c : Dev nD) : outs m 3 main_v2 c = o3 m c := by
  unfold outs; rw [dif_neg (by decide), dif_pos rfl]

/-- The valuation after the first region is the second region's entry valuation. -/
theorem V2_eq (c : Dev nD) : V2 m (outs m) c = W2 m c := by
  show Function.update (V1 m c) main_v1 (outs m 2 main_v1 c) = Function.update (V1 m c) main_v1 (o2 m c)
  rw [outs2]

/-! ## The two regions' records -/

/-- The proof data of both regions. -/
abbrev pd : (p : Fin 2) → (c : Dev nD) → Dat τ (Elt F) Unit ℕ (UR sig nD τ) ℕ (cfgs p) c :=
  RegZero.pdats m (fun c => RegOne.dat1 (RegOne.Vof (W2 m)) c)

/-- The first region, from the valuation after the first host operation to the one after the region. -/
def R0 : RegionSeg (pcfgs (F := F)) adm (pd m) () defs₀ Variants.none RegZero.L RegZero.lv 0 :=
  RegZero.reg0 m (outs m) (fun c => RegOne.dat1 (RegOne.Vof (W2 m)) c) (fun c => outs2 m c)

theorem V3_main_v1 (c : Dev nD) : V3 m (outs m) c main_v1 = W2 m c main_v1 :=
  (V3_of m (outs m) c main_v1 (by decide)).trans (congrFun (V2_eq m c) _)

theorem V3_main_v2 (c : Dev nD) : V3 m (outs m) c main_v2 = (RegOne.dat1 (RegOne.Vof (W2 m)) c).arrAt 2 cfg1.N := by
  show Function.update (V2 m (outs m) c) main_v2 (outs m 3 main_v2 c) main_v2 = _
  rw [Function.update_self]; exact outs3 m c

theorem V3_rest (c : Dev nD) (b : Ref sig .tc) (hb : b ∉ Finset.univ.image (Pipeline.arrRef spec1)) :
    V3 m (outs m) c b = W2 m c b :=
  (V3_of m (outs m) c b fun h => hb (Finset.mem_image.mpr ⟨2, Finset.mem_univ _, (List.mem_singleton.mp h).symm⟩)).trans
    (congrFun (V2_eq m c) _)

/-- The second region, from its entry valuation to the valuation after it. -/
def R1 : RegionSeg (pcfgs (F := F)) adm (pd m) () defs₀ Variants.none RegOne.L RegOne.lv 1 :=
  RegOne.reg1 (W2 m) (fun c => V3 m (outs m) c) (pd m) (fun _ => rfl) (V3_main_v1 m) (V3_main_v2 m) (V3_rest m)

/-! ## The launch's resources -/

/-- The launch element yields the staging cells' resources and nothing else. -/
theorem launch_elem :
    (ownU (Rounds.initOf (Pipeline.cells cfgs cellOf_inj) (Pipeline.launchToks cfgs cellOf_inj)) : sProp 𝕄)
      ⊢ |={Set.univ}=> iprop(BI.own ((emb₁ : Emb (UR sig nD τ) 𝕄) (Rounds.initOf (Pipeline.cells cfgs cellOf_inj) (Pipeline.launchToks cfgs cellOf_inj)))
          ∗ bigSep Finset.univ fun _ : Dev nD => (iprop(emp) : sProp 𝕄)) := by
  iintro Hu; imodintro
  isplitl [Hu]
  · iapply (show (ownU _ : sProp 𝕄) ⊢ BI.own ((emb₁ : Emb (UR sig nD τ) 𝕄) (Rounds.initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- From what the launch deals each core, beside its long-lived arrays: the generator register at some state and
    nothing owed. -/
theorem launch_rest (ρ : Dev nD → PrngReg) :
    iprop((bigSep Finset.univ fun c : Dev nD => iprop(unscopedSems0 c ∗ owes (c : Thread nD τ) ((fun _ => 0 : Dev nD → CellTallies nD τ sig Unit) c) ∅
        ∗ Pipeline.launchCred (fun _ => 0 : Dev nD → CellTallies nD τ sig Unit) c ∗ prngReg c (ρ c) ∗ (iprop(emp) : sProp 𝕄))) ∗ levAts RegZero.L RegZero.lv)
      ⊢ (|={Set.univ}=> bigSep Finset.univ (fun c : Dev nD => RegZero.R (F := F) c) : sProp 𝕄) := by
  refine Pipeline.initEach RegZero.L RegZero.lv fun c => ?_
  iintro ⟨⟨-, HO, -, Hp, -⟩, -⟩
  imodintro
  isplitl [Hp]; · iexists _; iexact Hp
  iexists ∅; iexact HO

/-- What rides along ends owing nothing. -/
theorem rest_owes (c : Dev nD) :
    (RegZero.R (F := F) c) ⊢ (iprop(∃ W, owes (c : Thread nD τ) (0 : CellTallies nD τ sig Unit) W) : sProp 𝕄) := by
  iintro ⟨-, HO⟩; iexact HO

/-- The second region is entered from the valuation the first leaves. -/
theorem enter1 (c : Dev nD) :
    (iprop(StableHlo.held (c : Thread nD τ) (Pipeline.ucRefs τ sig) (V2 m (outs m) c) ∗ RegZero.R c) : sProp 𝕄) ⊢ (R1 m).pre c := by
  rw [V2_eq m c]; exact .rfl

/-! ## The run -/

set_option backward.isDefEq.respectTransparency.types false in
/-- Every weakly fair execution of the program from memory `m` with zero counters terminates; the final memory holds the
    result at the last valuation over the regions' contents above, and each argument as launched. -/
theorem run (ρ : Dev nD → PrngReg) :
    θ_run defs (onTc (τ := τ) (main (F := F))) ⟨m, fun _ => 0, ρ⟩ (fun r => ∀ c : Dev nD,
      r.2.mem ((c.tc : Thread nD τ).loc main_v22) = V8 m (outs m) c main_v22
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  RunCond.run_cond m (emb₁ : Emb (UR sig nD τ) 𝕄) () Variants.none RegZero.L RegZero.lv (fun _ _ => rfl) ρ (outs m) (pd m)
    (fun _ => 0) (fun _ => iprop(emp)) (Rounds.initOf (Pipeline.cells cfgs cellOf_inj) (Pipeline.launchToks cfgs cellOf_inj)) launch_elem
    (fun _ c => RegZero.R c) (launch_rest ρ) rest_owes
    (R0 m) (fun c => .rfl) (fun c => .rfl) (R1 m) (enter1 m) (fun c => .rfl)

/-- The frame: the arguments end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run m ρ)

end Cert.KernelIdeal.Assemble

end
-- ==== Proof.LibTileSum.lean ====
/-
  Sums cut into tiles, over any additive commutative monoid: no subtraction and no cancellation is used, so every
  statement holds where infinite values are allowed.

  A sum over K·T consecutive indices is the sum over K tiles of the T terms of each tile; an accumulator that starts
  from zero and adds one tile's sum per step holds, after step n, the sum of tiles 0 … n.  Together, at 8 tiles of
  1024: the accumulator after the eighth tile is the sum over all 8192 indices.
-/
import Mathlib.Algebra.BigOperators.Fin

namespace Cert.TileSum

variable {M : Type*} [AddCommMonoid M]

/-- Position q of tile j, tiles of T, lies below K·T when j is below K:
    j·T + q < j·T + T = (j + 1)·T ≤ K·T. -/
theorem tile_lt {K T : ℕ} (j : Fin K) (q : Fin T) : j.val * T + q.val < K * T :=
  calc j.val * T + q.val < j.val * T + T := Nat.add_lt_add_left q.isLt _
    _ = (j.val + 1) * T := (Nat.succ_mul _ _).symm
    _ ≤ K * T := Nat.mul_le_mul_right _ j.isLt

/-- A running total over tiles is the sum of the tiles, when the recurrence is known only for the tiles below a
    bound N: if A 0 is 0 plus tile 0's sum and, for j + 1 < N, A (j + 1) is A j plus tile (j + 1)'s sum, then for
    n < N, A n is the double sum over the tiles 0 … n. -/
theorem running_total_below {T : ℕ} (N : ℕ) (g : ℕ → Fin T → M) (A : ℕ → M)
    (h0 : A 0 = 0 + ∑ q, g 0 q) (hs : ∀ j, j + 1 < N → A (j + 1) = A j + ∑ q, g (j + 1) q) (n : ℕ) (hn : n < N) :
    A n = ∑ j ∈ Finset.range (n + 1), ∑ q, g j q := by
  induction n with
  | zero => rw [h0, zero_add, Finset.sum_range_one]
  | succ n ih =>
    rw [hs n hn, ih (Nat.lt_of_succ_lt hn)]
    exact (Finset.sum_range_succ (fun j => ∑ q, g j q) (n + 1)).symm

/-- A running total over tiles is the sum of the tiles: if A 0 is 0 plus tile 0's sum and each later A is the
    previous plus that tile's sum, A n is the double sum up to n. -/
theorem running_total {T : ℕ} (g : ℕ → Fin T → M) (A : ℕ → M)
    (h0 : A 0 = 0 + ∑ q, g 0 q) (hs : ∀ j, A (j + 1) = A j + ∑ q, g (j + 1) q) (n : ℕ) :
    A n = ∑ j ∈ Finset.range (n + 1), ∑ q, g j q :=
  running_total_below (n + 1) g A h0 (fun j _ => hs j) n (Nat.lt_succ_self n)

/-- A sum over K·T consecutive indices is the sum over K tiles of T: index j·T + q is position q of tile j, and
    (j, q) ↦ j·T + q is a bijection from pairs onto the indices below K·T. -/
theorem sum_tiles (K T : ℕ) (f : Fin (K * T) → M) :
    ∑ n, f n = ∑ j : Fin K, ∑ q : Fin T, f ⟨j.val * T + q.val, tile_lt j q⟩ := by
  rw [← Equiv.sum_comp finProdFinEquiv f, Fintype.sum_prod_type]
  refine Finset.sum_congr rfl fun j _ => Finset.sum_congr rfl fun q _ => congrArg f (Fin.ext ?_)
  rw [finProdFinEquiv_apply_val, Nat.mul_comm, Nat.add_comm]

/-- Tile j of a function on 8192 indices, by position in the tile; zero from the ninth tile on. -/
def tile8 (f : Fin 8192 → M) (j : ℕ) (q : Fin 1024) : M :=
  if h : j < 8 then f ⟨j * 1024 + q.val, by omega⟩ else 0

/-- Below the ninth tile it is the function at index j·1024 + q. -/
theorem tile8_of_lt (f : Fin 8192 → M) (j : ℕ) (hj : j < 8) (q : Fin 1024) :
    tile8 f j q = f ⟨j * 1024 + q.val, by omega⟩ := dif_pos hj

/-- The two together at 8 tiles of 1024: the accumulator after the eighth tile is the sum over all 8192. -/
theorem acc_eight (f : Fin 8192 → M) (A : ℕ → M)
    (h0 : A 0 = 0 + ∑ q : Fin 1024, f ⟨0 * 1024 + q.val, by omega⟩)
    (hs : ∀ j, (hj : j + 1 < 8) → A (j + 1) = A j + ∑ q : Fin 1024, f ⟨(j + 1) * 1024 + q.val, by omega⟩) :
    A 7 = ∑ n : Fin 8192, f n := by
  have e0 : A 0 = 0 + ∑ q, tile8 f 0 q :=
    h0.trans (congrArg (0 + ·) (Finset.sum_congr rfl fun q _ => (tile8_of_lt f 0 (by omega) q).symm))
  have es : ∀ j, j + 1 < 8 → A (j + 1) = A j + ∑ q, tile8 f (j + 1) q := fun j hj =>
    (hs j hj).trans (congrArg (A j + ·) (Finset.sum_congr rfl fun q _ => (tile8_of_lt f (j + 1) hj q).symm))
  refine (running_total_below 8 (tile8 f) A e0 es 7 (by omega)).trans ?_
  refine Eq.trans ?_ (sum_tiles 8 1024 f).symm
  refine (Fin.sum_univ_eq_sum_range (fun j => ∑ q, tile8 f j q) 8).symm.trans ?_
  exact Finset.sum_congr rfl fun j _ => Finset.sum_congr rfl fun q _ => tile8_of_lt f j.val j.isLt q

end Cert.TileSum
-- ==== Proof.Spec.lean ====
/-
  The mathematics both programs compute, stated once over the extended reals with plain index types.

  Two arrays of 4096 rows and 512 columns are stacked into 8192 rows.  Each row is divided by its length, the
  length being the larger of the square root of the row's sum of squares and a small positive constant.  The
  similarity of rows r and c is the exponential of their inner product divided by one half, except on the
  diagonal r = c, where it is zero.  The quantity of interest is, for each row r, the sum of its similarities
  over all 8192 columns c.

  Also here, the pure arithmetic by which a second way of computing the same row sums is seen to agree: the
  product with two is the quotient by one half on every extended real (infinite ones included); a sum over 8192
  columns is the running total of four sums over 2048 consecutive columns each, started from zero; and two small
  sums of 32-bit words are equal exactly when the naturals they stand for are, nothing here reaching 2^32.
-/
import Idealize.ShloMosaic.PureOps.Ideal
import Idealize.ShloMosaic.PureOps.Ideal.Laws
import Idealize.ShloMosaic.Lib.ValueIdx
import proofs.«160810_j50749333569628_1_alg».proof.Proof.LibTileSum

noncomputable section

namespace Cert.Spec

open Idealize.ShloMosaic
open scoped BigOperators

/-! ## The constants -/

/-- The word 0x40000000 denotes the real number 2. -/
theorem ofBits_two : Ideal.ofBits .f32 0x40000000#32 = ((2 : ℝ) : EReal) := by
  simp [Ideal.ofBits, Ideal.ieee, -EReal.coe_mul]; norm_num

/-- The word 0x3F000000 denotes the real number 1/2. -/
theorem ofBits_half : Ideal.ofBits .f32 0x3F000000#32 = ((1 / 2 : ℝ) : EReal) := by
  simp [Ideal.ofBits, Ideal.ieee, -EReal.coe_mul]; norm_num

/-- The word of all zero bits denotes 0. -/
theorem ofBits_zero : Ideal.ofBits .f32 0x00000000#32 = 0 := Ideal.ofBits_zero_f32

/-- Adding to the zero word's value changes nothing. -/
theorem ofBits_zero_add (x : EReal) : Ideal.ofBits .f32 0x00000000#32 + x = x := by
  rw [ofBits_zero, zero_add]

/-- The product with the word of 2 is the quotient by the word of 1/2, on every extended real: division by a
    nonzero real is multiplication by its reciprocal, at the infinities too, and the reciprocal of 1/2 is 2. -/
theorem mul_two_eq_div_half (x : EReal) :
    x * Ideal.ofBits .f32 0x40000000#32 = Ideal.div x (Ideal.ofBits .f32 0x3F000000#32) := by
  rw [ofBits_two, ofBits_half, Ideal.div_coe (by norm_num : (1 / 2 : ℝ) ≠ 0) x]
  norm_num

/-! ## The specification -/

/-- The two inputs stacked: rows below 4096 from the first, row r ≥ 4096 is row r - 4096 of the second. -/
def yb (y yh : Fin 4096 → Fin 512 → EReal) : Fin 8192 → Fin 512 → EReal :=
  fun r k => if h : r.val < 4096 then y ⟨r.val, h⟩ k else yh ⟨r.val - 4096, by omega⟩ k

theorem yb_lo (y yh : Fin 4096 → Fin 512 → EReal) (r : Fin 8192) (k : Fin 512) (h : r.val < 4096) :
    yb y yh r k = y ⟨r.val, h⟩ k := dif_pos h

theorem yb_hi (y yh : Fin 4096 → Fin 512 → EReal) (r : Fin 8192) (k : Fin 512) (h : ¬ r.val < 4096) :
    yb y yh r k = yh ⟨r.val - 4096, by omega⟩ k := dif_neg h

/-- The length a row is divided by: the larger of the root of its sum of squares and the small constant. -/
def nrm (Y : Fin 8192 → Fin 512 → EReal) (r : Fin 8192) : EReal :=
  max (Ideal.sqrt (∑ k, Y r k * Y r k)) (Ideal.ofBits .f32 0x2B8CBCCC#32)

/-- The rows divided by their lengths. -/
def yn (Y : Fin 8192 → Fin 512 → EReal) (r : Fin 8192) (k : Fin 512) : EReal :=
  Ideal.div (Y r k) (nrm Y r)

/-- The inner product of rows r and c. -/
def dot (N : Fin 8192 → Fin 512 → EReal) (r c : Fin 8192) : EReal := ∑ k, N r k * N c k

/-- The similarity of rows r and c: zero on the diagonal, else the exponential of the inner product over 1/2. -/
def sim (N : Fin 8192 → Fin 512 → EReal) (r c : Fin 8192) : EReal :=
  if r = c then 0 else Ideal.exp (Ideal.div (∑ k, N r k * N c k) (Ideal.ofBits .f32 0x3F000000#32))

/-- The row sums of the similarities. -/
def neg (N : Fin 8192 → Fin 512 → EReal) (r : Fin 8192) : EReal := ∑ c, sim N r c

theorem nrm_def (Y : Fin 8192 → Fin 512 → EReal) (r : Fin 8192) :
    nrm Y r = max (Ideal.sqrt (∑ k, Y r k * Y r k)) (Ideal.ofBits .f32 0x2B8CBCCC#32) := rfl

theorem yn_def (Y : Fin 8192 → Fin 512 → EReal) (r : Fin 8192) (k : Fin 512) :
    yn Y r k = Ideal.div (Y r k) (max (Ideal.sqrt (∑ k, Y r k * Y r k)) (Ideal.ofBits .f32 0x2B8CBCCC#32)) := rfl

theorem sim_def (N : Fin 8192 → Fin 512 → EReal) (r c : Fin 8192) :
    sim N r c = if r = c then 0
      else Ideal.exp (Ideal.div (∑ k, N r k * N c k) (Ideal.ofBits .f32 0x3F000000#32)) := rfl

theorem neg_def (N : Fin 8192 → Fin 512 → EReal) (r : Fin 8192) : neg N r = ∑ c, sim N r c := rfl

/-- The length when the sum of squares was started from the zero word's value. -/
theorem nrm_zero_add (Y : Fin 8192 → Fin 512 → EReal) (r : Fin 8192) :
    max (Ideal.sqrt (Ideal.ofBits .f32 0x00000000#32 + ∑ k, Y r k * Y r k)) (Ideal.ofBits .f32 0x2B8CBCCC#32)
      = nrm Y r := by
  rw [ofBits_zero_add]; rfl

/-- One similarity entry in the other program's form: the inner product, added to a zero accumulator, times the
    word of 2; zero on the diagonal, the diagonal decided by any proposition equivalent to r = c. -/
theorem sim_mul_two (N : Fin 8192 → Fin 512 → EReal) (r c : Fin 8192) (P : Prop) [Decidable P] (hP : P ↔ r = c) :
    (if P then (0 : EReal) else Ideal.exp ((0 + ∑ k, N r k * N c k) * Ideal.ofBits .f32 0x40000000#32))
      = sim N r c := by
  rw [sim_def, zero_add, mul_two_eq_div_half]
  by_cases h : r = c
  · rw [if_pos h, if_pos (hP.mpr h)]
  · rw [if_neg h, if_neg (fun hp => h (hP.mp hp))]

/-- The same without the zero accumulator. -/
theorem sim_mul_two' (N : Fin 8192 → Fin 512 → EReal) (r c : Fin 8192) (P : Prop) [Decidable P] (hP : P ↔ r = c) :
    (if P then (0 : EReal) else Ideal.exp ((∑ k, N r k * N c k) * Ideal.ofBits .f32 0x40000000#32))
      = sim N r c := by
  rw [← sim_mul_two N r c P hP, zero_add]

/-! ## Four tiles of 2048 columns -/

section Tiles

variable {M : Type*} [AddCommMonoid M]

/-- Tile j of a function on 8192 indices, by position in the tile, at tiles of 2048; zero from the fifth on. -/
def tile4 (f : Fin 8192 → M) (j : ℕ) (q : Fin 2048) : M :=
  if h : j < 4 then f ⟨j * 2048 + q.val, by omega⟩ else 0

theorem tile4_of_lt (f : Fin 8192 → M) (j : ℕ) (hj : j < 4) (q : Fin 2048) :
    tile4 f j q = f ⟨j * 2048 + q.val, by omega⟩ := dif_pos hj

/-- The sum of tile j: the sum over its 2048 positions. -/
def tileSum (f : Fin 8192 → M) (j : ℕ) : M := ∑ q : Fin 2048, tile4 f j q

theorem tileSum_of_lt (f : Fin 8192 → M) (j : ℕ) (hj : j < 4) :
    tileSum f j = ∑ q : Fin 2048, f ⟨j * 2048 + q.val, by omega⟩ :=
  Finset.sum_congr rfl fun q _ => tile4_of_lt f j hj q

/-- The sum over all 8192 indices is the sum of the four tiles' sums. -/
theorem sum_eq_four_tiles (f : Fin 8192 → M) :
    ∑ c, f c = ∑ j ∈ Finset.range 4, tileSum f j := by
  refine (Cert.TileSum.sum_tiles 4 2048 f).trans ?_
  refine Eq.trans ?_ (Fin.sum_univ_eq_sum_range (fun j => tileSum f j) 4)
  exact Finset.sum_congr rfl fun j _ => Finset.sum_congr rfl fun q _ => (tile4_of_lt f j.val j.isLt q).symm

/-- A running total over the column tiles, the recurrence known for the four tiles only: after tile n < 4 it is
    the sum of tiles 0 … n. -/
theorem acc_partial (f : Fin 8192 → M) (A : ℕ → M)
    (h0 : A 0 = 0 + tileSum f 0) (hs : ∀ j, j + 1 < 4 → A (j + 1) = A j + tileSum f (j + 1))
    (n : ℕ) (hn : n < 4) : A n = ∑ j ∈ Finset.range (n + 1), tileSum f j :=
  Cert.TileSum.running_total_below 4 (tile4 f) A h0 hs n hn

/-- After the fourth tile the running total is the sum over all 8192 indices. -/
theorem acc_four (f : Fin 8192 → M) (A : ℕ → M)
    (h0 : A 0 = 0 + tileSum f 0) (hs : ∀ j, j + 1 < 4 → A (j + 1) = A j + tileSum f (j + 1)) :
    A 3 = ∑ c, f c :=
  (acc_partial f A h0 hs 3 (by omega)).trans (sum_eq_four_tiles f).symm

/-- The closed form: zero plus the four tiles' sums, one after the other, is the sum over all 8192 indices. -/
theorem four_tiles (f : Fin 8192 → M) :
    ((((0 + ∑ q : Fin 2048, f ⟨0 * 2048 + q.val, by omega⟩) + ∑ q : Fin 2048, f ⟨1 * 2048 + q.val, by omega⟩)
      + ∑ q : Fin 2048, f ⟨2 * 2048 + q.val, by omega⟩) + ∑ q : Fin 2048, f ⟨3 * 2048 + q.val, by omega⟩)
      = ∑ c, f c := by
  rw [sum_eq_four_tiles, Finset.sum_range_succ, Finset.sum_range_succ, Finset.sum_range_succ, Finset.sum_range_one,
    tileSum_of_lt f 0 (by omega), tileSum_of_lt f 1 (by omega), tileSum_of_lt f 2 (by omega),
    tileSum_of_lt f 3 (by omega), zero_add]

end Tiles

/-- The row sums as a running total over four column tiles. -/
theorem neg_eq_acc (N : Fin 8192 → Fin 512 → EReal) (r : Fin 8192) (A : ℕ → EReal)
    (h0 : A 0 = 0 + tileSum (sim N r) 0) (hs : ∀ j, j + 1 < 4 → A (j + 1) = A j + tileSum (sim N r) (j + 1)) :
    A 3 = neg N r := acc_four (sim N r) A h0 hs

/-! ## The diagonal test on 32-bit words -/

/-- Row i·1024 + p against column j·2048 + q, computed on 32-bit words: nothing reaches 8192, far below 2^32, so
    the words are equal exactly when the naturals are. -/
theorem diag_word_iff (i j p q : ℕ) (hi : i < 8) (hj : j < 4) (hp : p < 1024) (hq : q < 2048) :
    BitVec.ofNat 32 i * 1024#32 + BitVec.ofNat 32 p = BitVec.ofNat 32 j * 2048#32 + BitVec.ofNat 32 q
      ↔ i * 1024 + p = j * 2048 + q := by
  constructor
  · intro h
    have h' := congrArg BitVec.toNat h
    simp only [BitVec.toNat_add, BitVec.toNat_mul, BitVec.toNat_ofNat] at h'
    omega
  · intro h
    apply BitVec.eq_of_toNat_eq
    simp only [BitVec.toNat_add, BitVec.toNat_mul, BitVec.toNat_ofNat]
    omega

/-- The same with the global row and column as indices below 8192. -/
theorem diag_word_iff_fin (i j p q : ℕ) (hi : i < 8) (hj : j < 4) (hp : p < 1024) (hq : q < 2048) :
    BitVec.ofNat 32 i * 1024#32 + BitVec.ofNat 32 p = BitVec.ofNat 32 j * 2048#32 + BitVec.ofNat 32 q
      ↔ (⟨i * 1024 + p, by omega⟩ : Fin 8192) = ⟨j * 2048 + q, by omega⟩ := by
  rw [diag_word_iff i j p q hi hj hp hq, Fin.mk.injEq]

end Cert.Spec

end
-- ==== Proof.Tail.lean ====
/-
  What both programs do with the row sums once they have them: one function of the two input arrays and of the
  array n of 8192 row sums, giving a scalar.

  For each of the 4096 matched pairs of rows, the cosine: the inner product of the two rows over the product of
  their lengths, each length the larger of the root of the row's sum of squares and a small constant.  The
  exponential of the cosine over one half is the pair's positive term; the 4096 positive terms are laid out twice
  in a row, 8192 of them, and divided entry by entry by n.  The result is the negated logarithm of the mean of
  those 8192 quotients.

  It is stated as one definition so that an equation between two scalars that differ only in the row sums they
  were given follows by applying this function to an equation between the row sums.
-/
import proofs.«160810_j50749333569628_1_alg».proof.KernelIdeal
import proofs.«160810_j50749333569628_1_alg».proof.Proof.Gen.KernelIdeal
import Idealize.ShloMosaic.PureOps.Ideal

set_option maxRecDepth 8192

noncomputable section

namespace Cert.Tail

open Idealize.ShloMosaic Cert.KernelIdeal Cert.KernelIdeal.Facts₀

/-- The scalar computed from the inputs y, yh and the row sums n: minus the logarithm of the mean over 8192
    entries of (positive term of the entry's pair) / n, the operations in the order the programs apply them. -/
def tail (y yh : FVec Ideal S4096x512 .f32) (n : FVec Ideal S8192 .f32) : FVec Ideal S_ .f32 :=
  Host.negf (Host.log (Host.divf (Host.reduceAdd (Host.divf (concatenate S8192 0 [⟨S4096, (Host.exp (Host.divf (Host.divf (Host.reduceAdd (mulf y yh) (constant S_ .f32 0x00000000#32) reducesTo_S4096x512_S4096_d1 h_S_) (mulf (maximumf (Host.sqrt (Host.reduceAdd (mulf y y) (constant S_ .f32 0x00000000#32) reducesTo_S4096x512_S4096_d1 h_S_)) (broadcastInDim S4096 ![] bcast_S_S4096 (constant S_ .f32 0x322BCC77#32))) (maximumf (Host.sqrt (Host.reduceAdd (mulf yh yh) (constant S_ .f32 0x00000000#32) reducesTo_S4096x512_S4096_d1 h_S_)) (broadcastInDim S4096 ![] bcast_S_S4096 (constant S_ .f32 0x322BCC77#32))))) (broadcastInDim S4096 ![] bcast_S_S4096 (constant S_ .f32 0x3F000000#32))))⟩, ⟨S4096, (Host.exp (Host.divf (Host.divf (Host.reduceAdd (mulf y yh) (constant S_ .f32 0x00000000#32) reducesTo_S4096x512_S4096_d1 h_S_) (mulf (maximumf (Host.sqrt (Host.reduceAdd (mulf y y) (constant S_ .f32 0x00000000#32) reducesTo_S4096x512_S4096_d1 h_S_)) (broadcastInDim S4096 ![] bcast_S_S4096 (constant S_ .f32 0x322BCC77#32))) (maximumf (Host.sqrt (Host.reduceAdd (mulf yh yh) (constant S_ .f32 0x00000000#32) reducesTo_S4096x512_S4096_d1 h_S_)) (broadcastInDim S4096 ![] bcast_S_S4096 (constant S_ .f32 0x322BCC77#32))))) (broadcastInDim S4096 ![] bcast_S_S4096 (constant S_ .f32 0x3F000000#32))))⟩] concatenates_S4096_S4096_S8192_d0) n) (constant S_ .f32 0x00000000#32) reducesTo_S8192_S_d0 h_S_) (constant S_ .f32 0x46000000#32)))

end Cert.Tail

end
-- ==== Proof.KernelTail.lean ====
import proofs.«160810_j50749333569628_1_alg».proof.Proof.Gen.KernelIdeal.Regions
import proofs.«160810_j50749333569628_1_alg».proof.Proof.Spec
import proofs.«160810_j50749333569628_1_alg».proof.Proof.Tail
import Idealize.ShloMosaic.Lib.Pipeline.Value
import Idealize.ShloMosaic.Lib.ValueIdx
import Idealize.ShloMosaic.PureOps.Ideal

/-!
# The kernel program's host operations, read as values

The program does three things on the host.  Before the first kernel it stacks the two input arrays y and y_hat, 4096
rows each, into one array of 8192 rows.  After the second kernel it drops the unit axis of the 8192 × 1 array of row
sums.  Then, from the two inputs and those 8192 row sums n, it computes a scalar: the cosine of each matched pair of
rows, its exponential over one half, these 4096 numbers laid out twice and divided by n, and minus the logarithm of the
mean of the 8192 quotients.

Here each of these is read off the valuations between the program's items:

* the stacked array, as a two-piece concatenation, and entry by entry as row r of y for r < 4096 and row r − 4096 of
  y_hat otherwise;
* the row sums with the unit axis dropped, entry i being the entry (i, 0) of the 8192 × 1 array;
* the result, as the scalar function `Cert.Tail.tail` of y, y_hat and the row sums.

The last is read one stretch of host operations at a time, each over an arbitrary valuation: a stretch's result depends
only on the few buffers it reads, and no later stretch or kernel region writes those.
-/

noncomputable section

namespace Cert.KernelIdeal.KTail

open Cert.KernelIdeal Cert.KernelIdeal.Gen
open Idealize.ShloMosaic Idealize.ShloMosaic.TcCoe Idealize.ShloMosaic.ValueIdx

variable (m : (ℓ : Loc nD τ sig) → Buf (Elt Ideal) ℓ) (outs : Outs (F := Ideal))

/-! ## The stacked array -/

/-- What the first host operation leaves in `main_v0`: y on top of y_hat. -/
theorem v0_eq (c : Dev nD) :
    (V1 m c main_v0 : S8192x512.Idx → EReal)
      = concatenate S8192x512 0 [⟨S4096x512, m ((c.tc : Thread nD τ).loc main_arg0)⟩, ⟨S4096x512, m ((c.tc : Thread nD τ).loc main_arg1)⟩]
          concatenates_S4096x512_S4096x512_S8192x512_d0 := by
  dsimp only [V1, hostOps0]
  after_results

/-- Two arrays of 4096 rows stacked, at row r and column k: row r of the first when r < 4096, row r − 4096 of the
    second otherwise. -/
theorem stack_apply (x₁ x₂ : S4096x512.Idx → EReal) (r : Fin 8192) (k : Fin 512) :
    concatenate S8192x512 0 [⟨S4096x512, x₁⟩, ⟨S4096x512, x₂⟩] concatenates_S4096x512_S4096x512_S8192x512_d0 (ix2 r k)
      = Cert.Spec.yb (fun r k => x₁ (ix2 r k)) (fun r k => x₂ (ix2 r k)) r k := by
  by_cases h : r.val < 4096
  · rw [Cert.Spec.yb_lo _ _ r k h]
    exact concatenate_pair_apply_left (0 : Fin S8192x512.rank) x₁ x₂ concatenates_S4096x512_S4096x512_S8192x512_d0
      (ix2 r k) rfl (ix2 (⟨r.val, h⟩ : Fin 4096) k)
      (fun b => by match b with | ⟨0, _⟩ => rfl | ⟨1, _⟩ => rfl)
  · rw [Cert.Spec.yb_hi _ _ r k h]
    exact concatenate_pair_apply_right (0 : Fin S8192x512.rank) x₁ x₂ concatenates_S4096x512_S4096x512_S8192x512_d0
      (ix2 r k) rfl rfl (ix2 (⟨r.val - 4096, by omega⟩ : Fin 4096) k)
      (fun b hb => by match b, hb with | ⟨0, _⟩, hb => exact absurd rfl hb | ⟨1, _⟩, _ => rfl)
      (by show r.val - 4096 + 4096 = r.val; omega)

/-- The stacked array in `main_v0`, entry by entry. -/
theorem v0_apply (c : Dev nD) (r : Fin 8192) (k : Fin 512) :
    (V1 m c main_v0 : S8192x512.Idx → EReal) (ix2 r k)
      = Cert.Spec.yb (fun r k => (m ((c.tc : Thread nD τ).loc main_arg0) : S4096x512.Idx → EReal) (ix2 r k))
          (fun r k => (m ((c.tc : Thread nD τ).loc main_arg1) : S4096x512.Idx → EReal) (ix2 r k)) r k := by
  rw [v0_eq]
  exact stack_apply _ _ r k

/-! ## The unit axis dropped -/

/-- An 8192 × 1 array read as 8192 entries: entry i is the entry (i, 0). -/
theorem reshape_apply (x : S8192x1.Idx → EReal) (i : Fin 8192) :
    shapeCast S8192 x shapeCasts_S8192x1_S8192 (ix1 i) = x (ix2 i (0 : Fin 1)) :=
  shapeCast_apply x shapeCasts_S8192x1_S8192 (ix1 i) (ix2 i (0 : Fin 1)) (by
    rw [Shape.rowMajor_val_two, Shape.rowMajor_val_one]
    show i.val * 1 + 0 = i.val
    omega)

/-! ## The stretches of host operations after the kernels, over any valuation -/

/-- The reshape: `main_v3` is `main_v2` with its unit axis dropped. -/
theorem after_reshape (W : Valuation τ sig (Elt Ideal)) :
    (StableHlo.after (hostOps2 (F := Ideal)) W (Proc.devRef .tc main_v3) : S8192.Idx → EReal)
      = shapeCast S8192 (W (Proc.devRef .tc main_v2) : S8192x1.Idx → EReal) shapeCasts_S8192x1_S8192 := by
  dsimp only [hostOps2]
  after_results
  rfl

/-- The first call of the row-length function: `main_v4` is the root of each row's sum of squares, of y. -/
theorem after_norm0 (W : Valuation τ sig (Elt Ideal)) :
    (StableHlo.after (hostOps2_1 (F := Ideal)) W (Proc.devRef .tc main_v4) : S4096.Idx → EReal)
      = Host.sqrt (F := Ideal) (Host.reduceAdd (F := Ideal) (mulf (F := Ideal) (φ := .f32) (W (Proc.devRef .tc main_arg0)) (W (Proc.devRef .tc main_arg0)))
          (constant (F := Ideal) S_ .f32 0x00000000#32) reducesTo_S4096x512_S4096_d1 h_S_) := by
  dsimp only [hostOps2_1]
  after_results
  rfl

/-- The larger of that and the small constant: `main_v6`. -/
theorem after_max0 (W : Valuation τ sig (Elt Ideal)) :
    (StableHlo.after (hostOps2_2 (F := Ideal)) W (Proc.devRef .tc main_v6) : S4096.Idx → EReal)
      = maximumf (F := Ideal) (φ := .f32) (W (Proc.devRef .tc main_v4))
          (broadcastInDim S4096 ![] bcast_S_S4096 (constant (F := Ideal) S_ .f32 0x322BCC77#32)) := by
  dsimp only [hostOps2_2]
  after_results

/-- The second call of the row-length function: `main_v7` is the root of each row's sum of squares, of y_hat. -/
theorem after_norm1 (W : Valuation τ sig (Elt Ideal)) :
    (StableHlo.after (hostOps2_3 (F := Ideal)) W (Proc.devRef .tc main_v7) : S4096.Idx → EReal)
      = Host.sqrt (F := Ideal) (Host.reduceAdd (F := Ideal) (mulf (F := Ideal) (φ := .f32) (W (Proc.devRef .tc main_arg1)) (W (Proc.devRef .tc main_arg1)))
          (constant (F := Ideal) S_ .f32 0x00000000#32) reducesTo_S4096x512_S4096_d1 h_S_) := by
  dsimp only [hostOps2_3]
  after_results
  rfl

/-- The last stretch: from y, y_hat, the first length already bounded below, the second length and the row sums,
    the result `main_v22` is the scalar function of y, y_hat and the row sums. -/
theorem after_last (W : Valuation τ sig (Elt Ideal)) (y yh : FVec Ideal S4096x512 .f32) (n : FVec Ideal S8192 .f32)
    (h0 : W (Proc.devRef .tc main_arg0) = y) (h1 : W (Proc.devRef .tc main_arg1) = yh)
    (h6 : W (Proc.devRef .tc main_v6) = maximumf (F := Ideal) (φ := .f32)
        (Host.sqrt (F := Ideal) (Host.reduceAdd (F := Ideal) (mulf (F := Ideal) (φ := .f32) y y) (constant (F := Ideal) S_ .f32 0x00000000#32) reducesTo_S4096x512_S4096_d1 h_S_))
        (broadcastInDim S4096 ![] bcast_S_S4096 (constant (F := Ideal) S_ .f32 0x322BCC77#32)))
    (h7 : W (Proc.devRef .tc main_v7) = Host.sqrt (F := Ideal) (Host.reduceAdd (F := Ideal) (mulf (F := Ideal) (φ := .f32) yh yh) (constant (F := Ideal) S_ .f32 0x00000000#32) reducesTo_S4096x512_S4096_d1 h_S_))
    (h3 : W (Proc.devRef .tc main_v3) = n) :
    (StableHlo.after (hostOps2_4 (F := Ideal)) W (Proc.devRef .tc main_v22) : S_.Idx → EReal) = Cert.Tail.tail y yh n := by
  dsimp only [hostOps2_4]
  after_results
  rw [h0, h1, h6, h7, h3]
  rfl

/-! ## The buffers the last stretches read, at the valuations between the items -/

/-- The row sums' array after the second kernel is what that kernel left. -/
theorem V3_main_v2 (c : Dev nD) : V3 m outs c main_v2 = outs 3 main_v2 c := by
  simp only [V3, Function.update_self]

theorem V4_main_arg0 (c : Dev nD) : V4 m outs c main_arg0 = m ((c.tc : Thread nD τ).loc main_arg0) :=
  (V4_of m outs c main_arg0 (by decide)).trans <| (V3_of m outs c main_arg0 (by decide)).trans <|
    (V2_of m outs c main_arg0 (by decide)).trans <| (V1_of m c main_arg0 (by decide)).trans rfl

theorem V4_main_arg1 (c : Dev nD) : V4 m outs c main_arg1 = m ((c.tc : Thread nD τ).loc main_arg1) :=
  (V4_of m outs c main_arg1 (by decide)).trans <| (V3_of m outs c main_arg1 (by decide)).trans <|
    (V2_of m outs c main_arg1 (by decide)).trans <| (V1_of m c main_arg1 (by decide)).trans rfl

theorem V7_main_arg0 (c : Dev nD) : V7 m outs c main_arg0 = m ((c.tc : Thread nD τ).loc main_arg0) :=
  (V7_of m outs c main_arg0 (by decide)).trans <| (V6_of m outs c main_arg0 (by decide)).trans <|
    (V5_of m outs c main_arg0 (by decide)).trans (V4_main_arg0 m outs c)

theorem V7_main_arg1 (c : Dev nD) : V7 m outs c main_arg1 = m ((c.tc : Thread nD τ).loc main_arg1) :=
  (V7_of m outs c main_arg1 (by decide)).trans <| (V6_of m outs c main_arg1 (by decide)).trans <|
    (V5_of m outs c main_arg1 (by decide)).trans (V4_main_arg1 m outs c)

theorem V6_main_arg1 (c : Dev nD) : V6 m outs c main_arg1 = m ((c.tc : Thread nD τ).loc main_arg1) :=
  (V6_of m outs c main_arg1 (by decide)).trans <| (V5_of m outs c main_arg1 (by decide)).trans (V4_main_arg1 m outs c)

/-- The row sums with the unit axis dropped reach the last stretch as the reshape left them. -/
theorem V7_main_v3 (c : Dev nD) :
    (V7 m outs c main_v3 : S8192.Idx → EReal)
      = shapeCast S8192 (outs 3 main_v2 c : S8192x1.Idx → EReal) shapeCasts_S8192x1_S8192 :=
  (V7_of m outs c main_v3 (by decide)).trans <| (V6_of m outs c main_v3 (by decide)).trans <|
    (V5_of m outs c main_v3 (by decide)).trans <|
    (after_reshape (V3 m outs c)).trans (congrArg (fun x => shapeCast S8192 x shapeCasts_S8192x1_S8192) (V3_main_v2 m outs c))

/-- The first length, bounded below, reaches the last stretch. -/
theorem V7_main_v6 (c : Dev nD) :
    (V7 m outs c main_v6 : S4096.Idx → EReal) = maximumf (F := Ideal) (φ := .f32)
        (Host.sqrt (F := Ideal) (Host.reduceAdd (F := Ideal) (mulf (F := Ideal) (φ := .f32) (m ((c.tc : Thread nD τ).loc main_arg0)) (m ((c.tc : Thread nD τ).loc main_arg0)))
          (constant (F := Ideal) S_ .f32 0x00000000#32) reducesTo_S4096x512_S4096_d1 h_S_))
        (broadcastInDim S4096 ![] bcast_S_S4096 (constant (F := Ideal) S_ .f32 0x322BCC77#32)) := by
  refine (V7_of m outs c main_v6 (by decide)).trans <| (after_max0 (V5 m outs c)).trans ?_
  rw [show V5 m outs c (Proc.devRef .tc main_v4) = _ from after_norm0 (V4 m outs c),
    show V4 m outs c (Proc.devRef .tc main_arg0) = _ from V4_main_arg0 m outs c]

/-- The second length reaches the last stretch. -/
theorem V7_main_v7 (c : Dev nD) :
    (V7 m outs c main_v7 : S4096.Idx → EReal)
      = Host.sqrt (F := Ideal) (Host.reduceAdd (F := Ideal) (mulf (F := Ideal) (φ := .f32) (m ((c.tc : Thread nD τ).loc main_arg1)) (m ((c.tc : Thread nD τ).loc main_arg1)))
          (constant (F := Ideal) S_ .f32 0x00000000#32) reducesTo_S4096x512_S4096_d1 h_S_) := by
  refine (after_norm1 (V6 m outs c)).trans ?_
  rw [show V6 m outs c (Proc.devRef .tc main_arg1) = _ from V6_main_arg1 m outs c]

/-! ## The result -/

/-- What the program leaves in its result `main_v22`: the scalar function of y, y_hat and the row sums the second
    kernel left, their unit axis dropped. -/
theorem v22_eq (c : Dev nD) :
    (V8 m outs c main_v22 : S_.Idx → EReal)
      = Cert.Tail.tail (m ((c.tc : Thread nD τ).loc main_arg0)) (m ((c.tc : Thread nD τ).loc main_arg1))
          (shapeCast S8192 (outs 3 main_v2 c : S8192x1.Idx → EReal) shapeCasts_S8192x1_S8192) :=
  after_last (V7 m outs c) _ _ _ (V7_main_arg0 m outs c) (V7_main_arg1 m outs c) (V7_main_v6 m outs c) (V7_main_v7 m outs c)
    (V7_main_v3 m outs c)

end Cert.KernelIdeal.KTail

end
-- ==== Proof.LibKeepdims.lean ====
/-
  Layout operations of small shapes read at an index, for row-wise reductions kept as a column and for a vector used as a
  one-row matrix; the float word of minus infinity; the host's exponential and logarithm at an index.

  A row-wise reduction of an `a × b` array (a maximum, a sum) is a vector of `a` entries; to combine it with the array again it
  is cast or broadcast to a column `a × 1` and the column is broadcast along the rows to `a × b`. Read at (p, c), each of these
  is the vector's entry `p`. A vector of `n` entries reshaped to a one-row matrix `1 × n` is the same as the vector broadcast
  along axis 1 of that shape. None of this depends on a program.
-/
import Idealize.ShloMosaic.Lib.Pipeline.Value
import Idealize.ShloMosaic.Lib.ValueIdx
import Idealize.ShloMosaic.PureOps.Ideal.Laws

noncomputable section

namespace Cert.Gcn

open Idealize.ShloMosaic Idealize.ShloMosaic.ValueIdx

/-! ## A column of row values: the keepdims cast and its broadcast along the rows -/

section Columns
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array broadcast in dimension 0 to `[a, 1]` reads, at `(i, u)`, the operand at `i`. -/
theorem broadcastInDim_a_a1_apply {a : ℕ} (hbc : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] hbc x (ix2 i u) = x (ix1 i) := by
  refine broadcastInDim_apply ![0] hbc x (ix2 i u) (ix1 i) fun ax => ?_
  match ax with
  | ⟨0, _⟩ =>
    show i.val = if a = 1 then 0 else i.val
    split
    · have := i.isLt; omega
    · rfl

/-- An `[a, 1]` array broadcast in dimensions (0, 1) to `[a, b]` reads, at `(p, c)`, the operand's one column at row `p`. -/
theorem broadcastInDim_a1_ab_apply {a b : ℕ} (hbc : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] hbc v (ix2 p c) = v (ix2 p (0 : Fin 1)) := by
  refine broadcastInDim_apply ![0, 1] hbc v (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## A vector as a one-row matrix -/

/-- A vector of `n` entries reshaped to one row is the vector broadcast along axis 1 of a one-row matrix. -/
theorem reshape_row_eq_broadcast {n : Nat} (x : (⟨1, ![n]⟩ : Shape).Idx → EReal)
    (h : (⟨1, ![n]⟩ : Shape).ShapeCasts ⟨2, ![1, n]⟩) (h' : (⟨1, ![n]⟩ : Shape).BroadcastsInDim ⟨2, ![1, n]⟩ ![1]) :
    shapeCast ⟨2, ![1, n]⟩ x h = broadcastInDim ⟨2, ![1, n]⟩ ![1] h' x := by
  funext i
  obtain ⟨a, b, rfl⟩ : ∃ (a : Fin 1) (b : Fin n), i = ix2 a b := ⟨i 0, i 1, eq_ix2 i⟩
  have e1 := shapeCast_apply x h (ix2 a b) (ix1 b) (by
    rw [Shape.rowMajor_val_two, Shape.rowMajor_val_one]
    have := a.isLt
    show b.val = a.val * n + b.val
    have : a.val = 0 := by omega
    rw [this]; omega)
  have e2 := broadcastInDim_apply ![1] h' x (ix2 a b) (ix1 b) (by
    intro d
    match d with
    | ⟨0, _⟩ =>
      show b.val = if n = 1 then 0 else b.val
      split
      · have := b.isLt; omega
      · rfl)
  exact e1.trans e2.symm

/-! ## Values on the extended reals -/

/-- The word of `−∞` at f32 is the extended reals' bottom. -/
theorem ofBits_negInf_f32 : Ideal.ofBits .f32 0xFF800000#32 = ⊥ := by simp [Ideal.ofBits, Ideal.ieee]

/-- The host's exponential of an array at an index is the exponential of the entry. -/
theorem hostExp_apply {s : Shape} (v : FVec Ideal s .f32) (i : s.Idx) : Host.exp v i = Ideal.exp (v i) := rfl

/-- The host's logarithm of an array at an index is the logarithm of the entry. -/
theorem hostLog_apply {s : Shape} (v : FVec Ideal s .f32) (i : s.Idx) : Host.log v i = Ideal.log (v i) := rfl

end Cert.Gcn

end
-- ==== Proof.RegZeroValue.lean ====
import proofs.«160810_j50749333569628_1_alg».proof.Proof.RegZeroKI
import proofs.«160810_j50749333569628_1_alg».proof.Proof.LibKeepdims
import proofs.«160810_j50749333569628_1_alg».proof.Proof.Spec
import Idealize.ShloMosaic.Lib.Pipeline.Value
import Idealize.ShloMosaic.Lib.ValueIdx
import Idealize.ShloMosaic.PureOps.Ideal.Laws

/-!
# What the row-normalising launch leaves in its output array, on the extended reals

With every float operation exact, block `t` of the launch computes, for each of its 1024 rows, the row's sum of
squares over the 512 columns, the square root of that, the larger of the root and a small constant, and the row divided
by it entry by entry; the narrowing of the result to a shorter float format changes nothing. Row `p` of block `t` is row
`1024·t + p` of the array, on the input side and on the output side alike, and row `r` lies in block `r / 1024`, so the
eight blocks fill the output array and entry `(r, k)` of it ends as entry `(r, k)` of the input divided by the length of
input row `r`.
-/

set_option maxRecDepth 16384

noncomputable section

namespace Cert.KernelIdeal.RegZero

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

/-! ## The body's arithmetic at an entry of a block -/

/-- The offsets of the body's one rectangle are zero on both axes. -/
theorem offsets_zero : (![0, 0] : Fin 2 → Nat) = fun _ => 0 := funext fun a => by fin_cases a <;> rfl

/-- Putting column `j` back into row index `p` of a 1024×512 block gives entry `(p, j)`. -/
theorem column_back (h : S1024x512.Reduces [1] S1024) (p : Fin 1024) (j : Fin (S1024x512.size 1)) :
    h.lift (ix1 p) j = ix2 p (⟨j.val, j.isLt⟩ : Fin 512) := by
  funext c; apply Fin.ext
  fin_cases c <;> rfl

/-- The lane reduction of a block at row `p`: the sum over the 512 columns of that row. -/
theorem row_sum (v : FVec Ideal S1024x512 .f32) (h : S1024x512.Reduces [1] S1024) (hφ : FKind.Formats .f32)
    (hacc : (0x00000000#32 : BitVec 32) = 0x00000000#32) (p : Fin 1024) :
    multiReduction .add [1] S1024 v 0x00000000#32 h hφ hacc (ix1 p) = ∑ j : Fin 512, v (ix2 p j) := by
  refine (Ideal.multiReduction_add_single v 0x00000000#32 h hφ hacc (ix1 p)).trans ?_
  exact Finset.sum_congr rfl fun j _ => congrArg v (column_back h p j)

/-- A block divided by a column of row values spread along the rows, then narrowed: at `(p, q)` the block's entry over
    the column's value at row `p`. -/
theorem divided_entry (x : FVec Ideal S1024x512 .f32) (d : FVec Ideal S1024x1 .f32) (p : Fin 1024) (q : Fin 512) :
    (truncf .bf16 (divf x (broadcastTo S1024x512 d broadcasts_S1024x1_S1024x512)) bitsLt_bf16_f32 : FVec Ideal S1024x512 .bf16) (ix2 p q)
      = Ideal.div (x (ix2 p q)) (d (ix2 p (0 : Fin 1))) := by
  show Ideal.div (x (ix2 p q)) (broadcastTo S1024x512 d broadcasts_S1024x1_S1024x512 (ix2 p q)) = _
  exact congrArg (Ideal.div (x (ix2 p q))) (Cert.Gcn.broadcastTo_a1_ab_apply d broadcasts_S1024x1_S1024x512 p q)

/-- The column of divisors at row `p`: the larger of the root of the row value and the constant. -/
theorem divisor_entry (s : FVec Ideal S1024 .f32) (w : BitVec 32) (p : Fin 1024) :
    maximumf (sqrt (shapeCast S1024x1 s shapeCasts_S1024_S1024x1)) (broadcast S1024x1 (FloatOps.ofBits .f32 w : Ideal .f32)) (ix2 p (0 : Fin 1))
      = max (Ideal.sqrt (s (ix1 p))) (Ideal.ofBits .f32 w) := by
  show max (Ideal.sqrt (shapeCast S1024x1 s shapeCasts_S1024_S1024x1 (ix2 p (0 : Fin 1)))) (Ideal.ofBits .f32 w) = _
  exact congrArg (fun z => max (Ideal.sqrt z) (Ideal.ofBits .f32 w)) (Cert.Gcn.shapeCast_a_a1_apply s shapeCasts_S1024_S1024x1 p 0)

/-- Entry `(p, q)` of the block the body stores: the entry of the loaded block divided by the larger of the root of row
    `p`'s sum of squares and the constant. -/
theorem stored_entry (x : Vec Ideal S1024x512 .f32) (p : Fin 1024) (q : Fin 512) :
    k0_pay1 x (ix2 p q)
      = Ideal.div (x (ix2 p q)) (max (Ideal.sqrt (∑ j : Fin 512, x (ix2 p j) * x (ix2 p j))) (Ideal.ofBits .f32 0x2B8CBCCC#32)) := by
  unfold k0_pay1
  simp only [shapeCast_self]
  refine (divided_entry x _ p q).trans ?_
  refine congrArg (Ideal.div (x (ix2 p q))) ?_
  refine (divisor_entry _ 0x2B8CBCCC#32 p).trans ?_
  refine congrArg (fun z => max (Ideal.sqrt z) (Ideal.ofBits .f32 0x2B8CBCCC#32)) ?_
  exact row_sum (mulf x x) _ _ _ p

/-! ## From blocks to the array -/

section Array
variable (V : (c : Dev nD) → (b : Ref sig .tc) → Buf (Elt Ideal) ((c : Thread nD τ).loc b))

/-- Where the two windows' blocks sit, for each of the eight blocks: block `t` starts at row block `t` and column block
    `0`, on the input side and on the output side. -/
theorem block_positions : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The input array as the launch finds it, by row and column. -/
def inputRows (c : Dev nD) : Fin 8192 → Fin 512 → EReal := fun r k => (V c main_v0 : S8192x512.Idx → Elt Ideal .f32) (ix2 r k)

/-- What the output array is to hold in the end: at `(r, k)` the input's entry `(r, k)` divided by the length of input
    row `r`. -/
def normalisedRows (c : Dev nD) : S8192x512.Idx → Elt Ideal .bf16 :=
  fun i => Cert.Spec.yn (inputRows V c) ⟨(i 0).val, (i 0).isLt⟩ ⟨(i 1).val, (i 1).isLt⟩

/-- Entry `x` of input block `t` is entry `(1024·t + row, column)` of the input array. -/
theorem rowsAt_in_apply (c : Dev nD) (t : Fin cfg0.N) (x : S1024x512.Idx) (r : Fin 8192) (k : Fin 512)
    (hr : r.val = t.val * 1024 + (x 0).val) (hk : k.val = (x 1).val) :
    (rowsAt V c 0 t : Vec Ideal S1024x512 .f32) x = inputRows V c r k := by
  obtain ⟨e0, e1, -, -⟩ := block_positions t
  unfold rowsAt inputRows
  rw [View.read_apply]
  show (V c main_v0 : S8192x512.Idx → Elt Ideal .f32) _ = (V c main_v0 : S8192x512.Idx → Elt Ideal .f32) _
  congr 1
  funext a
  apply Fin.ext
  match a with
  | ⟨0, _⟩ => show win0_0.index t (0 : Fin 2) * 1024 + 1 * (x 0).val = r.val; rw [e0, hr]; omega
  | ⟨1, _⟩ => show win0_0.index t (1 : Fin 2) * 512 + 1 * (x 1).val = k.val; rw [e1, hk]; omega

/-- WHAT BLOCK `t` WRITES BACK is block `t` of `normalisedRows`. -/
theorem written_back (c : Dev nD) (t : Fin cfg0.N) :
    (dat0 V c).flushed 1 t = ((cfg0.win 1).blk t).view.read (Elt Ideal) (normalisedRows V c) := by
  show (cfg0.win 1).cut (grid0.coords t) ((dat0 V c).after 1 t) = _
  rw [dat0_after_out]
  unfold normalised
  rw [View.canon_unit_zero offsets_zero]
  simp only [View.ld_unit_zero (S := S1024x512) offsets_zero]
  obtain ⟨-, -, e2, e3⟩ := block_positions t
  funext j
  obtain ⟨p, q, rfl⟩ : ∃ (p : Fin 1024) (q : Fin 512), j = ix2 p q := ⟨j 0, j 1, eq_ix2 j⟩
  show k0_pay1 (rowsAt V c 0 t) (ix2 p q) = normalisedRows V c (((cfg0.win 1).blk t).view.emb (ix2 p q))
  refine (stored_entry (rowsAt V c 0 t) p q).trans ?_
  have hrow : ((((cfg0.win 1).blk t).view.emb (ix2 p q)) 0).val = t.val * 1024 + p.val := by
    show win0_1.index t (0 : Fin 2) * 1024 + 1 * p.val = _; rw [e2]; omega
  have hcol : ((((cfg0.win 1).blk t).view.emb (ix2 p q)) 1).val = q.val := by
    show win0_1.index t (1 : Fin 2) * 512 + 1 * q.val = _; rw [e3]; omega
  unfold normalisedRows
  rw [Cert.Spec.yn_def]
  have hx : ∀ j : Fin 512, (rowsAt V c 0 t : Vec Ideal S1024x512 .f32) (ix2 p j)
      = inputRows V c ⟨((((cfg0.win 1).blk t).view.emb (ix2 p q)) 0).val, ((((cfg0.win 1).blk t).view.emb (ix2 p q)) 0).isLt⟩ j :=
    fun j => rowsAt_in_apply V c t (ix2 p j) _ j (by show _ = t.val * 1024 + p.val; exact hrow) rfl
  have hq : (⟨((((cfg0.win 1).blk t).view.emb (ix2 p q)) 1).val, ((((cfg0.win 1).blk t).view.emb (ix2 p q)) 1).isLt⟩ : Fin 512) = q :=
    Fin.ext hcol
  rw [hq]
  simp only [hx]

/-- An entry of the output array is in block `t` exactly when each of its coordinates is in the block's range. -/
theorem mem_block (t : Fin cfg0.N) (i : S8192x512.Idx) :
    i ∈ ((cfg0.win 1).blk t).view.set ↔ ∀ a : Fin 2, win0_1.index t a * S1024x512.size a ≤ (i a).val
      ∧ (i a).val < win0_1.index t a * S1024x512.size a + S1024x512.size a := by
  show i ∈ ((View.whole main_v1).slice (win0_1.rect t)).set ↔ _
  rw [View.set_slice_whole, Rect.mem_set_unit]
  exact Iff.rfl

/-- Row `r` of the output array lies in block `r / 1024`; so the eight blocks fill the array. -/
theorem blocks_fill (i : S8192x512.Idx) :
    ∃ t : Fin cfg0.N, (cfg0.win 1).flush t = true ∧ i ∈ ((cfg0.win 1).blk t).view.set := by
  have hi0 : (i 0).val < 8192 := (i 0).isLt
  have hi1 : (i 1).val < 512 := (i 1).isLt
  have hN : (i 0).val / 1024 < cfg0.N := by rw [show cfg0.N = 8 from N_0]; omega
  obtain ⟨-, -, e2, e3⟩ := block_positions ⟨(i 0).val / 1024, hN⟩
  refine ⟨⟨(i 0).val / 1024, hN⟩, flush0_1 _, ?_⟩
  rw [mem_block]
  intro a
  match a with
  | ⟨0, _⟩ =>
    show win0_1.index ⟨(i 0).val / 1024, hN⟩ (0 : Fin 2) * 1024 ≤ (i 0).val
      ∧ (i 0).val < win0_1.index ⟨(i 0).val / 1024, hN⟩ (0 : Fin 2) * 1024 + 1024
    rw [e2]; show (i 0).val / 1024 * 1024 ≤ (i 0).val ∧ (i 0).val < (i 0).val / 1024 * 1024 + 1024; omega
  | ⟨1, _⟩ =>
    show win0_1.index ⟨(i 0).val / 1024, hN⟩ (1 : Fin 2) * 512 ≤ (i 1).val
      ∧ (i 1).val < win0_1.index ⟨(i 0).val / 1024, hN⟩ (1 : Fin 2) * 512 + 512
    rw [e3]; omega

/-- THE OUTPUT ARRAY after the launch: every row of the input divided by its length. -/
theorem output_array (c : Dev nD) : (dat0 V c).arrAt 1 cfg0.N = normalisedRows V c :=
  (dat0 V c).arrAt_eq_of_cover 1 (normalisedRows V c) (fun t _ => written_back V c t) blocks_fill

end Array

/-- What the launch leaves in the output array when entered at the contents the first host operation leaves: entry
    `(r, k)` is the stacked input's entry `(r, k)` divided by the length of its row `r`. -/
theorem arrAt_out (m : (ℓ : Loc nD τ sig) → Buf (Elt Ideal) ℓ) (c : Dev nD) (r : Fin 8192) (k : Fin 512) :
    (dat0 (fun c b => V1 m c b) c).arrAt 1 cfg0.N (ix2 r k)
      = Cert.Spec.yn (fun r k => (V1 m c main_v0) (ix2 r k)) r k := by
  rw [output_array]
  rfl

end Cert.KernelIdeal.RegZero

end
-- ==== Proof.RefValue.lean ====
/-
  The reference program's result, at the extended reals, is the shared final function of the two inputs and of the
  specification's row sums.

  Read at an index, stage by stage: the stacked array at (r, k) is the specification's stacked rows; the length a
  row is divided by is the larger of the root of its sum of squares (the sum started from zero) and the small
  constant; the quotient is the normalized row; the product of the normalized array with its transpose, at (r, c),
  is the inner product of rows r and c; its quotient by one half, exponentiated, is kept off the diagonal and
  replaced by zero on it, the diagonal being found by comparing the two coordinates as 32-bit words, which for
  coordinates below 8192 is comparing them as numbers; and the sum of row r over all columns, started from zero,
  is the specification's row sum.  Everything after the row sums is the same list of operations in both programs.
-/
import proofs.«160810_j50749333569628_1_alg».proof.Proof.Gen.ReferenceIdeal.Run
import proofs.«160810_j50749333569628_1_alg».proof.Proof.Gen.ReferenceIdeal.Read
import proofs.«160810_j50749333569628_1_alg».proof.Proof.Spec
import proofs.«160810_j50749333569628_1_alg».proof.Proof.Tail

noncomputable section

namespace Cert.RefValue

open Cert.ReferenceIdeal Cert.ReferenceIdeal.Gen Cert.ReferenceIdeal.Read
open Idealize.ShloMosaic Idealize.ShloMosaic.TcCoe Idealize.SL.Sem Idealize.ShloMosaic.StableHlo
open scoped BigOperators

/-- An input array as rows and columns. -/
abbrev rows (x : (⟨S4096x512, .f32⟩ : BufTy).Contents (Elt Ideal)) : Fin 4096 → Fin 512 → EReal :=
  fun r k => x (ValueIdx.ix2 r k)

/-! ## Indices composed through the layout operations are the plain coordinates -/

theorem idx_sq (r : Fin 8192) (k k' : Fin 512) :
    idx_main_call0_v1 (idx_main_call0_v2 (idx_main_v4 (ValueIdx.ix2 r k))) k' = ValueIdx.ix2 r k' :=
  funext fun a => Fin.ext (by match a with | ⟨0, _⟩ => rfl | ⟨1, _⟩ => rfl)

theorem idx_lhs (r c : Fin 8192) (k : Fin 512) :
    lidx_main_v7 (idx_main_v17 (ValueIdx.ix1 r) c) k = ValueIdx.ix2 r k :=
  funext fun a => Fin.ext (by match a with | ⟨0, _⟩ => rfl | ⟨1, _⟩ => rfl)

theorem idx_rhs (r c : Fin 8192) (k : Fin 512) :
    idx_main_v6 (ridx_main_v7 (idx_main_v17 (ValueIdx.ix1 r) c) k) = ValueIdx.ix2 c k :=
  funext fun a => Fin.ext (by match a with | ⟨0, _⟩ => rfl | ⟨1, _⟩ => rfl)

/-! ## The stages at an index -/

/-- The stacked array at (r, k): a row below 4096 comes from the first input, a later one from the second. -/
theorem v0_apply (x0 x1 : (⟨S4096x512, .f32⟩ : BufTy).Contents (Elt Ideal)) (r : Fin 8192) (k : Fin 512) :
    val_main_v0 (F := Ideal) x0 x1 (ValueIdx.ix2 r k) = Cert.Spec.yb (rows x0) (rows x1) r k := by
  unfold val_main_v0
  by_cases h : r.val < 4096
  · rw [Cert.Spec.yb_lo _ _ _ _ h]
    exact concatenate_pair_apply_left (0 : Fin S8192x512.rank) x0 x1 concatenates_S4096x512_S4096x512_S8192x512_d0
      (ValueIdx.ix2 r k) rfl (ValueIdx.ix2 ⟨r.val, h⟩ k) (fun b => match b with | ⟨0, _⟩ => rfl | ⟨1, _⟩ => rfl)
  · rw [Cert.Spec.yb_hi _ _ _ _ h]
    exact concatenate_pair_apply_right (0 : Fin S8192x512.rank) x0 x1 concatenates_S4096x512_S4096x512_S8192x512_d0
      (ValueIdx.ix2 r k) rfl rfl (ValueIdx.ix2 ⟨r.val - 4096, by omega⟩ k)
      (fun b => match b with | ⟨0, _⟩ => fun hb => absurd rfl hb | ⟨1, _⟩ => fun _ => rfl)
      (by show r.val - 4096 + 4096 = r.val; omega)

/-- The length row r is divided by. -/
theorem v3_apply (x0 x1 : (⟨S4096x512, .f32⟩ : BufTy).Contents (Elt Ideal)) (r : Fin 8192) (k : Fin 512) :
    val_main_v3 (F := Ideal) x0 x1 (idx_main_v4 (ValueIdx.ix2 r k))
      = Cert.Spec.nrm (Cert.Spec.yb (rows x0) (rows x1)) r := by
  have hs : ∀ k' : Fin 512,
      val_main_call0_v0 (F := Ideal) x0 x1 (idx_main_call0_v1 (idx_main_call0_v2 (idx_main_v4 (ValueIdx.ix2 r k))) k')
        = Cert.Spec.yb (rows x0) (rows x1) r k' * Cert.Spec.yb (rows x0) (rows x1) r k' := fun k' => by
    rw [val_main_call0_v0_apply, idx_sq, v0_apply]; rfl
  rw [val_main_v3_apply, val_main_v1_apply, val_main_call0_v2_apply, val_main_call0_v1_apply, val_main_v2_apply,
    val_main_cst_apply, val_main_call0_cst_apply, Finset.sum_congr rfl (fun k' _ => hs k')]
  exact Cert.Spec.nrm_zero_add _ r

/-- The normalized array at (r, k). -/
theorem v5_apply (x0 x1 : (⟨S4096x512, .f32⟩ : BufTy).Contents (Elt Ideal)) (r : Fin 8192) (k : Fin 512) :
    val_main_v5 (F := Ideal) x0 x1 (ValueIdx.ix2 r k)
      = Cert.Spec.yn (Cert.Spec.yb (rows x0) (rows x1)) r k := by
  rw [val_main_v5_apply, val_main_v4_apply, v3_apply, v0_apply]; rfl

/-- The diagonal test: the two coordinates compared as 32-bit words, zero added to the first, decide r = c. -/
theorem select_diag (r c : Fin 8192) (A B : EReal) :
    Scalar.select (IntOp.cmpi .eq (IntOp.addi (BitVec.ofNat 32 r.val) 0#32) (BitVec.ofNat 32 c.val)) A B
      = if r = c then A else B := by
  have hr := r.isLt
  have hc := c.isLt
  unfold Scalar.select IntOp.cmpi IntOp.addi
  show (if BitVec.ofBool (BitVec.ofNat 32 r.val + 0#32 == BitVec.ofNat 32 c.val) = 1#1 then A else B)
    = if r = c then A else B
  rw [BitVec.add_zero]
  by_cases h : r = c
  · subst h; simp
  · have hne : BitVec.ofNat 32 r.val ≠ BitVec.ofNat 32 c.val := by
      intro e
      have e' := congrArg BitVec.toNat e
      simp only [BitVec.toNat_ofNat] at e'
      exact h (Fin.ext (by omega))
    have hb : (BitVec.ofNat 32 r.val == BitVec.ofNat 32 c.val) = false := beq_eq_false_iff_ne.mpr hne
    rw [hb, if_neg h]
    exact if_neg (by decide)

/-- One entry of the masked exponentials: the specification's similarity of rows r and c. -/
theorem v16_apply (x0 x1 : (⟨S4096x512, .f32⟩ : BufTy).Contents (Elt Ideal)) (r c : Fin 8192) :
    val_main_v16 (F := Ideal) x0 x1 (idx_main_v17 (ValueIdx.ix1 r) c)
      = Cert.Spec.sim (Cert.Spec.yn (Cert.Spec.yb (rows x0) (rows x1))) r c := by
  have hp : ∀ k : Fin 512,
      val_main_v5 (F := Ideal) x0 x1 (lidx_main_v7 (idx_main_v17 (ValueIdx.ix1 r) c) k)
        * val_main_v6 (F := Ideal) x0 x1 (ridx_main_v7 (idx_main_v17 (ValueIdx.ix1 r) c) k)
        = Cert.Spec.yn (Cert.Spec.yb (rows x0) (rows x1)) r k
          * Cert.Spec.yn (Cert.Spec.yb (rows x0) (rows x1)) c k := fun k => by
    rw [val_main_v6_apply, idx_lhs, idx_rhs, v5_apply, v5_apply]
  rw [val_main_v16_apply, val_main_v15_apply, val_main_v14_apply, val_main_v11_apply, val_main_v12_apply,
    val_main_v13_apply, val_main_c_apply, val_main_call1_v1_apply, val_main_call1_v0_apply, val_main_cst_1_apply,
    val_main_v10_apply, val_main_v9_apply, val_main_v7_apply, val_main_v8_apply, val_main_cst_0_apply,
    Finset.sum_congr rfl (fun k _ => hp k)]
  refine (select_diag r c _ _).trans ?_
  rw [Cert.Spec.sim_def]
  show (if r = c then Ideal.ofBits .f32 0x00000000#32
    else Ideal.exp (Ideal.div _ (Ideal.ofBits .f32 0x3F000000#32))) = _
  rw [Cert.Spec.ofBits_zero]

/-- The reference's row sums are the specification's. -/
theorem v17_eq (x0 x1 : (⟨S4096x512, .f32⟩ : BufTy).Contents (Elt Ideal)) :
    val_main_v17 (F := Ideal) x0 x1
      = fun i => Cert.Spec.neg (Cert.Spec.yn (Cert.Spec.yb (rows x0) (rows x1))) (i 0) := by
  funext i
  obtain ⟨r, rfl⟩ : ∃ r : Fin 8192, i = ValueIdx.ix1 r := ⟨i 0, ValueIdx.eq_ix1 i⟩
  show val_main_v17 (F := Ideal) x0 x1 (ValueIdx.ix1 r) = Cert.Spec.neg _ r
  rw [val_main_v17_apply, val_main_cst_2_apply, Finset.sum_congr rfl (fun c _ => v16_apply x0 x1 r c)]
  exact Cert.Spec.ofBits_zero_add _

/-! ## The result -/

/-- Everything the reference does after its row sums is the shared final function of the inputs and the row
    sums: the same operations in the same order. -/
theorem v36_eq_tail (x0 x1 : (⟨S4096x512, .f32⟩ : BufTy).Contents (Elt Ideal)) :
    val_main_v36 (F := Ideal) x0 x1 = Cert.Tail.tail x0 x1 (val_main_v17 (F := Ideal) x0 x1) := rfl

/-- The reference's result as the final function of the inputs and the specification's row sums. -/
theorem result_eq (x0 x1 : (⟨S4096x512, .f32⟩ : BufTy).Contents (Elt Ideal)) :
    val_main_v36 (F := Ideal) x0 x1
      = Cert.Tail.tail x0 x1
          (fun i => Cert.Spec.neg (Cert.Spec.yn (Cert.Spec.yb (fun r k => x0 (ValueIdx.ix2 r k))
            (fun r k => x1 (ValueIdx.ix2 r k)))) (i 0)) :=
  (v36_eq_tail x0 x1).trans (congrArg (Cert.Tail.tail x0 x1) (v17_eq x0 x1))

/-- Every weakly fair execution of the reference terminates with its result at the final function of the two
    argument arrays and the specification's row sums of them, the arguments unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v36)
        = Cert.Tail.tail (m' ((c.tc : Thread nD τ).loc main_arg0)) (m' ((c.tc : Thread nD τ).loc main_arg1))
            (fun i => Cert.Spec.neg (Cert.Spec.yn (Cert.Spec.yb
              (fun r k => (m' ((c.tc : Thread nD τ).loc main_arg0) : (⟨S4096x512, .f32⟩ : BufTy).Contents (Elt Ideal)) (ValueIdx.ix2 r k))
              (fun r k => (m' ((c.tc : Thread nD τ).loc main_arg1) : (⟨S4096x512, .f32⟩ : BufTy).Contents (Elt Ideal)) (ValueIdx.ix2 r k)))) (i 0))
      ∧ r.2.mem ((c.tc : Thread nD τ).loc main_arg0) = m' ((c.tc : Thread nD τ).loc main_arg0)
      ∧ r.2.mem ((c.tc : Thread nD τ).loc main_arg1) = m' ((c.tc : Thread nD τ).loc main_arg1)) :=
  (θ_run defs _ _).mono
    (fun _ h c => ⟨(h c).1.trans ((val_main_v36_eq m' c).trans (result_eq _ _)), (h c).2⟩)
    (Cert.ReferenceIdeal.Value.run (F := Ideal) m' ρ')

end Cert.RefValue

end
-- ==== Proof.Assemble.lean ====
import proofs.«160810_j50749333569628_1_alg».proof.Defs
import proofs.«160810_j50749333569628_1_alg».proof.Proof.Gen.Kernel
import proofs.«160810_j50749333569628_1_alg».proof.Proof.Gen.KernelIdeal
import proofs.«160810_j50749333569628_1_alg».proof.Proof.Gen.ReferenceIdeal
import proofs.«160810_j50749333569628_1_alg».proof.Proof.Gen.Pre_finite_inputs
import proofs.«160810_j50749333569628_1_alg».proof.Proof.AssembleK
import proofs.«160810_j50749333569628_1_alg».proof.Proof.AssembleKI
import proofs.«160810_j50749333569628_1_alg».proof.Proof.KernelTail
import proofs.«160810_j50749333569628_1_alg».proof.Proof.RegZeroValue
import proofs.«160810_j50749333569628_1_alg».proof.Proof.RefValue

/-!
# The kernel program's result on the extended reals, and the claims

With every float operation exact, the kernel program's result is the shared final function of the two inputs y, y_hat
and of the specification's row sums of their stacked, normalised rows:

* the first region leaves in the array of normalised rows, entry by entry, the stacked input's entry divided by the
  length of its row, and the stacked input is y on top of y_hat;
* the second region, entered with those rows, leaves in the 8192 × 1 array the row sums of the similarities — this is
  taken here as a hypothesis about that region's proof data at any entry contents;
* dropping the unit axis reads entry i as entry (i, 0), and everything after is the shared final function.

The reference program's result is the same function of its own inputs, so from memories agreeing on the inputs the two
results are equal.  The frame claims are the runs with the value forgotten.
-/

noncomputable section

namespace Cert.Assemble

open Cert.KernelIdeal Cert.KernelIdeal.Gen
open Idealize.ShloMosaic Idealize.ShloMosaic.TcCoe Idealize.ShloMosaic.ValueIdx Idealize.SL.Sem

/-- What the second region's value lemma says, for any contents `V` of the long-lived arrays at its entry: the entry
    (r, 0) of what its write-backs leave in the array of row sums is the specification's row sum of row r, over the
    rows of the array of normalised rows as `V` has it. -/
def RowSumsLeft : Prop :=
  ∀ (V : (c : Dev nD) → (b : Ref sig .tc) → Buf (Elt Ideal) ((c : Thread nD τ).loc b)) (c : Dev nD) (r : Fin 8192),
    (RegOne.dat1 V c).arrAt 2 cfg1.N (ix2 r 0)
      = Cert.Spec.neg (fun r k => (V c main_v1 : S8192x512.Idx → EReal) (ix2 r k)) r

variable (m : (ℓ : Loc nD τ sig) → Buf (Elt Ideal) ℓ)

/-- The specification's stacked rows of the two inputs on core `c`. -/
abbrev stacked (c : Dev nD) : Fin 8192 → Fin 512 → EReal :=
  Cert.Spec.yb (fun r k => (m ((c.tc : Thread nD τ).loc main_arg0) : S4096x512.Idx → EReal) (ix2 r k))
    (fun r k => (m ((c.tc : Thread nD τ).loc main_arg1) : S4096x512.Idx → EReal) (ix2 r k))

/-- The rows of the array the first host operation writes are the stacked rows. -/
theorem stacked_rows (c : Dev nD) :
    (fun (r : Fin 8192) (k : Fin 512) => (V1 m c main_v0 : S8192x512.Idx → EReal) (ix2 r k)) = stacked m c :=
  funext fun r => funext fun k => KTail.v0_apply m c r k

/-- The rows the second region is entered with are the stacked rows, normalised. -/
theorem normalised_rows (c : Dev nD) :
    (fun (r : Fin 8192) (k : Fin 512) => (RegOne.Vof (Assemble.W2 m) c main_v1 : S8192x512.Idx → EReal) (ix2 r k))
      = Cert.Spec.yn (stacked m c) := by
  funext r k
  have hw : Assemble.W2 m c main_v1 = Assemble.o2 m c := by
    unfold Assemble.W2
    exact Function.update_self (Proc.devRef .tc main_v1 : DevRef τ sig) (Assemble.o2 m c) (V1 m c)
  show (Assemble.W2 m c main_v1 : S8192x512.Idx → EReal) (ix2 r k) = _
  rw [hw]
  show (RegZero.dat0 (fun c b => V1 m c b) c).arrAt 1 cfg0.N (ix2 r k) = _
  rw [RegZero.arrAt_out m c r k, stacked_rows]

/-- The row sums the second region leaves, their unit axis dropped, are the specification's. -/
theorem row_sums (h1 : RowSumsLeft) (c : Dev nD) :
    shapeCast S8192 (Assemble.outs m 3 main_v2 c : S8192x1.Idx → EReal) shapeCasts_S8192x1_S8192
      = fun i => Cert.Spec.neg (Cert.Spec.yn (stacked m c)) (i 0) := by
  funext i
  obtain ⟨r, rfl⟩ : ∃ r : Fin 8192, i = ix1 r := ⟨i 0, eq_ix1 i⟩
  show shapeCast S8192 (Assemble.outs m 3 main_v2 c : S8192x1.Idx → EReal) shapeCasts_S8192x1_S8192 (ix1 r) = Cert.Spec.neg _ r
  rw [KTail.reshape_apply, Assemble.outs3]
  exact (h1 (RegOne.Vof (Assemble.W2 m)) c r).trans (congrArg (fun N => Cert.Spec.neg N r) (normalised_rows m c))

/-- Every weakly fair execution of the kernel program on the extended reals terminates with its result at the final
    function of the two argument arrays and the specification's row sums of them, the arguments unchanged. -/
theorem kernelIdeal_run (h1 : RowSumsLeft) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v22)
        = Cert.Tail.tail (m ((c.tc : Thread nD τ).loc main_arg0)) (m ((c.tc : Thread nD τ).loc main_arg1))
            (fun i => Cert.Spec.neg (Cert.Spec.yn (Cert.Spec.yb
              (fun r k => (m ((c.tc : Thread nD τ).loc main_arg0) : S4096x512.Idx → EReal) (ix2 r k))
              (fun r k => (m ((c.tc : Thread nD τ).loc main_arg1) : S4096x512.Idx → EReal) (ix2 r k)))) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono
    (fun _ h c => ⟨(h c).1.trans ((KTail.v22_eq m (Assemble.outs m) c).trans
      (congrArg (Cert.Tail.tail _ _) (row_sums m h1 c))), (h c).2⟩)
    (Assemble.run m ρ)

end Cert.Assemble

/-! ## The claims -/

namespace Cert.Assemble

open Idealize.ShloMosaic Idealize.SL.Sem

/-- Everything the certificate claims, given the second region's value lemma. -/
theorem claim_of (h1 : RowSumsLeft) : Cert.Claim :=
  ⟨Cert.Kernel.Gen.facts, Cert.KernelIdeal.Gen.facts, Cert.ReferenceIdeal.Gen.facts, Cert.Pre_finite_inputs.Gen.facts,
    fun m g _ => Cert.Kernel.Assemble.frame m g,
    fun m g _ => Cert.KernelIdeal.Assemble.frame m g,
    fun m g _ => (θ_run Cert.ReferenceIdeal.defs _ _).mono (fun _ h c => (h c).2) (Cert.RefValue.ref_run m g),
    trivial,
    fun m g m' g' _ hagree =>
      ⟨fun c => Cert.Tail.tail (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (fun i => Cert.Spec.neg (Cert.Spec.yn (Cert.Spec.yb
            (fun r k => (m ((c.tc : Thread Cert.KernelIdeal.nD Cert.KernelIdeal.τ).loc Cert.KernelIdeal.main_arg0) : Cert.KernelIdeal.S4096x512.Idx → EReal) (ValueIdx.ix2 r k))
            (fun r k => (m ((c.tc : Thread Cert.KernelIdeal.nD Cert.KernelIdeal.τ).loc Cert.KernelIdeal.main_arg1) : Cert.KernelIdeal.S4096x512.Idx → EReal) (ValueIdx.ix2 r k)))) (i 0)),
        kernelIdeal_run m h1 g,
        (θ_run Cert.ReferenceIdeal.defs _ _).mono
          (fun _ h c => ⟨by rw [(h c).1, (hagree c).1, (hagree c).2], (h c).2⟩)
          (Cert.RefValue.ref_run m' g')⟩⟩

end Cert.Assemble

end
-- ==== Proof.SimPieces.lean ====
/-
  The second kernel region, part 3: what the body's stores leave in the accumulator and in the output block, as
  arithmetic of what the body loaded.

  Every load and store of the body is of a whole block at zero offsets, so a block read back after one store is that
  store's value.  On the first column tile the accumulator is first set to the zero column, and the update then reads
  that zero column back; on the other tiles the update reads what the point before left.  On the last column tile the
  output block receives the updated accumulator.  In all cases what is left is the one update formula: the accumulator
  read, plus the row sums of the tile's masked exponentials.
-/
import proofs.«160810_j50749333569628_1_alg».proof.Proof.SimFrame
import Idealize.ShloMosaic.Lib.Pipeline.Value

set_option maxRecDepth 16384

noncomputable section

namespace Cert.KernelIdeal.RegOne

open Cert.KernelIdeal Cert.KernelIdeal.Gen
open Idealize.ShloMosaic Idealize.ShloMosaic.TcCoe Idealize.ShloMosaic.Tactic
open Idealize.SL.Sem

variable {F : FTy → Type} [FloatOps F]

/-! ## What the stores leave, as the body's arithmetic -/

/-- The zero offsets of every whole-block load and store of the body. -/
theorem hz2 : (![0, 0] : Fin 2 → Nat) = fun _ => 0 := funext fun a => by fin_cases a <;> rfl

/-- First column tile: the accumulator is zeroed, read back, and receives the zero column plus the tile's row sums. -/
theorem sout1_A_0_eq (c : Dev nD) (i : grid1.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : cond1_0 i) (hc1 : ¬cond1_1 i)
    (x0 : Vec F S1024x512 .bf16) (x1 : Vec F S2048x512 .bf16) :
    sout1_A_0 c i arg2 harg2 arg3 harg3 arg4 harg4 arg5 harg5 hc0 hc1 x0 x1 = k1_pay2 i x0 x1 (k1_pay1 (F := F)) := by
  unfold sout1_A_0
  rw [View.read_writes_eq_canon _ _ _ (scover1_A_0 c i arg2 harg2 arg3 harg3 arg4 harg4 arg5 harg5 hc0 hc1 x0 x1)]
  unfold kernelRun1_A
  dsimp only
  sl_unfold_words
  rw [View.canon_cons_unit_zero (S := S1024x1) hz2, View.readCov_unit_zero (S := S1024x1) _ hz2]
  simp only [View.readAt_eq_ld, harg2.read_unread, harg3.read_unread, harg5.read_unread, View.ld_unit_zero (S := S1024x512) hz2, View.ld_unit_zero (S := S2048x512) hz2, View.ld_unit_zero (S := S1024x1) hz2]

/-- Middle column tiles: the accumulator receives what it held plus the tile's row sums. -/
theorem sout1_B_0_eq (c : Dev nD) (i : grid1.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : ¬cond1_1 i)
    (x0 : Vec F S1024x512 .bf16) (x1 : Vec F S2048x512 .bf16) (xs0 : Vec F S1024x1 .f32) :
    sout1_B_0 c i arg2 harg2 arg3 harg3 arg4 harg4 arg5 harg5 hc0 hc1 x0 x1 xs0 = k1_pay2 i x0 x1 xs0 := by
  unfold sout1_B_0
  rw [View.read_writes_eq_canon _ _ _ (scover1_B_0 c i arg2 harg2 arg3 harg3 arg4 harg4 arg5 harg5 hc0 hc1 x0 x1 xs0)]
  unfold kernelRun1_B
  dsimp only
  sl_unfold_words
  rw [View.canon_unit_zero (S := S1024x1) hz2]
  simp only [View.readAt_eq_ld, harg2.read_unread, harg3.read_unread, harg5.read_unread, View.ld_unit_zero (S := S1024x512) hz2, View.ld_unit_zero (S := S2048x512) hz2, View.ld_unit_zero (S := S1024x1) hz2]

/-- Last column tile: the accumulator receives what it held plus the tile's row sums … -/
theorem sout1_C_0_eq (c : Dev nD) (i : grid1.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : cond1_1 i)
    (x0 : Vec F S1024x512 .bf16) (x1 : Vec F S2048x512 .bf16) (xs0 : Vec F S1024x1 .f32) :
    sout1_C_0 c i arg2 harg2 arg3 harg3 arg4 harg4 arg5 harg5 hc0 hc1 x0 x1 xs0 = k1_pay2 i x0 x1 xs0 := by
  unfold sout1_C_0
  rw [View.read_writes_eq_canon _ _ _ (scover1_C_0 c i arg2 harg2 arg3 harg3 arg4 harg4 arg5 harg5 hc0 hc1 x0 x1 xs0)]
  unfold kernelRun1_C
  dsimp only
  sl_unfold_words
  rw [View.canon_unit_zero (S := S1024x1) hz2]
  simp only [View.readAt_eq_ld, harg2.read_unread, harg3.read_unread, harg5.read_unread, View.ld_unit_zero (S := S1024x512) hz2, View.ld_unit_zero (S := S2048x512) hz2, View.ld_unit_zero (S := S1024x1) hz2]

/-- … and the output block receives the accumulator so updated, read back. -/
theorem out1_C_2_eq (c : Dev nD) (i : grid1.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1024x1 .f32) (harg5 : arg5.IsWhole) (hc0 : ¬cond1_0 i) (hc1 : cond1_1 i)
    (x0 : Vec F S1024x512 .bf16) (x1 : Vec F S2048x512 .bf16) (xs0 : Vec F S1024x1 .f32) :
    out1_C_2 c i arg2 harg2 arg3 harg3 arg4 harg4 arg5 harg5 hc0 hc1 x0 x1 xs0 = k1_pay2 i x0 x1 xs0 := by
  unfold out1_C_2
  rw [View.read_writes_eq_canon _ _ _ (cover1_C_2 c i arg2 harg2 arg3 harg3 arg4 harg4 arg5 harg5 hc0 hc1 x0 x1 xs0)]
  unfold kernelRun1_C
  dsimp only
  sl_unfold_words
  rw [View.canon_unit_zero (S := S1024x1) hz2, View.readCov_unit_zero (S := S1024x1) _ hz2]
  simp only [View.readAt_eq_ld, harg2.read_unread, harg3.read_unread, harg5.read_unread, View.ld_unit_zero (S := S1024x512) hz2, View.ld_unit_zero (S := S2048x512) hz2, View.ld_unit_zero (S := S1024x1) hz2]

end Cert.KernelIdeal.RegOne

end
-- ==== Proof.SimPay.lean ====
/-
  The accumulator update of the similarity row sums, read entry by entry over the extended reals.

  One grid point holds a tile of 1024 rows (a block of the normalized rows) against a tile of 2048 columns (another
  block of the same array).  Entry (p, q) of the tile is the inner product of row p with row q of the two blocks — a
  matrix product against the transposed column block, into a zero accumulator —, times the word of 2, exponentiated;
  except where the global row number i·1024 + p equals the global column number j·2048 + q, compared as 32-bit words,
  where it is zero.  The update adds, to each accumulator entry p, the sum of row p of the tile over its 2048 columns.
-/
import proofs.«160810_j50749333569628_1_alg».proof.Proof.Gen.KernelIdeal.Skeleton
import proofs.«160810_j50749333569628_1_alg».proof.Proof.Spec
import proofs.«160810_j50749333569628_1_alg».proof.Proof.LibKeepdims
import Idealize.ShloMosaic.Lib.Pipeline.Value
import Idealize.ShloMosaic.Lib.ValueIdx
import Idealize.ShloMosaic.Lib.ValueLayout
import Idealize.ShloMosaic.Lib.Affine
import Idealize.ShloMosaic.PureOps.Ideal.Laws

set_option maxRecDepth 16384

noncomputable section

namespace Cert.KernelIdeal.RegOne

open Cert.KernelIdeal Cert.KernelIdeal.Gen
open Idealize.ShloMosaic Idealize.ShloMosaic.ValueIdx
open scoped BigOperators

/-! ## The diagonal test -/

/-- Row i·1024 + p is column j·2048 + q, as the body decides it: on 32-bit words. -/
def onDiag (i : grid1.Coords) (p : Fin 1024) (q : Fin 2048) : Prop :=
  BitVec.ofNat 32 (i 0).val * 1024#32 + BitVec.ofNat 32 p.val = BitVec.ofNat 32 (i 1).val * 2048#32 + BitVec.ofNat 32 q.val

instance (i : grid1.Coords) (p : Fin 1024) (q : Fin 2048) : Decidable (onDiag i p q) :=
  inferInstanceAs (Decidable (_ = _))

/-- The words are equal exactly when the global row and column numbers are: nothing reaches 8192. -/
theorem onDiag_iff (i : grid1.Coords) (p : Fin 1024) (q : Fin 2048) :
    onDiag i p q ↔ (⟨(i 0).val * 1024 + p.val, by have h : (i 0).val < 8 := (i 0).isLt; have := p.isLt; omega⟩ : Fin 8192)
      = ⟨(i 1).val * 2048 + q.val, by have h : (i 1).val < 4 := (i 1).isLt; have := q.isLt; omega⟩ :=
  Spec.diag_word_iff_fin (i 0).val (i 1).val p.val q.val (i 0).isLt (i 1).isLt p.isLt q.isLt

/-- A select on the word of an equality test is the choice on the equality. -/
theorem select_cmpi_eq {α : Type} (a b : BitVec 32) (x y : α) :
    Scalar.select (IntOp.cmpi .eq a b) x y = if a = b then x else y := by
  unfold Scalar.select
  by_cases h : a = b
  · have h1 : IntOp.cmpi .eq a b = 1 := IntOp.cmpi_eq.mpr h
    rw [if_pos h, if_pos h1]
  · have h1 : ¬IntOp.cmpi .eq a b = 1 := fun h' => h (IntOp.cmpi_eq.mp h')
    rw [if_neg h, if_neg h1]

/-- The mask of the tile at (p, q): the test word of the two global numbers, each a splat plus a coordinate. -/
theorem diagBit_apply (i : grid1.Coords) (p : Fin 1024) (q : Fin 2048) :
    cmpi .eq
        (addi (broadcast S1024x2048 (Scalar.muli (BitVec.ofNat 32 (i 0).val) 1024#32)) (iota .tc S1024x2048 32 [0] iota_S1024x2048_d0_w32))
        (addi (broadcast S1024x2048 (Scalar.muli (BitVec.ofNat 32 (i 1).val) 2048#32)) (iota .tc S1024x2048 32 [1] iota_S1024x2048_d1_w32))
        (ix2 p q)
      = IntOp.cmpi .eq (BitVec.ofNat 32 (i 0).val * 1024#32 + BitVec.ofNat 32 p.val)
          (BitVec.ofNat 32 (i 1).val * 2048#32 + BitVec.ofNat 32 q.val) := by
  show IntOp.cmpi .eq (IntOp.addi _ (iota .tc S1024x2048 32 [0] iota_S1024x2048_d0_w32 (ix2 p q)))
      (IntOp.addi _ (iota .tc S1024x2048 32 [1] iota_S1024x2048_d1_w32 (ix2 p q))) = _
  rw [iota_single_apply, iota_single_apply]
  rfl

/-! ## The inner products -/

/-- The dimension numbers of the tile's matrix product: rows by the 512 contracted entries, those by columns. -/
abbrev dotK : DotDims S1024x512 S512x2048 S1024x2048 := dot_S1024x512_S512x2048_S1024x2048_1_0_0_1_n_n

theorem lhs_dotK_0 (j : S1024x2048.Idx) (k : dotK.contr.Idx) : (dotK.lhsIdx j k 0).val = (j 0).val := by
  unfold DotDims.lhsIdx
  rw [dif_neg (show ¬(0 : Fin S1024x512.rank) ∈ dotK.lhsBatch by decide), dif_pos (show (0 : Fin S1024x512.rank) ∈ dotK.lhsNonContracting by decide)]
  rfl
theorem lhs_dotK_1 (j : S1024x2048.Idx) (k : dotK.contr.Idx) : (dotK.lhsIdx j k 1).val = (k ⟨0, by decide⟩).val :=
  dotK.lhsIdx_val_of_single rfl j k
theorem rhs_dotK_0 (j : S1024x2048.Idx) (k : dotK.contr.Idx) : (dotK.rhsIdx j k 0).val = (k ⟨0, by decide⟩).val :=
  dotK.rhsIdx_val_of_single rfl j k
theorem rhs_dotK_1 (j : S1024x2048.Idx) (k : dotK.contr.Idx) : (dotK.rhsIdx j k 1).val = (j 1).val := by
  unfold DotDims.rhsIdx
  rw [dif_neg (show ¬(1 : Fin S512x2048.rank) ∈ dotK.rhsBatch by decide), dif_pos (show (1 : Fin S512x2048.rank) ∈ dotK.rhsNonContracting by decide)]
  rfl

/-- The matrix product into a zero accumulator, at (p, q): the sum over the 512 contracted entries. -/
theorem score_apply (a : FVec Ideal S1024x512 .bf16) (bt : FVec Ideal S512x2048 .bf16) (p : Fin 1024) (q : Fin 2048) :
    matmul dotK none a bt (constant (F := Ideal) S1024x2048 .f32 0x00000000#32) (ix2 p q)
      = ∑ k : Fin 512, a (ix2 p k) * bt (ix2 k q) := by
  simp only [matmul]
  rw [Ideal.matmul_constant_zero_apply, ← Equiv.sum_comp (contrEquiv1 dotK 512 rfl rfl).symm]
  refine Finset.sum_congr rfl fun k _ => ?_
  have hk := contrEquiv1_symm_val dotK 512 rfl rfl k
  have el : dotK.lhsIdx (ix2 p q) ((contrEquiv1 dotK 512 rfl rfl).symm k) = ix2 p k := funext fun c => Fin.ext (by
    match c with
    | ⟨0, _⟩ => exact lhs_dotK_0 _ _
    | ⟨1, _⟩ => exact (lhs_dotK_1 _ _).trans hk)
  have er : dotK.rhsIdx (ix2 p q) ((contrEquiv1 dotK 512 rfl rfl).symm k) = ix2 k q := funext fun c => Fin.ext (by
    match c with
    | ⟨0, _⟩ => exact (rhs_dotK_0 _ _).trans hk
    | ⟨1, _⟩ => exact rhs_dotK_1 _ _)
  rw [el, er]

/-! ## The tile of masked exponentials -/

/-- The tile the update sums along its rows, as the body computes it from the two blocks. -/
def tile (i : grid1.Coords) (x0 : Vec Ideal S1024x512 .bf16) (x1 : Vec Ideal S2048x512 .bf16) : FVec Ideal S1024x2048 .f32 :=
  select
    (cmpi .eq
      (addi (broadcast S1024x2048 (Scalar.muli (BitVec.ofNat 32 (i 0).val) 1024#32)) (iota .tc S1024x2048 32 [0] iota_S1024x2048_d0_w32))
      (addi (broadcast S1024x2048 (Scalar.muli (BitVec.ofNat 32 (i 1).val) 2048#32)) (iota .tc S1024x2048 32 [1] iota_S1024x2048_d1_w32)))
    (broadcast S1024x2048 (Scalar.ofBits .f32 0x00000000#32 : Ideal .f32))
    (exp (mulf
      (matmul dot_S1024x512_S512x2048_S1024x2048_1_0_0_1_n_n none
        (shapeCast S1024x512 x0 shapeCasts_S1024x512_S1024x512 : FVec Ideal S1024x512 .bf16)
        (transpose S512x2048 [1, 0] (shapeCast S2048x512 x1 shapeCasts_S2048x512_S2048x512 : FVec Ideal S2048x512 .bf16)
          transposes_S2048x512_p1_0_S512x2048 : FVec Ideal S512x2048 .bf16)
        (constant (F := Ideal) S1024x2048 .f32 0x00000000#32))
      (broadcast S1024x2048 (Scalar.ofBits .f32 0x40000000#32 : Ideal .f32))))

/-- The update is the accumulator plus the row sums of the tile, kept as a column. -/
theorem pay2_eq_tile (i : grid1.Coords) (x0 : Vec Ideal S1024x512 .bf16) (x1 : Vec Ideal S2048x512 .bf16) (acc : Vec Ideal S1024x1 .f32) :
    k1_pay2 (F := Ideal) i x0 x1 acc
      = shapeCast S1024x1 (addf (F := Ideal) acc (shapeCast S1024x1
          (multiReduction (F := Ideal) .add [1] S1024 (tile i x0 x1) 0x00000000#32 reduces_S1024x2048_S1024 (.inl rfl) rfl)
          shapeCasts_S1024_S1024x1)) shapeCasts_S1024x1_S1024x1 := rfl

/-- Entry (p, q) of the tile: zero on the diagonal, else the exponential of the inner product times the word of 2. -/
theorem tile_apply (i : grid1.Coords) (x0 : Vec Ideal S1024x512 .bf16) (x1 : Vec Ideal S2048x512 .bf16) (p : Fin 1024) (q : Fin 2048) :
    tile i x0 x1 (ix2 p q) = if onDiag i p q then (0 : EReal)
      else Ideal.exp ((∑ k : Fin 512, (x0 (ix2 p k) : EReal) * (x1 (ix2 q k) : EReal)) * Ideal.ofBits .f32 0x40000000#32) := by
  unfold tile
  rw [select_apply, diagBit_apply, select_cmpi_eq]
  show (if onDiag i p q then Ideal.ofBits .f32 0x00000000#32
    else Ideal.exp (matmul dotK none (shapeCast S1024x512 x0 shapeCasts_S1024x512_S1024x512 : FVec Ideal S1024x512 .bf16)
        (transpose S512x2048 [1, 0] (shapeCast S2048x512 x1 shapeCasts_S2048x512_S2048x512 : FVec Ideal S2048x512 .bf16)
          transposes_S2048x512_p1_0_S512x2048 : FVec Ideal S512x2048 .bf16)
        (constant (F := Ideal) S1024x2048 .f32 0x00000000#32) (ix2 p q) * Ideal.ofBits .f32 0x40000000#32)) = _
  rw [score_apply, Spec.ofBits_zero, shapeCast_self, shapeCast_self]
  refine congrArg (fun s => if onDiag i p q then (0 : EReal) else Ideal.exp (s * Ideal.ofBits .f32 0x40000000#32)) ?_
  exact Finset.sum_congr rfl fun k _ => congrArg (fun v => (x0 (ix2 p k) : EReal) * v)
    (transpose_ix2_apply x1 transposes_S2048x512_p1_0_S512x2048 k q)

/-! ## The update at an entry -/

/-- Row p's entry of the reduced index, with column q put back, is (p, q). -/
theorem lift_row (p : Fin 1024) (q : Fin 2048) : reduces_S1024x2048_S1024.lift (ix1 p) q = ix2 p q := by
  funext c; apply Fin.ext
  fin_cases c <;> rfl

/-- The zero column the accumulator is started from. -/
theorem pay1_apply (p : Fin 1024) : k1_pay1 (F := Ideal) (ix2 p 0) = (0 : EReal) := by
  unfold k1_pay1
  rw [shapeCast_self]
  exact Spec.ofBits_zero

/-- The update at entry p: what the accumulator held there, plus the sum of row p of the tile. -/
theorem pay2_apply (i : grid1.Coords) (x0 : Vec Ideal S1024x512 .bf16) (x1 : Vec Ideal S2048x512 .bf16) (acc : Vec Ideal S1024x1 .f32) (p : Fin 1024) :
    k1_pay2 (F := Ideal) i x0 x1 acc (ix2 p 0)
      = (acc (ix2 p 0) : EReal) + ∑ q : Fin 2048, (if onDiag i p q then (0 : EReal)
          else Ideal.exp ((∑ k : Fin 512, (x0 (ix2 p k) : EReal) * (x1 (ix2 q k) : EReal)) * Ideal.ofBits .f32 0x40000000#32)) := by
  rw [pay2_eq_tile, shapeCast_self]
  refine congrArg (fun s => (acc (ix2 p 0) : EReal) + s) ?_
  refine (Cert.Gcn.shapeCast_a_a1_apply _ shapeCasts_S1024_S1024x1 p 0).trans ?_
  refine (Ideal.multiReduction_add_single (tile i x0 x1) 0x00000000#32 reduces_S1024x2048_S1024 (.inl rfl) rfl (ix1 p)).trans ?_
  show ∑ q : Fin 2048, tile i x0 x1 (reduces_S1024x2048_S1024.lift (ix1 p) q) = _
  exact Finset.sum_congr rfl fun q _ => by rw [lift_row]; exact tile_apply i x0 x1 p q

/-- The same with the zero the row sum is started from and the zero accumulator of the matrix product written out. -/
theorem pay2_apply_zeros (i : grid1.Coords) (x0 : Vec Ideal S1024x512 .bf16) (x1 : Vec Ideal S2048x512 .bf16) (acc : Vec Ideal S1024x1 .f32) (p : Fin 1024) :
    k1_pay2 (F := Ideal) i x0 x1 acc (ix2 p 0)
      = (acc (ix2 p 0) : EReal) + (Ideal.ofBits .f32 0x00000000#32 + ∑ q : Fin 2048, (if onDiag i p q then (0 : EReal)
          else Ideal.exp ((0 + ∑ k : Fin 512, (x0 (ix2 p k) : EReal) * (x1 (ix2 q k) : EReal)) * Ideal.ofBits .f32 0x40000000#32))) := by
  rw [pay2_apply, Spec.ofBits_zero_add]
  simp only [zero_add]

end Cert.KernelIdeal.RegOne

end
-- ==== Proof.SimBlocks.lean ====
import proofs.«160810_j50749333569628_1_alg».proof.Proof.SimFrame
import Idealize.ShloMosaic.Lib.Pipeline.Value
import Idealize.ShloMosaic.Lib.ValueIdx

/-!
# The similarity launch: from its blocks to whole arrays

The second launch walks an 8 × 4 grid; point `t = 4·i + j` pairs row tile `i` (1024 rows) with column tile `j` (2048
rows of the same array, used as columns of the similarity matrix). Both tiles are blocks of the one array of normalised
rows: entry `(p, k)` of the row tile is entry `(1024·i + p, k)` of the array and entry `(q, k)` of the column tile is
entry `(2048·j + q, k)`. The output is a column of 8192 row sums written back in eight blocks of 1024, one per row tile,
at the last column tile `j = 3` only; block `i` is rows `1024·i … 1024·i + 1023`. So if what is written back at each
point `4·i + 3` is block `i` of one function `G` of the row, the output column ends holding `G`.
-/

set_option maxRecDepth 16384

noncomputable section

namespace Cert.KernelIdeal.RegOne

open Cert.KernelIdeal Cert.KernelIdeal.Gen
open Idealize.ShloMosaic Idealize.ShloMosaic.TcCoe Idealize.ShloMosaic.ValueIdx
open Idealize.SL.Sem
open Idealize.ShloMosaic.Pipeline (Dat)

/-! ## The grid and the blocks' positions -/

/-- The grid has 32 points. -/
theorem point_lt (t : Fin cfg1.N) : t.val < 32 := lt_of_lt_of_eq t.isLt (show cfg1.N = 32 from N_1)

/-- Point `t` is row tile `t / 4` against column tile `t % 4`. -/
theorem coords1 : ∀ t : Fin cfg1.N, (grid1.coords t 0).val = t.val / 4 ∧ (grid1.coords t 1).val = t.val % 4 :=
  (by decide +kernel : ∀ t : Fin grid1.N, (grid1.coords t 0).val = t.val / 4 ∧ (grid1.coords t 1).val = t.val % 4)

/-- Where the three windows' blocks sit at point `t`: the row tile and the output block at row block `t / 4`, the
    column tile at row block `t % 4`, all at column block `0`. -/
theorem block_positions1 : ∀ t : Fin cfg1.N, win1_0.index t (0 : Fin 2) = t.val / 4 ∧ win1_0.index t (1 : Fin 2) = 0
    ∧ win1_1.index t (0 : Fin 2) = t.val % 4 ∧ win1_1.index t (1 : Fin 2) = 0
    ∧ win1_2.index t (0 : Fin 2) = t.val / 4 ∧ win1_2.index t (1 : Fin 2) = 0 :=
  (by decide +kernel : ∀ t : Fin grid1.N, _)

section
variable (V : (c : Dev nD) → (b : Ref sig .tc) → Buf (Elt Ideal) ((c : Thread nD τ).loc b))

/-! ## The two input tiles as rows of the one array -/

/-- Entry `(p, k)` of the row tile at point `t` is entry `(1024·(t / 4) + p, k)` of the array. -/
theorem iblk1_0_apply (c : Dev nD) (t : Fin cfg1.N) (p : Fin 1024) (k : Fin 512) :
    (iblk1 V c 0 t : Vec Ideal S1024x512 .bf16) (ix2 p k)
      = (V c main_v1 : S8192x512.Idx → EReal) (ix2 (⟨(t.val / 4) * 1024 + p.val, by have := point_lt t; have := p.isLt; omega⟩ : Fin 8192) k) := by
  obtain ⟨e0, e1, -, -, -, -⟩ := block_positions1 t
  unfold iblk1
  rw [View.read_apply]
  show (V c main_v1 : S8192x512.Idx → EReal) _ = (V c main_v1 : S8192x512.Idx → EReal) _
  congr 1
  funext a
  apply Fin.ext
  match a with
  | ⟨0, _⟩ => show win1_0.index t (0 : Fin 2) * 1024 + 1 * p.val = (t.val / 4) * 1024 + p.val; rw [e0]; omega
  | ⟨1, _⟩ => show win1_0.index t (1 : Fin 2) * 512 + 1 * k.val = k.val; rw [e1]; omega

/-- Entry `(q, k)` of the column tile at point `t` is entry `(2048·(t % 4) + q, k)` of the array. -/
theorem iblk1_1_apply (c : Dev nD) (t : Fin cfg1.N) (q : Fin 2048) (k : Fin 512) :
    (iblk1 V c 1 t : Vec Ideal S2048x512 .bf16) (ix2 q k)
      = (V c main_v1 : S8192x512.Idx → EReal) (ix2 (⟨(t.val % 4) * 2048 + q.val, by have := q.isLt; omega⟩ : Fin 8192) k) := by
  obtain ⟨-, -, e2, e3, -, -⟩ := block_positions1 t
  unfold iblk1
  rw [View.read_apply]
  show (V c main_v1 : S8192x512.Idx → EReal) _ = (V c main_v1 : S8192x512.Idx → EReal) _
  congr 1
  funext a
  apply Fin.ext
  match a with
  | ⟨0, _⟩ => show win1_1.index t (0 : Fin 2) * 2048 + 1 * q.val = (t.val % 4) * 2048 + q.val; rw [e2]; omega
  | ⟨1, _⟩ => show win1_1.index t (1 : Fin 2) * 512 + 1 * k.val = k.val; rw [e3]; omega

/-! ## The output column from its eight blocks -/

/-- A function of the row as contents of the output column. -/
def column (G : Fin 8192 → EReal) : S8192x1.Idx → Elt Ideal .f32 := fun idx => G ⟨(idx 0).val, (idx 0).isLt⟩

/-- An entry of the output column is in point `t`'s block exactly when each coordinate is in the block's range. -/
theorem mem_block1 (t : Fin cfg1.N) (i : S8192x1.Idx) :
    i ∈ ((cfg1.win 2).blk t).view.set ↔ ∀ a : Fin 2, win1_2.index t a * S1024x1.size a ≤ (i a).val
      ∧ (i a).val < win1_2.index t a * S1024x1.size a + S1024x1.size a := by
  show i ∈ ((View.whole main_v2).slice (win1_2.rect t)).set ↔ _
  rw [View.set_slice_whole, Rect.mem_set_unit]
  exact Iff.rfl

/-- Row `r` of the output column is written back at point `4·(r / 1024) + 3`; so the eight write-backs fill it. -/
theorem blocks_fill1 (i : S8192x1.Idx) :
    ∃ t : Fin cfg1.N, (cfg1.win 2).flush t = true ∧ i ∈ ((cfg1.win 2).blk t).view.set := by
  have hi0 : (i 0).val < 8192 := (i 0).isLt
  have hi1 : (i 1).val < 1 := (i 1).isLt
  have hN : 4 * ((i 0).val / 1024) + 3 < cfg1.N := by rw [show cfg1.N = 32 from N_1]; omega
  obtain ⟨-, -, -, -, e4, e5⟩ := block_positions1 ⟨4 * ((i 0).val / 1024) + 3, hN⟩
  refine ⟨⟨4 * ((i 0).val / 1024) + 3, hN⟩, (flush1_2 _).mpr (by show (4 * ((i 0).val / 1024) + 3) % 4 = 3; omega), ?_⟩
  rw [mem_block1]
  intro a
  match a with
  | ⟨0, _⟩ =>
    show win1_2.index ⟨4 * ((i 0).val / 1024) + 3, hN⟩ (0 : Fin 2) * 1024 ≤ (i 0).val
      ∧ (i 0).val < win1_2.index ⟨4 * ((i 0).val / 1024) + 3, hN⟩ (0 : Fin 2) * 1024 + 1024
    rw [e4]
    show (4 * ((i 0).val / 1024) + 3) / 4 * 1024 ≤ (i 0).val ∧ (i 0).val < (4 * ((i 0).val / 1024) + 3) / 4 * 1024 + 1024
    omega
  | ⟨1, _⟩ =>
    show win1_2.index ⟨4 * ((i 0).val / 1024) + 3, hN⟩ (1 : Fin 2) * 1 ≤ (i 1).val
      ∧ (i 1).val < win1_2.index ⟨4 * ((i 0).val / 1024) + 3, hN⟩ (1 : Fin 2) * 1 + 1
    rw [e5]; omega

/-- THE OUTPUT COLUMN after the launch: if what every point `4·i + 3` leaves in the output block is block `i` of `G`,
    the column ends holding `G`. -/
theorem arrAt2_of_blocks (c : Dev nD) (G : Fin 8192 → EReal)
    (h : ∀ t : Fin cfg1.N, t.val % 4 = 3 → ∀ p : Fin 1024,
      (outsAt1 V c t.val t.isLt).1 (ix2 p (0 : Fin 1))
        = G ⟨(t.val / 4) * 1024 + p.val, by have := point_lt t; have := p.isLt; omega⟩) :
    ∀ r : Fin 8192, (dat1 V c).arrAt 2 cfg1.N (ix2 r (0 : Fin 1)) = G r := by
  have hfin : (dat1 V c).arrAt 2 cfg1.N = column G := by
    refine (dat1 V c).arrAt_eq_of_cover 2 (column G) (fun t hf => ?_) blocks_fill1
    have h3 : t.val % 4 = 3 := (flush1_2 t).mp hf
    obtain ⟨-, -, -, -, e4, e5⟩ := block_positions1 t
    show (cfg1.win 2).cut (grid1.coords t) ((dat1 V c).after 2 t) = _
    rw [after1_2]
    funext j
    obtain ⟨p, u, rfl⟩ : ∃ (p : Fin 1024) (u : Fin 1), j = ix2 p u := ⟨j 0, j 1, eq_ix2 j⟩
    obtain rfl : u = 0 := Subsingleton.elim _ _
    show (outsAt1 V c t.val t.isLt).1 (ix2 p (0 : Fin 1)) = column G (((cfg1.win 2).blk t).view.emb (ix2 p (0 : Fin 1)))
    refine (h t h3 p).trans ?_
    unfold column
    refine congrArg G (Fin.ext ?_)
    show (t.val / 4) * 1024 + p.val = win1_2.index t (0 : Fin 2) * 1024 + 1 * p.val
    rw [e4]; omega
  intro r
  rw [hfin]
  rfl

end

end Cert.KernelIdeal.RegOne

end
-- ==== Proof.SimValue.lean ====
/-
  The second kernel region: the accumulator over a row tile's four column tiles, and the array of row sums.

  Point t = 4 i + j of the grid adds to entry p of the accumulator the sum, over the 2048 columns of column tile j, of
  the similarities of row i * 1024 + p.  Started from zero at j = 0, the accumulator after point t therefore holds the
  sum of the first j + 1 tile sums of that row, by induction on the position; at j = 3 this is the sum over all 8192
  columns, and the point copies it to the output block.  The output blocks of the points 4 i + 3 tile the result array,
  so every entry of it ends at its row's sum of similarities.
-/
import proofs.«160810_j50749333569628_1_alg».proof.Proof.SimFrame
import proofs.«160810_j50749333569628_1_alg».proof.Proof.SimPieces
import proofs.«160810_j50749333569628_1_alg».proof.Proof.SimPay
import proofs.«160810_j50749333569628_1_alg».proof.Proof.SimBlocks
import proofs.«160810_j50749333569628_1_alg».proof.Proof.Spec
import Idealize.ShloMosaic.Lib.Pipeline.Value
import Idealize.ShloMosaic.Lib.ValueIdx

set_option maxRecDepth 16384

noncomputable section

namespace Cert.KernelIdeal.RegOne

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

/-! ## Rows and columns of a grid point -/

/-- Row p of the row tile of point t is a row of the array. -/
theorem row_lt (t : Fin cfg1.N) (p : Fin 1024) : t.val / 4 * 1024 + p.val < 8192 := by
  have h : t.val < 32 := lt_of_lt_of_eq t.isLt N_1
  have := p.isLt
  omega

/-- Column q of the column tile of point t is a row of the array. -/
theorem col_lt (t : Fin cfg1.N) (q : Fin 2048) : t.val % 4 * 2048 + q.val < 8192 := by
  have := q.isLt
  omega

/-- The global row that entry p of the accumulator stands for at point t. -/
def rowOf (t : Fin cfg1.N) (p : Fin 1024) : Fin 8192 := ⟨t.val / 4 * 1024 + p.val, row_lt t p⟩

/-! ## One column tile's contribution -/

/-- The sum over a column tile of the masked exponentials of twice the inner products, read off a row block and a
    column block that hold the rows of N they should, is the tile's sum of similarities. -/
theorem tile_value (N : Fin 8192 → Fin 512 → EReal) (r : Fin 8192) (j : ℕ) (hj : j < 4)
    (x0 : Vec Ideal S1024x512 .bf16) (x1 : Vec Ideal S2048x512 .bf16) (p : Fin 1024)
    (hx0 : ∀ k : Fin 512, (x0 (ix2 p k) : EReal) = N r k)
    (hx1 : ∀ (q : Fin 2048) (k : Fin 512), (x1 (ix2 q k) : EReal) = N ⟨j * 2048 + q.val, by have := q.isLt; omega⟩ k)
    (P : Fin 2048 → Prop) [DecidablePred P] (hP : ∀ q : Fin 2048, P q ↔ r.val = j * 2048 + q.val) :
    (∑ q : Fin 2048, (if P q then (0 : EReal)
        else Ideal.exp ((∑ k : Fin 512, (x0 (ix2 p k) : EReal) * (x1 (ix2 q k) : EReal)) * Ideal.ofBits .f32 0x40000000#32)))
      = Cert.Spec.tileSum (Cert.Spec.sim N r) j := by
  rw [Cert.Spec.tileSum_of_lt _ j hj]
  refine Finset.sum_congr rfl fun q _ => ?_
  simp only [hx0, hx1]
  exact Cert.Spec.sim_mul_two' N r _ (P q) ((hP q).trans (by rw [Fin.ext_iff]))

/-! ## The update at a grid point -/

section
variable (V : (c : Dev nD) → (b : Ref sig .tc) → Buf (Elt Ideal) ((c : Thread nD τ).loc b))

/-- The normalized rows, by row and column. -/
def rows (c : Dev nD) : Fin 8192 → Fin 512 → EReal := fun r k => (V c main_v1 : S8192x512.Idx → EReal) (ix2 r k)

/-- The update at point t, at entry p: what the accumulator held there plus the sum of similarities of row
    (t / 4) * 1024 + p over column tile t % 4. -/
theorem pay2_at (c : Dev nD) (t : Fin cfg1.N) (acc : Vec Ideal S1024x1 .f32) (p : Fin 1024) :
    k1_pay2 (F := Ideal) (grid1.coords t) (iblk1 V c 0 t) (iblk1 V c 1 t) acc (ix2 p (0 : Fin 1))
      = (acc (ix2 p (0 : Fin 1)) : EReal) + Cert.Spec.tileSum (Cert.Spec.sim (rows V c) (rowOf t p)) (t.val % 4) :=
  (pay2_apply (grid1.coords t) (iblk1 V c 0 t) (iblk1 V c 1 t) acc p).trans
    (congrArg (fun z : EReal => (acc (ix2 p (0 : Fin 1)) : EReal) + z)
      (tile_value (rows V c) (rowOf t p) (t.val % 4) (Nat.mod_lt _ (by omega)) (iblk1 V c 0 t) (iblk1 V c 1 t) p
        (fun k => iblk1_0_apply V c t p k) (fun q k => iblk1_1_apply V c t q k) (fun q => onDiag (grid1.coords t) p q)
        (fun q => by rw [onDiag_iff, Fin.ext_iff]; show (grid1.coords t 0).val * 1024 + p.val = (grid1.coords t 1).val * 2048 + q.val ↔ _; rw [(coords1 t).1, (coords1 t).2]; rfl)))

/-! ## The accumulator, point by point -/

/-- On the first column tile the accumulator is left at zero plus the tile's sum. -/
theorem acc_first (c : Dev nD) (t : Fin cfg1.N) (h0 : t.val % 4 = 0) (p : Fin 1024) :
    ((outsAt1 V c t.val t.isLt).2 (ix2 p (0 : Fin 1)) : EReal)
      = 0 + Cert.Spec.tileSum (Cert.Spec.sim (rows V c) (rowOf t p)) (t.val % 4) := by
  have h1 : ¬t.val % 4 = 3 := by omega
  rw [outsAt1_A V c t h0 h1]
  dsimp only
  rw [sout1_A_0_eq c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)]
  refine (pay2_at V c t (k1_pay1 (F := Ideal)) p).trans ?_
  rw [pay1_apply p]

/-- On every later column tile the accumulator is left at what the point before left plus the tile's sum. -/
theorem acc_next (c : Dev nD) (t : Fin cfg1.N) (h0 : ¬t.val % 4 = 0) (p : Fin 1024) :
    ((outsAt1 V c t.val t.isLt).2 (ix2 p (0 : Fin 1)) : EReal)
      = ((outsAt1 V c (t.val - 1) (Nat.lt_of_le_of_lt (Nat.sub_le _ _) t.isLt)).2 (ix2 p (0 : Fin 1)) : EReal)
        + Cert.Spec.tileSum (Cert.Spec.sim (rows V c) (rowOf t p)) (t.val % 4) := by
  by_cases h1 : t.val % 4 = 3
  · rw [outsAt1_C V c t h0 h1]
    dsimp only
    rw [sout1_C_0_eq c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2]
    exact pay2_at V c t (outsAt1 V c (t.val - 1) (Nat.lt_of_le_of_lt (Nat.sub_le _ _) t.isLt)).2 p
  · rw [outsAt1_B V c t h0 h1]
    dsimp only
    rw [sout1_B_0_eq c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2]
    exact pay2_at V c t (outsAt1 V c (t.val - 1) (Nat.lt_of_le_of_lt (Nat.sub_le _ _) t.isLt)).2 p

/-- On the last column tile the output block receives what the accumulator is left at. -/
theorem out_last (c : Dev nD) (t : Fin cfg1.N) (h3 : t.val % 4 = 3) (p : Fin 1024) :
    ((outsAt1 V c t.val t.isLt).1 (ix2 p (0 : Fin 1)) : EReal) = (outsAt1 V c t.val t.isLt).2 (ix2 p (0 : Fin 1)) := by
  have h0 : ¬t.val % 4 = 0 := by omega
  rw [outsAt1_C V c t h0 h3]
  dsimp only
  rw [out1_C_2_eq c (grid1.coords t) (ms1_0 t) (hs1_0 t) (ms1_1 t) (hs1_1 t) (ms1_2 t) (hs1_2 t) scM1_0 (Memref.isWhole_whole _) (fun h => h0 ((hcond1_0 t).mp h)) ((hcond1_1 t).mpr h3) (iblk1 V c 0 t) (iblk1 V c 1 t) (outsAt1 V c (t.val - 1) (Nat.lt_of_le_of_lt (Nat.sub_le _ _) t.isLt)).2,
    sout1_C_0_eq c (grid1.coords t) (ms1_0 t) (hs1_0 t) (ms1_1 t) (hs1_1 t) (ms1_2 t) (hs1_2 t) scM1_0 (Memref.isWhole_whole _) (fun h => h0 ((hcond1_0 t).mp h)) ((hcond1_1 t).mpr h3) (iblk1 V c 0 t) (iblk1 V c 1 t) (outsAt1 V c (t.val - 1) (Nat.lt_of_le_of_lt (Nat.sub_le _ _) t.isLt)).2]

/-- After position n the accumulator's entry p is the sum of the first n % 4 + 1 tile sums of its row. -/
theorem acc_run (c : Dev nD) (p : Fin 1024) (n : ℕ) : ∀ hn : n < cfg1.N,
    ((outsAt1 V c n hn).2 (ix2 p (0 : Fin 1)) : EReal)
      = ∑ j ∈ Finset.range (n % 4 + 1), Cert.Spec.tileSum (Cert.Spec.sim (rows V c) (rowOf ⟨n, hn⟩ p)) j := by
  induction n with
  | zero =>
    intro hn
    refine (acc_first V c ⟨0, hn⟩ rfl p).trans ?_
    show 0 + Cert.Spec.tileSum _ (0 % 4) = ∑ j ∈ Finset.range (0 % 4 + 1), _
    rw [Nat.zero_mod, Finset.sum_range_one, zero_add]
  | succ n ih =>
    intro hn
    by_cases h0 : (n + 1) % 4 = 0
    · refine (acc_first V c ⟨n + 1, hn⟩ h0 p).trans ?_
      show 0 + Cert.Spec.tileSum _ ((n + 1) % 4) = ∑ j ∈ Finset.range ((n + 1) % 4 + 1), _
      rw [h0, Finset.sum_range_one, zero_add]
    · have hr : rowOf ⟨n, Nat.lt_of_succ_lt hn⟩ p = rowOf ⟨n + 1, hn⟩ p :=
        Fin.ext (by show n / 4 * 1024 + p.val = (n + 1) / 4 * 1024 + p.val; omega)
      have hm : n % 4 + 1 = (n + 1) % 4 := by omega
      refine (acc_next V c ⟨n + 1, hn⟩ h0 p).trans ?_
      rw [Finset.sum_range_succ]
      refine congrArg₂ (· + ·) ((ih (Nat.lt_of_succ_lt hn)).trans ?_) rfl
      rw [hm, hr]

/-- What a point of the last column tile leaves in the output block: its rows' sums of similarities. -/
theorem out_value (c : Dev nD) (t : Fin cfg1.N) (h3 : t.val % 4 = 3) (p : Fin 1024) :
    ((outsAt1 V c t.val t.isLt).1 (ix2 p (0 : Fin 1)) : EReal) = Cert.Spec.neg (rows V c) (rowOf t p) := by
  refine (out_last V c t h3 p).trans ((acc_run V c p t.val t.isLt).trans ?_)
  rw [h3]
  exact (Cert.Spec.sum_eq_four_tiles (Cert.Spec.sim (rows V c) (rowOf t p))).symm

/-! ## The array of row sums -/

/-- After the region every entry of the result array is its row's sum of similarities: the points of the last
    column tile write their rows' sums back, and their output blocks tile the array. -/
theorem arrAt_out1 (c : Dev nD) (r : Fin 8192) :
    (dat1 V c).arrAt 2 cfg1.N (ix2 r (0 : Fin 1))
      = Cert.Spec.neg (fun r k => (V c main_v1 : S8192x512.Idx → EReal) (ix2 r k)) r :=
  arrAt2_of_blocks V c (Cert.Spec.neg (rows V c)) (fun t h3 p => out_value V c t h3 p) r

end

end Cert.KernelIdeal.RegOne

end
-- ==== Proof.lean ====
/-
  The certificate's claims.  Both programs compute, on the extended reals, one scalar function of the two inputs and
  of the 8192 row sums of similarities between the stacked, normalised rows; the kernel program gets those row sums
  from two kernel regions (rows normalised block by block; similarities summed over four column tiles with the product
  by two in place of the quotient by one half), the reference from whole-array operations, and the two agree row by
  row.  The frame claims are the same runs with the value forgotten.
-/
import proofs.«160810_j50749333569628_1_alg».proof.Defs
import proofs.«160810_j50749333569628_1_alg».proof.Proof.Assemble
import proofs.«160810_j50749333569628_1_alg».proof.Proof.SimValue

noncomputable section

namespace Cert.Proof

theorem claim : Cert.Claim :=
  Cert.Assemble.claim_of fun V c r => Cert.KernelIdeal.RegOne.arrAt_out1 V c r

end Cert.Proof

end
